-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x512 : Shape := ⟨3, ![4, 4096, 512]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x512 .f32) (main_arg2 : FVec F S4x4096x512 .f32) (main_arg3 : FVec F S1024x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S4x4096x512 : Shape := ⟨3, ![4, 4096, 512]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S16384x512 : Shape := ⟨2, ![16384, 512]⟩
abbrev S1x512 : Shape := ⟨2, ![1, 512]⟩
abbrev S1x1024x1024 : Shape := ⟨3, ![1, 1024, 1024]⟩
abbrev S1x512x512 : Shape := ⟨3, ![1, 512, 512]⟩
abbrev S1x1024x512 : Shape := ⟨3, ![1, 1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 22
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S16384x512, .f32⟩
  | .hbm, ⟨16, _⟩ => ⟨S16384x512, .f32⟩
  | .hbm, ⟨17, _⟩ => ⟨S16384x512, .bf16⟩
  | .hbm, ⟨18, _⟩ => ⟨S16384x512, .bf16⟩
  | .hbm, ⟨19, _⟩ => ⟨S4x4096x512, .bf16⟩
  | .hbm, ⟨20, _⟩ => ⟨S4x4096x512, .bf16⟩
  | .hbm, ⟨21, _⟩ => ⟨S4x4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x512, .f32⟩
  | .local _ .vmem, ⟨15, _⟩ => ⟨S512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x1024x512, .f32⟩
  | .local _ .vmem, ⟨21, _⟩ => ⟨S1x1024x512, .f32⟩
  | .local _ .vmem, ⟨22, _⟩ => ⟨S1024x512, .bf16⟩
  | .local _ .vmem, ⟨23, _⟩ => ⟨S1024x1, .f32⟩
  | .local _ .vmem, ⟨24, _⟩ => ⟨S1024x1, .f32⟩
  | .local _ .vmem, ⟨25, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v39 : BitVec 1 := Scalar.cmpi .eq arg2 c7_i32
  let v40 : BitVec 32 := Scalar.extui v39
  let c0_i32_25 : BitVec 32 := 0#32
  let v41 : BitVec 1 := Scalar.cmpi .ne v40 c0_i32_25
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bcast_S_S1024x512 : S_.BroadcastsInDim S1024x512 (![] : Fin 0 → Fin S1024x512.rank)
  bcast_S_S512 : S_.BroadcastsInDim S512 (![] : Fin 0 → Fin S512.rank)
  shapeCasts_S4x4096x512_S16384x512 : S4x4096x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S16384x512_S4x4096x512 : S16384x512.ShapeCasts S4x4096x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512_S512 : S512.ShapeCasts S512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S1024x512_S1024 : S1024x512.Reduces [1] S1024
  shapeCasts_S1024_S1024x1 : S1024.ShapeCasts S1024x1
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .bf16 = 32 ∨ (Rect.block (s := S16384x512) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .bf16 = 32 ∨ (Rect.block (s := S16384x512) S1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S4x4096x512.size a
  hwx1_3 : ∀ i : grid1.Coords, EltTy.bits .bf16 = 32 ∨ (Rect.block (s := S4x4096x512) S1x512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S4x4096x512.size a
  hwx1_4 : ∀ i : grid1.Coords, EltTy.bits .bf16 = 32 ∨ (Rect.block (s := S4x4096x512) S1x512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S4x4096x512.size a
  hwx1_5 : ∀ i : grid1.Coords, EltTy.bits .f32 = 32 ∨ (Rect.block (s := S4x4096x512) S1x1024x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x512 : Shape := ⟨3, ![4, 4096, 512]⟩
abbrev S1024x512 : Shape := ⟨2, ![1024, 512]⟩
abbrev S512 : Shape := ⟨1, ![512]⟩
abbrev S512x512 : Shape := ⟨2, ![512, 512]⟩
abbrev S1x1x512 : Shape := ⟨3, ![1, 1, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S4x4096x512, .f32⟩
  | .hbm, ⟨10, _⟩ => ⟨S1x1x512, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S1x1x512, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S1x1x512, .f32⟩
  | .hbm, ⟨19, _⟩ => ⟨S4x4096x512, .f32⟩
  | .hbm, ⟨20, _⟩ => ⟨S4x4096x512, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x512_S4x4096x512_2_0_01_1_n_n_wf : DotDims.WF S4x4096x1024 S1024x512 S4x4096x512 [2] [0] [0, 1] [1] [] []
  dot_S4x4096x512_S512x512_S4x4096x512_2_0_01_1_n_n_wf : DotDims.WF S4x4096x512 S512x512 S4x4096x512 [2] [0] [0, 1] [1] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x1024_S1024x512_S4x4096x512_2_0_01_1_n_n : DotDims S4x4096x1024 S1024x512 S4x4096x512 where
  lhsContracting := [2]
  rhsContracting := [0]
  lhsNonContracting := [0, 1]
  rhsNonContracting := [1]
  lhsBatch := []
  rhsBatch := []
  wf := dot_S4x4096x1024_S1024x512_S4x4096x512_2_0_01_1_n_n_wf
def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.KvBodyK.lean ====
import proofs.«142881_j27659589386344_2_alg».proof.Proof.Gen.Kernel.Launch
import proofs.«142881_j27659589386344_2_alg».proof.Proof.Gen.Kernel.Skeleton
import proofs.«142881_j27659589386344_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the key/value projection kernel): the body obligation

The first kernel call of the program (region 0) runs on a grid of 16 points. At each point it reads a 1024×512 row block of each of
the two feature arrays (windows 0, 1), the two whole 512×512 weight matrices (windows 2, 4) and the two bias
vectors (windows 3, 5), and stores, whole, the two 1024×512 bf16 row blocks `x·W + b` (windows 6, 7). The
body keeps nothing from point to point: what it leaves in an output buffer is a closed function of the input
blocks at the point, and what it finds in an input buffer is that window's block at the point, whether or
not the pipeline fetched it there (the weight and bias windows have a constant block index and are fetched
at the first point only).
-/

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S512 := Rect.unit (s := S512) ![0] S512.size inb_S512_S512_0

/-! ## What the body leaves in each output window's buffer -/

/-- Window 6's staging buffer after the body, from the input windows' blocks: its one store, of
    `bf16(bf16(x0)·bf16(x2) + x3)` over the whole buffer. -/
def out0_6 (x0 : Vec F S1024x512 .f32) (x2 : Vec F S512x512 .f32) (x3 : Vec F S512 .f32) : Vec F S1024x512 .bf16 :=
  View.canon [⟨r0_0, k0_pay1 (View.ld x0 r0_0) (View.ld x2 r0_1) (View.ld x3 r0_2)⟩]

/-- Window 7's staging buffer after the body: its one store, of `bf16(bf16(x1)·bf16(x4) + x5)` over the whole buffer. -/
def out0_7 (x1 : Vec F S1024x512 .f32) (x4 : Vec F S512x512 .f32) (x5 : Vec F S512 .f32) : Vec F S1024x512 .bf16 :=
  View.canon [⟨r0_0, k0_pay2 (View.ld x1 r0_0) (View.ld x4 r0_1) (View.ld x5 r0_2)⟩]

/-- The one store of window 6 tiles the buffer (checked by evaluation), so it covers it. -/
theorem cover0_6 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-- The one store of window 7 tiles the buffer, so it covers it. -/
theorem cover0_7 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 4000000 in
/-- The kernel body on whole staging memrefs, the inputs' at read contents `xW` and the outputs' at anything, runs to
    the continuation holding the inputs' as they were and each output's at `out0_W` of the inputs'. Each output
    buffer is also loaded before it is stored; the loaded value is not used. -/
theorem sound_kernel0 (c : Dev nD) (E : Set ℕ) (i : grid0.Coords) (arg0 : Memref sig .tc .vmem S1024x512 .f32) (harg0 : arg0.IsWhole) (arg1 : Memref sig .tc .vmem S1024x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1024x512 .bf16) (harg6 : arg6.IsWhole) (arg7 : Memref sig .tc .vmem S1024x512 .bf16) (harg7 : arg7.IsWhole)
    (x0 : Vec F S1024x512 .f32) (x1 : Vec F S1024x512 .f32) (x2 : Vec F S512x512 .f32) (x3 : Vec F S512 .f32) (x4 : Vec F S512x512 .f32) (x5 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out0_6 x0 x2 x3) ∗ owns (c : Thread nD τ) arg7 fullShare (out0_7 x1 x4 x5)) -∗ K ⟨⟩))
      ⊢ wp frame (wpE (defs₀ (F := F)) Variants.none c none) E (cc0__kv_linear_kernel i arg0 harg0 arg1 harg1 arg2 harg2 arg3 harg3 arg4 harg4 arg5 harg5 arg6 harg6 arg7 harg7) K := by
  simp only [cc0__kv_linear_kernel_eq_skeleton]; unfold cc0__kv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.AttnSharedK.lean ====
import proofs.«142881_j27659589386344_2_alg».proof.Proof.Gen.Kernel.Launch
import proofs.«142881_j27659589386344_2_alg».proof.Proof.Gen.Kernel.Skeleton
import proofs.«142881_j27659589386344_2_alg».proof.Proof.Gen.Kernel.Points
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second kernel's branch conditions

The attention kernel's body branches twice on the innermost grid coordinate `kv`: at `kv = 0` it initialises the
four carried buffers (the projected queries, the running maximum, the running sum, the accumulator); at `kv = 7` it
divides the accumulator by the running sum into the output block. -/

/-- The condition of the body's first `scf.if` (`k1_h1`, inside `k1_part1`), from the grid coordinates (the
    skeleton's scalar chain substituted): `kv = 0`. -/
abbrev cond1_0 (i : grid1.Coords) : Prop := (Scalar.cmpi .ne (Scalar.extui (Scalar.cmpi .eq (BitVec.ofNat 32 (i 2).val) 0#32)) 0#32) = 1#1
/-- It holds at the points whose innermost coordinate is 0 — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`k1_h2`): `kv = 7`. -/
abbrev cond1_1 (i : grid1.Coords) : Prop := k1_cond2 i = 1#1
/-- It holds at the points whose innermost coordinate is 7 — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle (the printed configuration's table `Cfg.idle`)

Three cases meet the grid: A (`kv = 0`), B (`0 < kv < 7`), C (`kv = 7`). -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the printed configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the printed configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the printed configuration calls output 5 live: the case stores into it. -/
theorem liveAt1_5_C : ∀ t : Fin cfg1.N, ¬cond1_0 (grid1.coords t) → cond1_1 (grid1.coords t) → cfg1.idle 5 (grid1.coords t) = false := by decide +kernel

/-! ## The kernel body on any staging memrefs -/

/-- One staging buffer of output window 5, through which its contents are stated (`View.read_writes_of_cover`: the
    choice does not matter). -/
abbrev VO1_5 : View sig .tc .vmem S1x1024x512 .f32 := (Memref.whole cc1_stg5_0 : Memref sig .tc .vmem S1x1024x512 .f32).view
/-- Each window's current staging memref at point `t`, spelled as the pipeline passes it (`bodyAt1`), and its wholeness. -/
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x512 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x512 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x512 .f32 := Memref.whole cc1_scratch3
/-- The scratch operands the kernel carries between points, as views: what each holds is stated through it. -/
abbrev VS1_0 : View sig .tc .vmem S1024x512 .bf16 := scM1_0.view
abbrev VS1_1 : View sig .tc .vmem S1024x1 .f32 := scM1_1.view
abbrev VS1_2 : View sig .tc .vmem S1024x1 .f32 := scM1_2.view
abbrev VS1_3 : View sig .tc .vmem S1024x512 .f32 := scM1_3.view

/-- The frame kit's invariant of the second region: the first region's twelve staging buffers, each whole at some
    contents, then the four scratch operands as memrefs owned at some contents (`Gen.scopedRest1_eq`,
    Lib/Memref.lean `owns_whole`), beside the generator register: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.AttnRunAK.lean ====
import proofs.«142881_j27659589386344_2_alg».proof.Proof.AttnSharedK

-- membership in a rectangle of the block's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in the output's staging memref and in each carried buffer, as pieces (last first), IN
    CASE A (`kv = 0`: the first `scf.if` taken, the second not), WITH the proof that on whole memrefs — the inputs' at
    their contents, the output's (idle: no store, not written back) at contents `xi5` handed back untouched, the four
    carried buffers at anything (each is stored whole before it is read) — the body runs to the continuation holding
    the inputs' as they were and each carried buffer with its pieces written. The pieces are the witness the run finds. -/
noncomputable def kernelRun1_A (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) :
    Σ' (L5 : List (View.Piece (Elt F) S1x1024x512 .f32)), Σ' (LS0 : List (View.Piece (Elt F) S1024x512 .bf16)), Σ' (LS1 : List (View.Piece (Elt F) S1024x1 .f32)), Σ' (LS2 : List (View.Piece (Elt F) S1024x1 .f32)), { LS3 : List (View.Piece (Elt F) S1024x512 .f32) //
      ∀ (xi5 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.Kernel.Hand

end
-- ==== Proof.AttnRunBK.lean ====
import proofs.«142881_j27659589386344_2_alg».proof.Proof.AttnRunAK

-- membership in a rectangle of the block's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave, as pieces (last first), IN CASE B (`0 < kv < 7`: neither `scf.if` taken), WITH the
    proof that on whole memrefs — the inputs' at their contents, the output's (idle) at contents `xi5` handed back
    untouched, the carried buffers at the contents the point before left (`xs·`) — the body runs to the continuation
    holding the inputs' as they were, the projected queries as they came (read, never stored), and the running
    maximum, the running sum and the accumulator with their pieces written. -/
noncomputable def kernelRun1_B (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    Σ' (L5 : List (View.Piece (Elt F) S1x1024x512 .f32)), Σ' (LS0 : List (View.Piece (Elt F) S1024x512 .bf16)), Σ' (LS1 : List (View.Piece (Elt F) S1024x1 .f32)), Σ' (LS2 : List (View.Piece (Elt F) S1024x1 .f32)), { LS3 : List (View.Piece (Elt F) S1024x512 .f32) //
      ∀ (xi5 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12) K } := by
  refine ⟨[], [], ?_, ?_, ?_, fun xi5 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    isplitl [HS2]; · iexists _; iexact HS2
    iexists _; iexact HS3

end Cert.Kernel.Hand

end
-- ==== Proof.AttnRunCK.lean ====
import proofs.«142881_j27659589386344_2_alg».proof.Proof.AttnRunBK

-- membership in a rectangle of the block's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave, as pieces (last first), IN CASE C (`kv = 7`: the first `scf.if` not taken, the second
    taken), WITH the proof that on whole memrefs — the inputs' at their contents, the output's at anything, the carried
    buffers at the contents the point before left (`xs·`) — the body runs to the continuation holding the inputs' as
    they were, the projected queries as they came, the running maximum, the running sum and the accumulator with
    their pieces written, and the output's buffer with its pieces written. -/
noncomputable def kernelRun1_C (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    Σ' (L5 : List (View.Piece (Elt F) S1x1024x512 .f32)), Σ' (LS0 : List (View.Piece (Elt F) S1024x512 .bf16)), Σ' (LS1 : List (View.Piece (Elt F) S1024x1 .f32)), Σ' (LS2 : List (View.Piece (Elt F) S1024x1 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12) K } := by
  refine ⟨?_, [], ?_, ?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    iexists _; iexact HS3

end Cert.Kernel.Hand

end
-- ==== Proof.AttnBodyK.lean ====
import proofs.«142881_j27659589386344_2_alg».proof.Proof.AttnRunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The second region: the attention kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof data
    whose array is `V`'s (`hA`) and whose body leaves the block in place (`hafter`): unfetched, the block index has not
    moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Case A (`kv = 0`) -/

/-- Case A stores nothing into the output block (the window is idle at its points and not written back there):
    no pieces; a placeholder (junk read back) that nothing consults. -/
def out1_A_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1x1024x512 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 arg12 harg12 hc0 hc1 x0 x1 x2 x3 x4).1)

/-- Case A's pieces for the projected queries (scratch 0), carried between points, cover it: one whole-buffer store. -/
theorem scover1_A_0 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.1 S1024x512.size (by sl_kernel_rfl) y

/-- What case A leaves in the projected queries: its pieces read back over junk. -/
def sout1_A_0 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x512 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4).2.1)

/-- Case A's pieces for the running maximum (scratch 1), carried between points, cover it: one whole-buffer store. -/
theorem scover1_A_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.1 S1024x1.size (by sl_kernel_rfl) y

/-- What case A leaves in the running maximum: its pieces read back over junk. -/
def sout1_A_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4).2.2.1)

/-- Case A's pieces for the running sum (scratch 2), carried between points, cover it: one whole-buffer store. -/
theorem scover1_A_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.2.1 S1024x1.size (by sl_kernel_rfl) y

/-- What case A leaves in the running sum: its pieces read back over junk. -/
def sout1_A_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4).2.2.2.1)

/-- Case A's pieces for the accumulator (scratch 3), carried between points, cover it: one whole-buffer store. -/
theorem scover1_A_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.2.2.1 S1024x512.size (by sl_kernel_rfl) y

/-- What case A leaves in the accumulator: its pieces read back over junk. -/
def sout1_A_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x512 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 hc0 hc1 x0 x1 x2 x3 x4).2.2.2.2.1)

/-! ## Case B (`0 < kv < 7`) -/

/-- Case B stores nothing into the output block (the window is idle at its points and not written back there):
    no pieces; a placeholder (junk read back) that nothing consults. -/
def out1_B_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1x1024x512 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- Case B's pieces for the running maximum (scratch 1), carried between points, cover it: one whole-buffer store. -/
theorem scover1_B_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S1024x1.size (by sl_kernel_rfl) y

/-- What case B leaves in the running maximum: its pieces read back over junk. -/
def sout1_B_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- Case B's pieces for the running sum (scratch 2), carried between points, cover it: one whole-buffer store. -/
theorem scover1_B_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S1024x1.size (by sl_kernel_rfl) y

/-- What case B leaves in the running sum: its pieces read back over junk. -/
def sout1_B_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- Case B's pieces for the accumulator (scratch 3), carried between points, cover it: one whole-buffer store. -/
theorem scover1_B_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S1024x512.size (by sl_kernel_rfl) y

/-- What case B leaves in the accumulator: its pieces read back over junk. -/
def sout1_B_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x512 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-! ## Case C (`kv = 7`) -/

/-- Case C's pieces for the output block tile it (one whole-block store), so they cover it. -/
theorem cover1_C_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1x1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1 S1x1024x512.size (by sl_kernel_rfl) y

/-- What case C leaves in the output's staging buffer: its pieces read back over junk. -/
def out1_C_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1x1024x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- Case C's pieces for the running maximum (scratch 1), carried between points, cover it: one whole-buffer store. -/
theorem scover1_C_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S1024x1.size (by sl_kernel_rfl) y

/-- What case C leaves in the running maximum: its pieces read back over junk. -/
def sout1_C_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- Case C's pieces for the running sum (scratch 2), carried between points, cover it: one whole-buffer store. -/
theorem scover1_C_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S1024x1.size (by sl_kernel_rfl) y

/-- What case C leaves in the running sum: its pieces read back over junk. -/
def sout1_C_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- Case C's pieces for the accumulator (scratch 3), carried between points, cover it: one whole-buffer store. -/
theorem scover1_C_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S1024x512.size (by sl_kernel_rfl) y

/-- What case C leaves in the accumulator: its pieces read back over junk. -/
def sout1_C_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x512 .f32 :=
  VS1_3.read (Elt F) (VS1_3.writes (Elt F) VS1_3.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-! ## What the output block and the carried buffers hold after each point -/

/-- THE ACCUMULATION. What the output's staging buffer and the four buffers the kernel carries along the `kv` axis hold
    after the body at position `n` (the output, then the projected queries, the running maximum, the running sum, the
    accumulator): the case the closed forms select at `n`, run at the point's memrefs and input blocks — at `kv = 0` from
    the input blocks alone (every carried buffer is stored whole before it is read), elsewhere over what the point
    before left in the carried buffers; the projected queries, stored at `kv = 0` only, stay as they were elsewhere.
    `kv = 0` and `kv = 7` at once is no point (`False.elim`). -/
def outsAt1 (c : Dev nD) : (n : ℕ) → n < cfg1.N → Vec F S1x1024x512 .f32 × Vec F S1024x512 .bf16 × Vec F S1024x1 .f32 × Vec F S1024x1 .f32 × Vec F S1024x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a point of case A (`kv = 0`): that case's contents, of the input blocks alone. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B (`0 < kv < 7`): that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C (`kv = 7`): that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The first kernel's twelve staging buffers, each whole at some contents: the part of the second region's scoped rest
    that its body never names. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The region invariant before position `n`, the kernel CARRYING its four scratch buffers between points: before the
    first point the class's (every scoped buffer at anything); afterwards the first kernel's staging buffers at anything,
    each carried buffer at what the point before left in it (`outsAt1`'s components), and the generator register at some
    state. -/
def PhiS1 (c : Dev nD) : (n : ℕ) → n ≤ cfg1.N → sProp 𝕄
  | 0, _ => Pipeline.ΦA spec1 c
  | n + 1, hn => iprop(iprop(Rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(iprop(Rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(Rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- Case A at the region's first point: the class's invariant hands every scoped buffer at anything. -/
theorem sound_body1_A0 (c : Dev nD) (t : Fin cfg1.N) (h0 : t.val % 8 = 0) (h1 : ¬t.val % 8 = 7) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2 sout1_A_3; (try dsimp only)
  rw [PhiS1_castSucc V c t, PhiS1_zero V c _ _ hz, PhiA1_eq]
  iintro ⟨⟨⟨R0, R1, R2, R3, R4, R5, R6, R7, R8, R9, R10, R11, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, ⟨%es3, HS3⟩⟩
  isplitl [R0 R1 R2 R3 R4 R5 R6 R7 R8 R9 R10 R11 HS0 HS1 HS2 HS3 Hg]
  · isplitl [R0 R1 R2 R3 R4 R5 R6 R7 R8 R9 R10 R11 HS0 HS1 HS2 HS3]
    · isplitl [R0 R1 R2 R3 R4 R5 R6 R7 R8 R9 R10 R11]
      · unfold Rest1
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        iexact R11
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _)
      unfold owns; iexists _; isplitr
      swap; · iexact HS3
      ipureintro; exact View.read_writes_of_cover _ _ _ _ _ (scover1_A_3 c _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- Case A at a later point (`kv = 0` again): the carried buffers come at what the point before left and are taken
    at anything. -/
theorem sound_body1_A1 (c : Dev nD) (t : Fin cfg1.N) (h0 : t.val % 8 = 0) (h1 : ¬t.val % 8 = 7) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2 sout1_A_3; (try dsimp only)
  rw [PhiS1_castSucc V c t, PhiS1_pos V c _ _ hz]
  iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  isplitl [HS3]; · iexists _; iexact HS3
  iintro ⟨H0, H1, H2, H3, H4, H5, ⟨%es0, HS0⟩, ⟨%es1, HS1⟩, ⟨%es2, HS2⟩, ⟨%es3, HS3⟩⟩
  isplitl [HR HS0 HS1 HS2 HS3 Hg]
  · isplitl [HR HS0 HS1 HS2 HS3]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _)
      unfold owns; iexists _; isplitr
      swap; · iexact HS3
      ipureintro; exact View.read_writes_of_cover _ _ _ _ _ (scover1_A_3 c _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- Case B (`0 < kv < 7`): the carried buffers come at what the point before left; the projected queries go back as
    they came, the other three at this point's contents. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [outsAt1_B V c t h0 h1]
  unfold sout1_B_1 sout1_B_2 sout1_B_3; (try dsimp only)
  have hz : t.val ≠ 0 := fun e => h0 (by rw [e])
  rw [PhiS1_castSucc V c t, PhiS1_pos V c _ _ hz]
  iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, ⟨%es1, HS1⟩, ⟨%es2, HS2⟩, ⟨%es3, HS3⟩⟩
  isplitl [HR HS0 HS1 HS2 HS3 Hg]
  · isplitl [HR HS0 HS1 HS2 HS3]
    · isplitl [HR]; · iexact HR
      isplitl [HS0]; · iexact HS0
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover1_B_3 c _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- Case C (`kv = 7`): the carried buffers come at what the point before left; the projected queries go back as
    they came, the other three at this point's contents; the output block is stored whole. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5_C t (fun h => h0 ((hcond1_0 t).mp h)) ((hcond1_1 t).mpr h1)], after1_5]
  rw [outsAt1_C V c t h0 h1]
  unfold out1_C_5 sout1_C_1 sout1_C_2 sout1_C_3; (try dsimp only)
  have hz : t.val ≠ 0 := fun e => h0 (by rw [e])
  rw [PhiS1_castSucc V c t, PhiS1_pos V c _ _ hz]
  iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ _).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, ⟨%es1, HS1⟩, ⟨%es2, HS2⟩, ⟨%es3, HS3⟩⟩
  isplitl [HR HS0 HS1 HS2 HS3 Hg]
  · isplitl [HR HS0 HS1 HS2 HS3]
    · isplitl [HR]; · iexact HR
      isplitl [HS0]; · iexact HS0
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover1_C_3 c _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _ _ _ _ _ _ _ _ _ _)

/-- The body at any point: the inputs' memrefs hold their blocks; the closed forms say which case the point is in; so
    the case's run applies; the invariant hands the body the carried buffers at what the point before left (at anything at
    the first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases h1 : t.val % 8 = 7
    · exfalso; omega
    · by_cases hz : t.val = 0
      · exact sound_body1_A0 V c t h0 h1 hz
      · exact sound_body1_A1 V c t h0 h1 hz
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold Rest1
  iintro ⟨⟨⟨R0, R1, R2, R3, R4, R5, R6, R7, R8, R9, R10, R11⟩, HS0, HS1, HS2, HS3⟩, Hg⟩
  isplitl [R0 R1 R2 R3 R4 R5 R6 R7 R8 R9 R10 R11 HS0 HS1 HS2 HS3]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    isplitl [HS2]; · iexists _; iexact HS2
    iexists _; iexact HS3
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Regions

end Cert.Kernel.Hand

end
-- ==== Proof.KernelRunK.lean ====
import proofs.«142881_j27659589386344_2_alg».proof.Proof.Gen.Kernel.Regions
import proofs.«142881_j27659589386344_2_alg».proof.Proof.KvBodyK
import proofs.«142881_j27659589386344_2_alg».proof.Proof.AttnBodyK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two host stretches and two kernel regions, from the launch to the return

## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references (what region 0's proof data take). -/
abbrev V1 : (c : Dev nD) → (b : Ref sig .tc) → Buf (Elt F) ((c : Thread nD τ).loc b) := fun c b => W1 m ρ c b
/-- At region 0's exit: each of its windows' arrays at what the pipeline leaves there (an input as entered, an output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at
    entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same, read at the TensorCore's references (what region 1's proof data take). -/
abbrev V3 : (c : Dev nD) → (b : Ref sig .tc) → Buf (Elt F) ((c : Thread nD τ).loc b) := fun c b => W3 m ρ c b
/-- At region 1's exit: each of its windows' arrays at what the pipeline leaves there, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at
    entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (a region reads it through an
    input window or bypasses it), so the fold at an argument's buffer walks back to the launch memory -/

/-- A reference none of `hostOps0`'s operations writes holds after the stretch what it held before it. -/
theorem W1_of (c : Dev nD) (r : Ref sig .tc) (h : r ∉ hostOps0_W) : W1 m ρ c r = W0 m ρ c r :=
  StableHlo.after_of_writes_sub hostOps0 _ hostOps0_writes h
/-- A reference none of `hostOps1`'s operations writes holds after the stretch what it held before it. -/
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 5).trans (((dat0 (V1 m ρ) c).arrAt_in 5 rfl _).trans (A_eq0 (V1 m ρ) c 5))
    _ = W0 m ρ c (Proc.devRef .tc main_arg8) := W1_of m ρ c main_arg8 (by decide)
    _ = m ((c : Thread nD τ).loc main_arg8) := rfl

/-! ## The proof data family, the thread state, and the regions as segments -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- REGION 0 over the thread state: entered from every unscoped buffer at `W1`, left at `W2`. Its arrays are split out of
    the unscoped buffers and put back at the exit contents; the generator register and the scoped buffers no window
    stages go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. As region 0, except that
    its invariant carries the four scratch buffers across the last grid axis: the first point's invariant follows from
    the scoped rest and the generator register (`hin1`), and the last point's gives them back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last (Pipeline.pin (pcfgs (F := F)) adm 1).N) ⊢ (Pipeline.ΦA spec1 c : sProp 𝕄) := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

/-! ## The launch -/

set_option backward.isDefEq.respectTransparency.types false in
/-- From any memory with zero counters every weakly fair execution of @main on the TensorCores terminates without
    fault, and in every final state each unscoped buffer of every core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- Every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The result buffer ends holding what region 1's write-backs leave in its output window's array, and every argument
    array its launch contents. -/
theorem result_v9 : θ_run defs (onTc (τ := τ) (main (F := F))) ⟨m, fun _ => 0, ρ⟩ (fun r => ∀ c : Dev nD,
      r.2.mem ((c.tc : Thread nD τ).loc main_v9) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

end Cert.Kernel.Hand

end
-- ==== Proof.KvBody.lean ====
import proofs.«142881_j27659589386344_2_alg».proof.Proof.Gen.KernelIdeal.Launch
import proofs.«142881_j27659589386344_2_alg».proof.Proof.Gen.KernelIdeal.Skeleton
import proofs.«142881_j27659589386344_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the key/value projection kernel): the body obligation

The first kernel call of the program (region 0) runs on a grid of 16 points. At each point it reads a 1024×512 row block of each of
the two feature arrays (windows 0, 1), the two whole 512×512 weight matrices (windows 2, 4) and the two bias
vectors (windows 3, 5), and stores, whole, the two 1024×512 bf16 row blocks `x·W + b` (windows 6, 7). The
body keeps nothing from point to point: what it leaves in an output buffer is a closed function of the input
blocks at the point, and what it finds in an input buffer is that window's block at the point, whether or
not the pipeline fetched it there (the weight and bias windows have a constant block index and are fetched
at the first point only).
-/

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S512 := Rect.unit (s := S512) ![0] S512.size inb_S512_S512_0

/-! ## What the body leaves in each output window's buffer -/

/-- Window 6's staging buffer after the body, from the input windows' blocks: its one store, of
    `bf16(bf16(x0)·bf16(x2) + x3)` over the whole buffer. -/
def out0_6 (x0 : Vec F S1024x512 .f32) (x2 : Vec F S512x512 .f32) (x3 : Vec F S512 .f32) : Vec F S1024x512 .bf16 :=
  View.canon [⟨r0_0, k0_pay1 (View.ld x0 r0_0) (View.ld x2 r0_1) (View.ld x3 r0_2)⟩]

/-- Window 7's staging buffer after the body: its one store, of `bf16(bf16(x1)·bf16(x4) + x5)` over the whole buffer. -/
def out0_7 (x1 : Vec F S1024x512 .f32) (x4 : Vec F S512x512 .f32) (x5 : Vec F S512 .f32) : Vec F S1024x512 .bf16 :=
  View.canon [⟨r0_0, k0_pay2 (View.ld x1 r0_0) (View.ld x4 r0_1) (View.ld x5 r0_2)⟩]

/-- The one store of window 6 tiles the buffer (checked by evaluation), so it covers it. -/
theorem cover0_6 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-- The one store of window 7 tiles the buffer, so it covers it. -/
theorem cover0_7 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 4000000 in
/-- The kernel body on whole staging memrefs, the inputs' at read contents `xW` and the outputs' at anything, runs to
    the continuation holding the inputs' as they were and each output's at `out0_W` of the inputs'. Each output
    buffer is also loaded before it is stored; the loaded value is not used. -/
theorem sound_kernel0 (c : Dev nD) (E : Set ℕ) (i : grid0.Coords) (arg0 : Memref sig .tc .vmem S1024x512 .f32) (harg0 : arg0.IsWhole) (arg1 : Memref sig .tc .vmem S1024x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1024x512 .bf16) (harg6 : arg6.IsWhole) (arg7 : Memref sig .tc .vmem S1024x512 .bf16) (harg7 : arg7.IsWhole)
    (x0 : Vec F S1024x512 .f32) (x1 : Vec F S1024x512 .f32) (x2 : Vec F S512x512 .f32) (x3 : Vec F S512 .f32) (x4 : Vec F S512x512 .f32) (x5 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out0_6 x0 x2 x3) ∗ owns (c : Thread nD τ) arg7 fullShare (out0_7 x1 x4 x5)) -∗ K ⟨⟩))
      ⊢ wp frame (wpE (defs₀ (F := F)) Variants.none c none) E (cc0__kv_linear_kernel i arg0 harg0 arg1 harg1 arg2 harg2 arg3 harg3 arg4 harg4 arg5 harg5 arg6 harg6 arg7 harg7) K := by
  simp only [cc0__kv_linear_kernel_eq_skeleton]; unfold cc0__kv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.AttnShared.lean ====
import proofs.«142881_j27659589386344_2_alg».proof.Proof.Gen.KernelIdeal.Launch
import proofs.«142881_j27659589386344_2_alg».proof.Proof.Gen.KernelIdeal.Skeleton
import proofs.«142881_j27659589386344_2_alg».proof.Proof.Gen.KernelIdeal.Points
import Idealize.ShloMosaic.Lib.Pipeline.FrameBody
import Idealize.ShloMosaic.Lib.Ring
import Idealize.ShloMosaic.Lib.Tactic

-- membership in a rectangle of the block's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second kernel's branch conditions

The attention kernel's body branches twice on the innermost grid coordinate `kv`: at `kv = 0` it initialises the
four carried buffers (the projected queries, the running maximum, the running sum, the accumulator); at `kv = 7` it
divides the accumulator by the running sum into the output block. -/

/-- The condition of the body's first `scf.if` (`k1_h1`, inside `k1_part1`), from the grid coordinates (the
    skeleton's scalar chain substituted): `kv = 0`. -/
abbrev cond1_0 (i : grid1.Coords) : Prop := (Scalar.cmpi .ne (Scalar.extui (Scalar.cmpi .eq (BitVec.ofNat 32 (i 2).val) 0#32)) 0#32) = 1#1
/-- It holds at the points whose innermost coordinate is 0 — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`k1_h2`): `kv = 7`. -/
abbrev cond1_1 (i : grid1.Coords) : Prop := k1_cond2 i = 1#1
/-- It holds at the points whose innermost coordinate is 7 — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle (the printed configuration's table `Cfg.idle`)

Three cases meet the grid: A (`kv = 0`), B (`0 < kv < 7`), C (`kv = 7`). -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the printed configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the printed configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the printed configuration calls output 5 live: the case stores into it. -/
theorem liveAt1_5_C : ∀ t : Fin cfg1.N, ¬cond1_0 (grid1.coords t) → cond1_1 (grid1.coords t) → cfg1.idle 5 (grid1.coords t) = false := by decide +kernel

/-! ## The kernel body on any staging memrefs -/

/-- One staging buffer of output window 5, through which its contents are stated (`View.read_writes_of_cover`: the
    choice does not matter). -/
abbrev VO1_5 : View sig .tc .vmem S1x1024x512 .f32 := (Memref.whole cc1_stg5_0 : Memref sig .tc .vmem S1x1024x512 .f32).view
/-- Each window's current staging memref at point `t`, spelled as the pipeline passes it (`bodyAt1`), and its wholeness. -/
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x512 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x512 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x512 .f32 := Memref.whole cc1_scratch3
/-- The scratch operands the kernel carries between points, as views: what each holds is stated through it. -/
abbrev VS1_0 : View sig .tc .vmem S1024x512 .bf16 := scM1_0.view
abbrev VS1_1 : View sig .tc .vmem S1024x1 .f32 := scM1_1.view
abbrev VS1_2 : View sig .tc .vmem S1024x1 .f32 := scM1_2.view
abbrev VS1_3 : View sig .tc .vmem S1024x512 .f32 := scM1_3.view

/-- The frame kit's invariant of the second region: the first region's twelve staging buffers, each whole at some
    contents, then the four scratch operands as memrefs owned at some contents (`Gen.scopedRest1_eq`,
    Lib/Memref.lean `owns_whole`), beside the generator register: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.AttnRunA.lean ====
import proofs.«142881_j27659589386344_2_alg».proof.Proof.AttnShared

-- membership in a rectangle of the block's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave in the output's staging memref and in each carried buffer, as pieces (last first), IN
    CASE A (`kv = 0`: the first `scf.if` taken, the second not), WITH the proof that on whole memrefs — the inputs' at
    their contents, the output's (idle: no store, not written back) at contents `xi5` handed back untouched, the four
    carried buffers at anything (each is stored whole before it is read) — the body runs to the continuation holding
    the inputs' as they were and each carried buffer with its pieces written. The pieces are the witness the run finds. -/
noncomputable def kernelRun1_A (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) :
    Σ' (L5 : List (View.Piece (Elt F) S1x1024x512 .f32)), Σ' (LS0 : List (View.Piece (Elt F) S1024x512 .bf16)), Σ' (LS1 : List (View.Piece (Elt F) S1024x1 .f32)), Σ' (LS2 : List (View.Piece (Elt F) S1024x1 .f32)), { LS3 : List (View.Piece (Elt F) S1024x512 .f32) //
      ∀ (xi5 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.AttnRunB.lean ====
import proofs.«142881_j27659589386344_2_alg».proof.Proof.AttnRunA

-- membership in a rectangle of the block's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave, as pieces (last first), IN CASE B (`0 < kv < 7`: neither `scf.if` taken), WITH the
    proof that on whole memrefs — the inputs' at their contents, the output's (idle) at contents `xi5` handed back
    untouched, the carried buffers at the contents the point before left (`xs·`) — the body runs to the continuation
    holding the inputs' as they were, the projected queries as they came (read, never stored), and the running
    maximum, the running sum and the accumulator with their pieces written. -/
noncomputable def kernelRun1_B (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    Σ' (L5 : List (View.Piece (Elt F) S1x1024x512 .f32)), Σ' (LS0 : List (View.Piece (Elt F) S1024x512 .bf16)), Σ' (LS1 : List (View.Piece (Elt F) S1024x1 .f32)), Σ' (LS2 : List (View.Piece (Elt F) S1024x1 .f32)), { LS3 : List (View.Piece (Elt F) S1024x512 .f32) //
      ∀ (xi5 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12) K } := by
  refine ⟨[], [], ?_, ?_, ?_, fun xi5 E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Hand

end
-- ==== Proof.AttnRunC.lean ====
import proofs.«142881_j27659589386344_2_alg».proof.Proof.AttnRunB

-- membership in a rectangle of the block's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 1000000 in
/-- What the body's stores leave, as pieces (last first), IN CASE C (`kv = 7`: the first `scf.if` not taken, the second
    taken), WITH the proof that on whole memrefs — the inputs' at their contents, the output's at anything, the carried
    buffers at the contents the point before left (`xs·`) — the body runs to the continuation holding the inputs' as
    they were, the projected queries as they came, the running maximum, the running sum and the accumulator with
    their pieces written, and the output's buffer with its pieces written. -/
noncomputable def kernelRun1_C (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    Σ' (L5 : List (View.Piece (Elt F) S1x1024x512 .f32)), Σ' (LS0 : List (View.Piece (Elt F) S1024x512 .bf16)), Σ' (LS1 : List (View.Piece (Elt F) S1024x1 .f32)), Σ' (LS2 : List (View.Piece (Elt F) S1024x1 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10 arg11 harg11 arg12 harg12) K } := by
  refine ⟨?_, [], ?_, ?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Hand

end
-- ==== Proof.AttnBody.lean ====
import proofs.«142881_j27659589386344_2_alg».proof.Proof.AttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The second region: the attention kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof data
    whose array is `V`'s (`hA`) and whose body leaves the block in place (`hafter`): unfetched, the block index has not
    moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Case A (`kv = 0`) -/

/-- Case A stores nothing into the output block (the window is idle at its points and not written back there):
    no pieces; a placeholder (junk read back) that nothing consults. -/
def out1_A_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1x1024x512 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 arg12 harg12 hc0 hc1 x0 x1 x2 x3 x4).1)

/-- Case A's pieces for the projected queries (scratch 0), carried between points, cover it: one whole-buffer store. -/
theorem scover1_A_0 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.1 S1024x512.size (by sl_kernel_rfl) y

/-- What case A leaves in the projected queries: its pieces read back over junk. -/
def sout1_A_0 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x512 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4).2.1)

/-- Case A's pieces for the running maximum (scratch 1), carried between points, cover it: one whole-buffer store. -/
theorem scover1_A_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.1 S1024x1.size (by sl_kernel_rfl) y

/-- What case A leaves in the running maximum: its pieces read back over junk. -/
def sout1_A_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4).2.2.1)

/-- Case A's pieces for the running sum (scratch 2), carried between points, cover it: one whole-buffer store. -/
theorem scover1_A_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.2.1 S1024x1.size (by sl_kernel_rfl) y

/-- What case A leaves in the running sum: its pieces read back over junk. -/
def sout1_A_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4).2.2.2.1)

/-- Case A's pieces for the accumulator (scratch 3), carried between points, cover it: one whole-buffer store. -/
theorem scover1_A_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (y : S1024x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.2.2.1 S1024x512.size (by sl_kernel_rfl) y

/-- What case A leaves in the accumulator: its pieces read back over junk. -/
def sout1_A_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) : Vec F S1024x512 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 hc0 hc1 x0 x1 x2 x3 x4).2.2.2.2.1)

/-! ## Case B (`0 < kv < 7`) -/

/-- Case B stores nothing into the output block (the window is idle at its points and not written back there):
    no pieces; a placeholder (junk read back) that nothing consults. -/
def out1_B_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1x1024x512 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- Case B's pieces for the running maximum (scratch 1), carried between points, cover it: one whole-buffer store. -/
theorem scover1_B_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S1024x1.size (by sl_kernel_rfl) y

/-- What case B leaves in the running maximum: its pieces read back over junk. -/
def sout1_B_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- Case B's pieces for the running sum (scratch 2), carried between points, cover it: one whole-buffer store. -/
theorem scover1_B_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S1024x1.size (by sl_kernel_rfl) y

/-- What case B leaves in the running sum: its pieces read back over junk. -/
def sout1_B_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- Case B's pieces for the accumulator (scratch 3), carried between points, cover it: one whole-buffer store. -/
theorem scover1_B_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S1024x512.size (by sl_kernel_rfl) y

/-- What case B leaves in the accumulator: its pieces read back over junk. -/
def sout1_B_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x512 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-! ## Case C (`kv = 7`) -/

/-- Case C's pieces for the output block tile it (one whole-block store), so they cover it. -/
theorem cover1_C_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1x1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1 S1x1024x512.size (by sl_kernel_rfl) y

/-- What case C leaves in the output's staging buffer: its pieces read back over junk. -/
def out1_C_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1x1024x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- Case C's pieces for the running maximum (scratch 1), carried between points, cover it: one whole-buffer store. -/
theorem scover1_C_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S1024x1.size (by sl_kernel_rfl) y

/-- What case C leaves in the running maximum: its pieces read back over junk. -/
def sout1_C_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- Case C's pieces for the running sum (scratch 2), carried between points, cover it: one whole-buffer store. -/
theorem scover1_C_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S1024x1.size (by sl_kernel_rfl) y

/-- What case C leaves in the running sum: its pieces read back over junk. -/
def sout1_C_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x1 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- Case C's pieces for the accumulator (scratch 3), carried between points, cover it: one whole-buffer store. -/
theorem scover1_C_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) (y : S1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S1024x512.size (by sl_kernel_rfl) y

/-- What case C leaves in the accumulator: its pieces read back over junk. -/
def sout1_C_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) : Vec F S1024x512 .f32 :=
  VS1_3.read (Elt F) (VS1_3.writes (Elt F) VS1_3.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-! ## What the output block and the carried buffers hold after each point -/

/-- THE ACCUMULATION. What the output's staging buffer and the four buffers the kernel carries along the `kv` axis hold
    after the body at position `n` (the output, then the projected queries, the running maximum, the running sum, the
    accumulator): the case the closed forms select at `n`, run at the point's memrefs and input blocks — at `kv = 0` from
    the input blocks alone (every carried buffer is stored whole before it is read), elsewhere over what the point
    before left in the carried buffers; the projected queries, stored at `kv = 0` only, stay as they were elsewhere.
    `kv = 0` and `kv = 7` at once is no point (`False.elim`). -/
def outsAt1 (c : Dev nD) : (n : ℕ) → n < cfg1.N → Vec F S1x1024x512 .f32 × Vec F S1024x512 .bf16 × Vec F S1024x1 .f32 × Vec F S1024x1 .f32 × Vec F S1024x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.1, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a point of case A (`kv = 0`): that case's contents, of the input blocks alone. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B (`0 < kv < 7`): that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C (`kv = 7`): that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The first kernel's twelve staging buffers, each whole at some contents: the part of the second region's scoped rest
    that its body never names. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The region invariant before position `n`, the kernel CARRYING its four scratch buffers between points: before the
    first point the class's (every scoped buffer at anything); afterwards the first kernel's staging buffers at anything,
    each carried buffer at what the point before left in it (`outsAt1`'s components), and the generator register at some
    state. -/
def PhiS1 (c : Dev nD) : (n : ℕ) → n ≤ cfg1.N → sProp 𝕄
  | 0, _ => Pipeline.ΦA spec1 c
  | n + 1, hn => iprop(iprop(Rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(iprop(Rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(Rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- Case A at the region's first point: the class's invariant hands every scoped buffer at anything. -/
theorem sound_body1_A0 (c : Dev nD) (t : Fin cfg1.N) (h0 : t.val % 8 = 0) (h1 : ¬t.val % 8 = 7) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2 sout1_A_3; (try dsimp only)
  rw [PhiS1_castSucc V c t, PhiS1_zero V c _ _ hz, PhiA1_eq]
  iintro ⟨⟨⟨R0, R1, R2, R3, R4, R5, R6, R7, R8, R9, R10, R11, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, ⟨%es3, HS3⟩⟩
  isplitl [R0 R1 R2 R3 R4 R5 R6 R7 R8 R9 R10 R11 HS0 HS1 HS2 HS3 Hg]
  · isplitl [R0 R1 R2 R3 R4 R5 R6 R7 R8 R9 R10 R11 HS0 HS1 HS2 HS3]
    · isplitl [R0 R1 R2 R3 R4 R5 R6 R7 R8 R9 R10 R11]
      · unfold Rest1
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        iexact R11
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _)
      unfold owns; iexists _; isplitr
      swap; · iexact HS3
      ipureintro; exact View.read_writes_of_cover _ _ _ _ _ (scover1_A_3 c _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- Case A at a later point (`kv = 0` again): the carried buffers come at what the point before left and are taken
    at anything. -/
theorem sound_body1_A1 (c : Dev nD) (t : Fin cfg1.N) (h0 : t.val % 8 = 0) (h1 : ¬t.val % 8 = 7) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0 sout1_A_1 sout1_A_2 sout1_A_3; (try dsimp only)
  rw [PhiS1_castSucc V c t, PhiS1_pos V c _ _ hz]
  iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  isplitl [HS3]; · iexists _; iexact HS3
  iintro ⟨H0, H1, H2, H3, H4, H5, ⟨%es0, HS0⟩, ⟨%es1, HS1⟩, ⟨%es2, HS2⟩, ⟨%es3, HS3⟩⟩
  isplitl [HR HS0 HS1 HS2 HS3 Hg]
  · isplitl [HR HS0 HS1 HS2 HS3]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _)
      unfold owns; iexists _; isplitr
      swap; · iexact HS3
      ipureintro; exact View.read_writes_of_cover _ _ _ _ _ (scover1_A_3 c _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- Case B (`0 < kv < 7`): the carried buffers come at what the point before left; the projected queries go back as
    they came, the other three at this point's contents. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [outsAt1_B V c t h0 h1]
  unfold sout1_B_1 sout1_B_2 sout1_B_3; (try dsimp only)
  have hz : t.val ≠ 0 := fun e => h0 (by rw [e])
  rw [PhiS1_castSucc V c t, PhiS1_pos V c _ _ hz]
  iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, ⟨%es1, HS1⟩, ⟨%es2, HS2⟩, ⟨%es3, HS3⟩⟩
  isplitl [HR HS0 HS1 HS2 HS3 Hg]
  · isplitl [HR HS0 HS1 HS2 HS3]
    · isplitl [HR]; · iexact HR
      isplitl [HS0]; · iexact HS0
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover1_B_3 c _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- Case C (`kv = 7`): the carried buffers come at what the point before left; the projected queries go back as
    they came, the other three at this point's contents; the output block is stored whole. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5_C t (fun h => h0 ((hcond1_0 t).mp h)) ((hcond1_1 t).mpr h1)], after1_5]
  rw [outsAt1_C V c t h0 h1]
  unfold out1_C_5 sout1_C_1 sout1_C_2 sout1_C_3; (try dsimp only)
  have hz : t.val ≠ 0 := fun e => h0 (by rw [e])
  rw [PhiS1_castSucc V c t, PhiS1_pos V c _ _ hz]
  iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ _).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, ⟨%es1, HS1⟩, ⟨%es2, HS2⟩, ⟨%es3, HS3⟩⟩
  isplitl [HR HS0 HS1 HS2 HS3 Hg]
  · isplitl [HR HS0 HS1 HS2 HS3]
    · isplitl [HR]; · iexact HR
      isplitl [HS0]; · iexact HS0
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _)
      unfold owns; iexists _; isplitr
      swap; · iexact HS3
      ipureintro; exact View.read_writes_of_cover _ _ _ _ _ (scover1_C_3 c _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _ _ _ _ _ _ _ _ _ _)

/-- The body at any point: the inputs' memrefs hold their blocks; the closed forms say which case the point is in; so
    the case's run applies; the invariant hands the body the carried buffers at what the point before left (at anything at
    the first point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases h1 : t.val % 8 = 7
    · exfalso; omega
    · by_cases hz : t.val = 0
      · exact sound_body1_A0 V c t h0 h1 hz
      · exact sound_body1_A1 V c t h0 h1 hz
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold Rest1
  iintro ⟨⟨⟨R0, R1, R2, R3, R4, R5, R6, R7, R8, R9, R10, R11⟩, HS0, HS1, HS2, HS3⟩, Hg⟩
  isplitl [R0 R1 R2 R3 R4 R5 R6 R7 R8 R9 R10 R11 HS0 HS1 HS2 HS3]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    isplitl [HS2]; · iexists _; iexact HS2
    iexists _; iexact HS3
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Regions

end Cert.KernelIdeal.Hand

end
-- ==== Proof.KernelRun.lean ====
import proofs.«142881_j27659589386344_2_alg».proof.Proof.Gen.KernelIdeal.Regions
import proofs.«142881_j27659589386344_2_alg».proof.Proof.KvBody
import proofs.«142881_j27659589386344_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two host stretches and two kernel regions, from the launch to the return

## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references (what region 0's proof data take). -/
abbrev V1 : (c : Dev nD) → (b : Ref sig .tc) → Buf (Elt F) ((c : Thread nD τ).loc b) := fun c b => W1 m ρ c b
/-- At region 0's exit: each of its windows' arrays at what the pipeline leaves there (an input as entered, an output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at
    entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same, read at the TensorCore's references (what region 1's proof data take). -/
abbrev V3 : (c : Dev nD) → (b : Ref sig .tc) → Buf (Elt F) ((c : Thread nD τ).loc b) := fun c b => W3 m ρ c b
/-- At region 1's exit: each of its windows' arrays at what the pipeline leaves there, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at
    entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one (a region reads it through an
    input window or bypasses it), so the fold at an argument's buffer walks back to the launch memory -/

/-- A reference none of `hostOps0`'s operations writes holds after the stretch what it held before it. -/
theorem W1_of (c : Dev nD) (r : Ref sig .tc) (h : r ∉ hostOps0_W) : W1 m ρ c r = W0 m ρ c r :=
  StableHlo.after_of_writes_sub hostOps0 _ hostOps0_writes h
/-- A reference none of `hostOps1`'s operations writes holds after the stretch what it held before it. -/
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 5).trans (((dat0 (V1 m ρ) c).arrAt_in 5 rfl _).trans (A_eq0 (V1 m ρ) c 5))
    _ = W0 m ρ c (Proc.devRef .tc main_arg8) := W1_of m ρ c main_arg8 (by decide)
    _ = m ((c : Thread nD τ).loc main_arg8) := rfl

/-! ## The proof data family, the thread state, and the regions as segments -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- REGION 0 over the thread state: entered from every unscoped buffer at `W1`, left at `W2`. Its arrays are split out of
    the unscoped buffers and put back at the exit contents; the generator register and the scoped buffers no window
    stages go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. As region 0, except that
    its invariant carries the four scratch buffers across the last grid axis: the first point's invariant follows from
    the scoped rest and the generator register (`hin1`), and the last point's gives them back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last (Pipeline.pin (pcfgs (F := F)) adm 1).N) ⊢ (Pipeline.ΦA spec1 c : sProp 𝕄) := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

/-! ## The launch -/

set_option backward.isDefEq.respectTransparency.types false in
/-- From any memory with zero counters every weakly fair execution of @main on the TensorCores terminates without
    fault, and in every final state each unscoped buffer of every core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- Every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The result buffer ends holding what region 1's write-backs leave in its output window's array, and every argument
    array its launch contents. -/
theorem result_v9 : θ_run defs (onTc (τ := τ) (main (F := F))) ⟨m, fun _ => 0, ρ⟩ (fun r => ∀ c : Dev nD,
      r.2.mem ((c.tc : Thread nD τ).loc main_v9) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

end Cert.KernelIdeal.Hand

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«142881_j27659589386344_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.KvValue.lean ====
import proofs.«142881_j27659589386344_2_alg».proof.Proof.KvBody
import proofs.«142881_j27659589386344_2_alg».proof.Proof.LibPlainDotFormats
import proofs.«142881_j27659589386344_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

/-!
# Region 0 (the key/value projection kernel): the value of its two output arrays, at the ideal values

Each of the 16 grid points writes back one 1024-row block of each output array; at the ideal values every change of
float format is the identity, so row `R`, column `d` of an output array ends holding
`Σ_f x (R, f) · W (f, d) + b d` of the feature array, the weight matrix and the bias vector the region found.
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region0
-- the TensorCore's buffer contents when the region is entered
variable (V : (c : Dev nD) → (b : Ref sig .tc) → Buf (Elt Ideal) ((c : Thread nD τ).loc b))

/-! ## The arrays the region reads, as functions into the extended reals -/

/-- The feature array of the key projection as the region finds it. -/
abbrev inK (c : Dev nD) : S16384x512.Idx → EReal := V c main_v4
/-- The key projection's weight matrix. -/
abbrev wK (c : Dev nD) : S512x512.Idx → EReal := V c main_arg5
/-- The key projection's bias vector. -/
abbrev bK (c : Dev nD) : S512.Idx → EReal := V c main_arg6
/-- The feature array of the value projection as the region finds it. -/
abbrev inV (c : Dev nD) : S16384x512.Idx → EReal := V c main_v5
/-- The value projection's weight matrix. -/
abbrev wV (c : Dev nD) : S512x512.Idx → EReal := V c main_arg7
/-- The value projection's bias vector. -/
abbrev bV (c : Dev nD) : S512.Idx → EReal := V c main_arg8

/-! ## The payload at an index -/

/-- The kernel's contraction is a plain matrix product `[1024, 512] × [512, 512] → [1024, 512]`. -/
theorem plain_dot : Cert.LibPlainDot.Plain dot_S1024x512_S512x512_S1024x512_1_0_0_1_n_n := ⟨rfl, rfl, rfl, rfl, rfl, rfl⟩

/-- What the body stores into window 6, read at row `p`, column `d`: at the ideal values the changes of format are
    the identity, the product into the zero accumulator is the sum over the contracted axis, and the bias row is
    repeated down the rows. -/
theorem pay1_apply (x0 : Vec Ideal S1024x512 .f32) (x2 : Vec Ideal S512x512 .f32) (x3 : Vec Ideal S512 .f32) (p : Fin 1024) (d : Fin 512) :
    k0_pay1 (F := Ideal) x0 x2 x3 (ix2 p d) = (∑ f : Fin 512, x0 (ix2 p f) * x2 (ix2 f d)) + x3 (ix1 d) := by
  unfold k0_pay1
  refine (congrArg₂ (· + ·)
    (plain_dot.matmul_zero_apply_formats none _ _ p d)
    ((Cert.LibRowLayout.broadcastTo_1b_ab_apply _ broadcasts_S1x512_S1024x512 p d).trans
      (Cert.LibRowLayout.shapeCast_b_1b_apply x3 shapeCasts_S512_S1x512 0 d))).trans ?_
  rw [shapeCast_self]
  rfl

/-- What the body stores into window 7, likewise. -/
theorem pay2_apply (x1 : Vec Ideal S1024x512 .f32) (x4 : Vec Ideal S512x512 .f32) (x5 : Vec Ideal S512 .f32) (p : Fin 1024) (d : Fin 512) :
    k0_pay2 (F := Ideal) x1 x4 x5 (ix2 p d) = (∑ f : Fin 512, x1 (ix2 p f) * x4 (ix2 f d)) + x5 (ix1 d) := by
  unfold k0_pay2
  refine (congrArg₂ (· + ·)
    (plain_dot.matmul_zero_apply_formats none _ _ p d)
    ((Cert.LibRowLayout.broadcastTo_1b_ab_apply _ broadcasts_S1x512_S1024x512 p d).trans
      (Cert.LibRowLayout.shapeCast_b_1b_apply x5 shapeCasts_S512_S1x512 0 d))).trans ?_
  rw [shapeCast_self]
  rfl

/-! ## The windows' blocks as parts of their arrays -/

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 16 grid points: the row-block windows (0, 1, 6, 7) are at block row `t`,
    the weight and bias windows (2, 3, 4, 5) at block 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Window 0's block at point `t` is rows `1024 t … 1024 t + 1023` of the key projection's feature array. -/
theorem iblk0_0_apply (c : Dev nD) (t : Fin cfg0.N) (p : Fin 1024) (f : Fin 512) (R : Fin 16384) (hR : R.val = 1024 * t.val + p.val) :
    (iblk0 V c 0 t : Vec Ideal S1024x512 .f32) (ix2 p f) = inK V c (ix2 R f) := by
  obtain ⟨⟨e0, e1⟩, -⟩ := index_facts t
  unfold iblk0
  rw [View.read_apply]
  show V c main_v4 _ = V c main_v4 _
  congr 1
  funext a
  apply Fin.ext
  match a with
  | ⟨0, _⟩ => show win0_0.index t 0 * 1024 + 1 * p.val = R.val; rw [e0, hR]; omega
  | ⟨1, _⟩ => show win0_0.index t 1 * 512 + 1 * f.val = f.val; rw [e1]; omega

/-- Window 1's block at point `t` is rows `1024 t … 1024 t + 1023` of the value projection's feature array. -/
theorem iblk0_1_apply (c : Dev nD) (t : Fin cfg0.N) (p : Fin 1024) (f : Fin 512) (R : Fin 16384) (hR : R.val = 1024 * t.val + p.val) :
    (iblk0 V c 1 t : Vec Ideal S1024x512 .f32) (ix2 p f) = inV V c (ix2 R f) := by
  obtain ⟨-, ⟨e0, e1⟩, -⟩ := index_facts t
  unfold iblk0
  rw [View.read_apply]
  show V c main_v5 _ = V c main_v5 _
  congr 1
  funext a
  apply Fin.ext
  match a with
  | ⟨0, _⟩ => show win0_1.index t 0 * 1024 + 1 * p.val = R.val; rw [e0, hR]; omega
  | ⟨1, _⟩ => show win0_1.index t 1 * 512 + 1 * f.val = f.val; rw [e1]; omega

/-- Window 2's block at every point is the whole key weight matrix. -/
theorem iblk0_2_apply (c : Dev nD) (t : Fin cfg0.N) (f : Fin 512) (d : Fin 512) :
    (iblk0 V c 2 t : Vec Ideal S512x512 .f32) (ix2 f d) = wK V c (ix2 f d) := by
  obtain ⟨-, -, ⟨e0, e1⟩, -⟩ := index_facts t
  unfold iblk0
  rw [View.read_apply]
  show V c main_arg5 _ = V c main_arg5 _
  congr 1
  funext a
  apply Fin.ext
  match a with
  | ⟨0, _⟩ => show win0_2.index t 0 * 512 + 1 * f.val = f.val; rw [e0]; omega
  | ⟨1, _⟩ => show win0_2.index t 1 * 512 + 1 * d.val = d.val; rw [e1]; omega

/-- Window 3's block at every point is the whole key bias vector. -/
theorem iblk0_3_apply (c : Dev nD) (t : Fin cfg0.N) (d : Fin 512) :
    (iblk0 V c 3 t : Vec Ideal S512 .f32) (ix1 d) = bK V c (ix1 d) := by
  obtain ⟨-, -, -, e0, -⟩ := index_facts t
  unfold iblk0
  rw [View.read_apply]
  show V c main_arg6 _ = V c main_arg6 _
  congr 1
  funext a
  apply Fin.ext
  match a with
  | ⟨0, _⟩ => show win0_3.index t 0 * 512 + 1 * d.val = d.val; rw [e0]; omega

/-- Window 4's block at every point is the whole value weight matrix. -/
theorem iblk0_4_apply (c : Dev nD) (t : Fin cfg0.N) (f : Fin 512) (d : Fin 512) :
    (iblk0 V c 4 t : Vec Ideal S512x512 .f32) (ix2 f d) = wV V c (ix2 f d) := by
  obtain ⟨-, -, -, -, ⟨e0, e1⟩, -⟩ := index_facts t
  unfold iblk0
  rw [View.read_apply]
  show V c main_arg7 _ = V c main_arg7 _
  congr 1
  funext a
  apply Fin.ext
  match a with
  | ⟨0, _⟩ => show win0_4.index t 0 * 512 + 1 * f.val = f.val; rw [e0]; omega
  | ⟨1, _⟩ => show win0_4.index t 1 * 512 + 1 * d.val = d.val; rw [e1]; omega

/-- Window 5's block at every point is the whole value bias vector. -/
theorem iblk0_5_apply (c : Dev nD) (t : Fin cfg0.N) (d : Fin 512) :
    (iblk0 V c 5 t : Vec Ideal S512 .f32) (ix1 d) = bV V c (ix1 d) := by
  obtain ⟨-, -, -, -, -, e0, -⟩ := index_facts t
  unfold iblk0
  rw [View.read_apply]
  show V c main_arg8 _ = V c main_arg8 _
  congr 1
  funext a
  apply Fin.ext
  match a with
  | ⟨0, _⟩ => show win0_5.index t 0 * 512 + 1 * d.val = d.val; rw [e0]; omega

/-! ## What each point writes back -/

/-- The key array the region leaves, as one function of the arrays it found. -/
abbrev outK (c : Dev nD) : S16384x512.Idx → EReal :=
  fun i => (∑ f : Fin 512, inK V c (ix2 (i 0) f) * wK V c (ix2 f (i 1))) + bK V c (ix1 (i 1))

/-- The value array the region leaves, as one function of the arrays it found. -/
abbrev outV (c : Dev nD) : S16384x512.Idx → EReal :=
  fun i => (∑ f : Fin 512, inV V c (ix2 (i 0) f) * wV V c (ix2 f (i 1))) + bV V c (ix1 (i 1))

/-- What point `t` writes back to the key array is block `t` of `outK`. -/
theorem flushed6_eq (c : Dev nD) (t : Fin cfg0.N) :
    (dat0 (F := Ideal) V c).flushed 6 t = ((cfg0.win 6).blk t).view.read (Elt Ideal) (outK V c) := by
  show (cfg0.win 6).cut (grid0.coords t) ((dat0 (F := Ideal) V c).after 6 t) = _
  rw [after0_6]
  unfold out0_6
  rw [View.canon_unit_zero zero2]
  simp only [View.ld_unit_zero (S := S1024x512) zero2, View.ld_unit_zero (S := S512x512) zero2, View.ld_unit_zero (S := S512) zero1]
  obtain ⟨-, -, -, -, -, -, ⟨e0, e1⟩, -⟩ := index_facts t
  funext j
  have hR : (((cfg0.win 6).blk t).view.emb j 0).val = 1024 * t.val + (j 0).val := by
    show win0_6.index t 0 * 1024 + 1 * (j 0).val = _; rw [e0]; omega
  have hd : ((cfg0.win 6).blk t).view.emb j 1 = j 1 := Fin.ext (by
    show win0_6.index t 1 * 512 + 1 * (j 1).val = _; rw [e1]; omega)
  show k0_pay1 (F := Ideal) (iblk0 V c 0 t) (iblk0 V c 2 t) (iblk0 V c 3 t) j
    = (∑ f : Fin 512, inK V c (ix2 (((cfg0.win 6).blk t).view.emb j 0) f) * wK V c (ix2 f (((cfg0.win 6).blk t).view.emb j 1)))
      + bK V c (ix1 (((cfg0.win 6).blk t).view.emb j 1))
  rw [hd]
  refine (congrArg (k0_pay1 (F := Ideal) (iblk0 V c 0 t) (iblk0 V c 2 t) (iblk0 V c 3 t)) (eq_ix2 (n0 := 1024) (n1 := 512) j)).trans ?_
  refine (pay1_apply (iblk0 V c 0 t) (iblk0 V c 2 t) (iblk0 V c 3 t) (j 0) (j 1)).trans ?_
  exact congrArg₂ (fun a b : EReal => a + b)
    (Finset.sum_congr rfl fun f _ => congrArg₂ (fun a b : EReal => a * b)
      (iblk0_0_apply V c t (j 0) f _ hR) (iblk0_2_apply V c t f (j 1)))
    (iblk0_3_apply V c t (j 1))

/-- What point `t` writes back to the value array is block `t` of `outV`. -/
theorem flushed7_eq (c : Dev nD) (t : Fin cfg0.N) :
    (dat0 (F := Ideal) V c).flushed 7 t = ((cfg0.win 7).blk t).view.read (Elt Ideal) (outV V c) := by
  show (cfg0.win 7).cut (grid0.coords t) ((dat0 (F := Ideal) V c).after 7 t) = _
  rw [after0_7]
  unfold out0_7
  rw [View.canon_unit_zero zero2]
  simp only [View.ld_unit_zero (S := S1024x512) zero2, View.ld_unit_zero (S := S512x512) zero2, View.ld_unit_zero (S := S512) zero1]
  obtain ⟨-, -, -, -, -, -, -, ⟨e0, e1⟩⟩ := index_facts t
  funext j
  have hR : (((cfg0.win 7).blk t).view.emb j 0).val = 1024 * t.val + (j 0).val := by
    show win0_7.index t 0 * 1024 + 1 * (j 0).val = _; rw [e0]; omega
  have hd : ((cfg0.win 7).blk t).view.emb j 1 = j 1 := Fin.ext (by
    show win0_7.index t 1 * 512 + 1 * (j 1).val = _; rw [e1]; omega)
  show k0_pay2 (F := Ideal) (iblk0 V c 1 t) (iblk0 V c 4 t) (iblk0 V c 5 t) j
    = (∑ f : Fin 512, inV V c (ix2 (((cfg0.win 7).blk t).view.emb j 0) f) * wV V c (ix2 f (((cfg0.win 7).blk t).view.emb j 1)))
      + bV V c (ix1 (((cfg0.win 7).blk t).view.emb j 1))
  rw [hd]
  refine (congrArg (k0_pay2 (F := Ideal) (iblk0 V c 1 t) (iblk0 V c 4 t) (iblk0 V c 5 t)) (eq_ix2 (n0 := 1024) (n1 := 512) j)).trans ?_
  refine (pay2_apply (iblk0 V c 1 t) (iblk0 V c 4 t) (iblk0 V c 5 t) (j 0) (j 1)).trans ?_
  exact congrArg₂ (fun a b : EReal => a + b)
    (Finset.sum_congr rfl fun f _ => congrArg₂ (fun a b : EReal => a * b)
      (iblk0_1_apply V c t (j 0) f _ hR) (iblk0_4_apply V c t f (j 1)))
    (iblk0_5_apply V c t (j 1))

/-! ## The blocks cover the arrays -/

/-- An index of the key array is in point `t`'s block iff each coordinate is in the block's range on its axis. -/
theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v6_0).slice (win0_6.rect t)).set ↔ _
  rw [View.set_slice_whole, Rect.mem_set_unit]
  exact Iff.rfl

/-- An index of the value array is in point `t`'s block iff each coordinate is in the block's range on its axis. -/
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v6_1).slice (win0_7.rect t)).set ↔ _
  rw [View.set_slice_whole, Rect.mem_set_unit]
  exact Iff.rfl

/-- Row `R` of the key array is in the block of point `R / 1024`, which writes its block back. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 16 := N_0
  let t : Fin cfg0.N := ⟨(i 0).val / 1024, by omega⟩
  have ht : t.val = (i 0).val / 1024 := rfl
  obtain ⟨-, -, -, -, -, -, ⟨e0, e1⟩, -⟩ := index_facts t
  refine ⟨t, flush0_6 t, ?_⟩
  rw [mem_blk6]
  intro a
  match a with
  | ⟨0, _⟩ => show win0_6.index t 0 * 1024 ≤ (i 0).val ∧ (i 0).val < win0_6.index t 0 * 1024 + 1024; rw [e0]; omega
  | ⟨1, _⟩ => show win0_6.index t 1 * 512 ≤ (i 1).val ∧ (i 1).val < win0_6.index t 1 * 512 + 512; rw [e1]; omega

/-- Row `R` of the value array is in the block of point `R / 1024`, which writes its block back. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  let t : Fin cfg0.N := ⟨(i 0).val / 1024, by omega⟩
  have ht : t.val = (i 0).val / 1024 := rfl
  obtain ⟨-, -, -, -, -, -, -, ⟨e0, e1⟩⟩ := index_facts t
  refine ⟨t, flush0_7 t, ?_⟩
  rw [mem_blk7]
  intro a
  match a with
  | ⟨0, _⟩ => show win0_7.index t 0 * 1024 ≤ (i 0).val ∧ (i 0).val < win0_7.index t 0 * 1024 + 1024; rw [e0]; omega
  | ⟨1, _⟩ => show win0_7.index t 1 * 512 ≤ (i 1).val ∧ (i 1).val < win0_7.index t 1 * 512 + 512; rw [e1]; omega

/-! ## The arrays after the region -/

/-- The key array after the last point is `outK`. -/
theorem final6 (c : Dev nD) : (dat0 (F := Ideal) V c).arrAt 6 cfg0.N = outK V c :=
  (dat0 (F := Ideal) V c).arrAt_eq_of_cover 6 (outK V c) (fun t _ => flushed6_eq V c t) cover6

/-- The value array after the last point is `outV`. -/
theorem final7 (c : Dev nD) : (dat0 (F := Ideal) V c).arrAt 7 cfg0.N = outV V c :=
  (dat0 (F := Ideal) V c).arrAt_eq_of_cover 7 (outV V c) (fun t _ => flushed7_eq V c t) cover7

/-- The key array after region 0: row `R`, column `d` is `Σ_f x (R, f) · W_k (f, d) + b_k d`. -/
theorem kv_value6 (c : Dev nD) (R : Fin 16384) (d : Fin 512) :
    (dat0 (F := Ideal) V c).arrAt 6 cfg0.N (ix2 R d)
      = (∑ f : Fin 512, inK V c (ix2 R f) * wK V c (ix2 f d)) + bK V c (ix1 d) :=
  congrFun (final6 V c) (ix2 R d)

/-- The value array after region 0: row `R`, column `d` is `Σ_f x (R, f) · W_v (f, d) + b_v d`. -/
theorem kv_value7 (c : Dev nD) (R : Fin 16384) (d : Fin 512) :
    (dat0 (F := Ideal) V c).arrAt 7 cfg0.N (ix2 R d)
      = (∑ f : Fin 512, inV V c (ix2 R f) * wV V c (ix2 f d)) + bV V c (ix1 d) :=
  congrFun (final7 V c) (ix2 R d)

end Region0

end Cert.KernelIdeal.Val

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.LibSoftmaxRow.lean ====
/-
  Softmax weights over a finite row of extended reals, and the two places the normalising sum can divide.

  For a row of scores `s j` put `M = sup_j s j`, the weights `w j = exp (s j - M)` (the exact exponential: 0 at −∞, +∞ at
  +∞) and their sum `L = Σ_j w j`.  Against a column `v j` of arbitrary extended reals:

    `attnK s v = (Σ_j w j · v j) / L`        (normalise after the weighted sum),
    `attnR s v = Σ_j (w j / L) · v j`        (normalise the weights first),

  with the quotient of the exact instance (`x · y⁻¹` off zero).  When the row is nonempty and every score is a real number
  the maximum is one of the scores, so that weight is `exp 0 = 1` and `1 ≤ L` (`one_le_den`); then `L ≠ 0`, both quotients
  are products with `L⁻¹`, and `0 ≤ L⁻¹ < ⊤` goes through a finite sum of arbitrary extended reals: the two forms agree
  (`attnK_eq_attnR`), whatever the column holds.  Generic in the index type.
-/
import Idealize.ShloMosaic.PureOps.Ideal.Laws
import proofs.«142881_j27659589386344_2_alg».proof.Proof.LibRealEntries
import proofs.«142881_j27659589386344_2_alg».proof.Proof.LibSumMulNonneg
import Mathlib.Data.EReal.Inv

noncomputable section

open scoped BigOperators

namespace Cert.Attn

open Idealize.ShloMosaic Cert.LibRealEntries Cert.LibSumMulNonneg

/-! ## One row -/

section Row
variable {ι : Type} [Fintype ι]

/-- The largest score of the row (the least extended real for an empty row). -/
def rowMax (s : ι → EReal) : EReal := Finset.univ.sup s
/-- The weight of key `j`. -/
def wt (s : ι → EReal) (j : ι) : EReal := Ideal.exp (s j - rowMax s)
/-- The normalising sum. -/
def den (s : ι → EReal) : EReal := ∑ j, wt s j
/-- Normalise after the weighted sum. -/
def attnK (s v : ι → EReal) : EReal := Ideal.div (∑ j, wt s j * v j) (den s)
/-- Normalise the weights first. -/
def attnR (s v : ι → EReal) : EReal := ∑ j, Ideal.div (wt s j) (den s) * v j

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

/-- A quotient by a nonzero divisor is the product with its inverse. -/
theorem div_eq_mul_inv (x d : EReal) (hd : d ≠ 0) : Ideal.div x d = x * d⁻¹ := by
  unfold Ideal.div; rw [if_neg hd]

/-- With real scores, one weight is one, so the normalising sum is at least one. -/
theorem one_le_den [Nonempty ι] (s : ι → EReal) (hs : ∀ j, IsReal (s j)) : 1 ≤ den s := by
  obtain ⟨j0, -, hj0⟩ := Finset.exists_mem_eq_sup (Finset.univ : Finset ι) Finset.univ_nonempty s
  have h1 : wt s j0 = 1 := by
    obtain ⟨a, ha⟩ := hs j0
    unfold wt rowMax
    rw [hj0, ha, ← EReal.coe_sub, sub_self]
    show ((Real.exp 0 : ℝ) : EReal) = 1
    rw [Real.exp_zero]; rfl
  rw [← h1]
  exact Finset.single_le_sum (f := wt s) (fun j _ => exp_nonneg _) (Finset.mem_univ j0)

/-- The two normalisations agree on a row of real scores. -/
theorem attnK_eq_attnR [Nonempty ι] (s v : ι → EReal) (hs : ∀ j, IsReal (s j)) : attnK s v = attnR s v := by
  have h1 : 1 ≤ den s := one_le_den s hs
  have h0 : (0 : EReal) < 1 := by exact_mod_cast (zero_lt_one : (0 : ℝ) < 1)
  have hpos : 0 < den s := lt_of_lt_of_le h0 h1
  have hd : den s ≠ 0 := hpos.ne'
  have hc : 0 ≤ (den s)⁻¹ := EReal.inv_nonneg_of_nonneg hpos.le
  have hc' : (den s)⁻¹ ≠ ⊤ := (EReal.inv_lt_top _).ne
  unfold attnK attnR
  rw [div_eq_mul_inv _ _ hd, ← univ_sum_mul_of_nonneg_of_ne_top hc hc']
  refine Finset.sum_congr rfl fun j _ => ?_
  rw [div_eq_mul_inv _ _ hd, mul_right_comm]

end Row

end Cert.Attn

end
-- ==== Proof.LibOnlineSoftmax.lean ====
/-
  Softmax attention computed one key tile at a time.

  A row's attention output can be accumulated over consecutive tiles of keys while carrying three numbers: the largest
  score seen so far `m`, the sum of weights `l` and the weighted sum of values `acc`, both taken relative to `m`.  A tile
  with scores `s j` and values `v j` updates them to

      m' = max m (max_j s j),   l' = exp (m − m') · l + Σ_j exp (s j − m'),   acc' = exp (m − m') · acc + Σ_j exp (s j − m') · v j.

  Started from `(−∞, 0, 0)` and run over two tiles that together make up the row, `acc / l` is the row's attention
  output normalised after the weighted sum.  The reason: with real scores the maxima are real, the rescaling factor
  `exp (m₀ − M)` is a nonnegative real, so it passes through the first tile's sums, and
  `exp (m₀ − M) · exp (s − m₀) = exp (s − M)`; the first update multiplies its initial values by zero.  The values `v`
  may be any extended reals.
-/
import proofs.«142881_j27659589386344_2_alg».proof.Proof.LibSoftmaxRow
import Mathlib.Algebra.BigOperators.Fin

noncomputable section

open scoped BigOperators

namespace Cert.Online

open Idealize.ShloMosaic Cert.LibRealEntries Cert.LibSumMulNonneg Cert.Attn

/-- One key tile's update of (largest score, sum of weights, weighted sum of values). -/
def step {ι : Type} [Fintype ι] (s v : ι → EReal) (st : EReal × EReal × EReal) : EReal × EReal × EReal :=
  (max st.1 (Finset.univ.sup s),
   Ideal.exp (st.1 - max st.1 (Finset.univ.sup s)) * st.2.1 + ∑ j, Ideal.exp (s j - max st.1 (Finset.univ.sup s)),
   Ideal.exp (st.1 - max st.1 (Finset.univ.sup s)) * st.2.2 + ∑ j, Ideal.exp (s j - max st.1 (Finset.univ.sup s)) * v j)

theorem exp_coe (r : ℝ) : Ideal.exp (r : EReal) = ((Real.exp r : ℝ) : EReal) := rfl

/-- Rescaling a weight from one reference point to another. -/
theorem exp_sub_mul_exp_sub (x y z : ℝ) :
    Ideal.exp ((y : EReal) - (z : EReal)) * Ideal.exp ((x : EReal) - (y : EReal)) = Ideal.exp ((x : EReal) - (z : EReal)) := by
  rw [← EReal.coe_sub, ← EReal.coe_sub, ← EReal.coe_sub, exp_coe, exp_coe, exp_coe, ← EReal.coe_mul, ← Real.exp_add,
    show y - z + (x - y) = x - z by ring]

/-- The largest entry of a row split in two is the larger of the two parts' largest entries. -/
theorem sup_fin_add {a b : ℕ} (f : Fin (a + b) → EReal) :
    Finset.univ.sup f
      = max (Finset.univ.sup fun i : Fin a => f (Fin.castAdd b i)) (Finset.univ.sup fun j : Fin b => f (Fin.natAdd a j)) := by
  apply le_antisymm
  · refine Finset.sup_le fun k _ => ?_
    refine Fin.addCases (fun i => ?_) (fun j => ?_) k
    · exact le_max_of_le_left (Finset.le_sup (f := fun i : Fin a => f (Fin.castAdd b i)) (Finset.mem_univ i))
    · exact le_max_of_le_right (Finset.le_sup (f := fun j : Fin b => f (Fin.natAdd a j)) (Finset.mem_univ j))
  · exact max_le (Finset.sup_le fun i _ => Finset.le_sup (f := f) (Finset.mem_univ _))
      (Finset.sup_le fun j _ => Finset.le_sup (f := f) (Finset.mem_univ _))

/-- The largest of finitely many real numbers (at least one) is a real number. -/
theorem isReal_sup {ι : Type} [Fintype ι] [Nonempty ι] (s : ι → EReal) (hs : ∀ j, IsReal (s j)) :
    IsReal (Finset.univ.sup s) := by
  obtain ⟨j0, -, hj0⟩ := Finset.exists_mem_eq_sup (Finset.univ : Finset ι) Finset.univ_nonempty s
  rw [hj0]; exact hs j0

/-- Two tiles that make up a row of real scores: the carried quotient is the row's attention output. -/
theorem two_tiles {a b n : ℕ} (hn : a + b = n) (ha : 0 < a) (hb : 0 < b) (s v : Fin n → EReal)
    (s0 v0 : Fin a → EReal) (s1 v1 : Fin b → EReal)
    (h0 : ∀ j : Fin a, s0 j = s ⟨j.val, by omega⟩) (h1 : ∀ j : Fin b, s1 j = s ⟨a + j.val, by omega⟩)
    (g0 : ∀ j : Fin a, v0 j = v ⟨j.val, by omega⟩) (g1 : ∀ j : Fin b, v1 j = v ⟨a + j.val, by omega⟩)
    (hs : ∀ k, IsReal (s k)) :
    Ideal.div (step s1 v1 (step s0 v0 (⊥, 0, 0))).2.2 (step s1 v1 (step s0 v0 (⊥, 0, 0))).2.1 = attnK s v := by
  subst hn
  haveI : Nonempty (Fin a) := ⟨⟨0, ha⟩⟩
  haveI : Nonempty (Fin b) := ⟨⟨0, hb⟩⟩
  obtain rfl : s0 = fun j => s (Fin.castAdd b j) := funext h0
  obtain rfl : s1 = fun j => s (Fin.natAdd a j) := funext h1
  obtain rfl : v0 = fun j => v (Fin.castAdd b j) := funext g0
  obtain rfl : v1 = fun j => v (Fin.natAdd a j) := funext g1
  obtain ⟨μ0, hμ0⟩ := isReal_sup (fun j : Fin a => s (Fin.castAdd b j)) (fun j => hs _)
  obtain ⟨μ1, hμ1⟩ := isReal_sup (fun j : Fin b => s (Fin.natAdd a j)) (fun j => hs _)
  obtain ⟨μ, hμ⟩ : IsReal (max (μ0 : EReal) μ1) := IsReal.max ⟨μ0, rfl⟩ ⟨μ1, rfl⟩
  have hsup : rowMax s = (μ : EReal) := by unfold rowMax; rw [sup_fin_add, hμ0, hμ1, hμ]
  have key0 : ∀ j : Fin a, Ideal.exp ((μ0 : EReal) - μ) * Ideal.exp (s (Fin.castAdd b j) - μ0)
      = Ideal.exp (s (Fin.castAdd b j) - μ) := fun j => by
    obtain ⟨x, hx⟩ := hs (Fin.castAdd b j); rw [hx]; exact exp_sub_mul_exp_sub x μ0 μ
  have key1 : ∀ j : Fin a, Ideal.exp ((μ0 : EReal) - μ) * (Ideal.exp (s (Fin.castAdd b j) - μ0) * v (Fin.castAdd b j))
      = Ideal.exp (s (Fin.castAdd b j) - μ) * v (Fin.castAdd b j) := fun j => by rw [← mul_assoc, key0]
  have hα0 : 0 ≤ Ideal.exp ((μ0 : EReal) - μ) := exp_nonneg _
  have hα1 : Ideal.exp ((μ0 : EReal) - μ) ≠ ⊤ := by rw [← EReal.coe_sub]; exact EReal.coe_ne_top _
  unfold attnK den wt
  rw [hsup]
  unfold step
  dsimp only
  rw [hμ0, hμ1, max_eq_right (bot_le : (⊥ : EReal) ≤ μ0), hμ, mul_zero, zero_add, zero_add,
    ← univ_mul_sum_of_nonneg_of_ne_top hα0 hα1, ← univ_mul_sum_of_nonneg_of_ne_top hα0 hα1,
    Fin.sum_univ_add, Fin.sum_univ_add]
  simp only [key0, key1]

end Cert.Online

end
-- ==== Proof.AttnSpec.lean ====
/-
  Scaled dot-product attention over 4 batches of 4096 query rows and 4096 key rows with 512 features, as functions of
  plain coordinates on the extended reals.

  A linear layer `lin x w β` sends row `x b s ·` to `Σ_k x b s k · w k d + β d`.  The score of query row `s` against key
  row `t` is `Σ_d q b s d · k b t d`.  The keys are visited in 8 tiles of 512 consecutive rows; `carried` is the triple
  (largest score so far, sum of weights, weighted sum of the value column `d`) after the first `n` tiles, started from
  `(−∞, 0, 0)` and updated by `Cert.Online.step`; `tiled` is its quotient after all 8 tiles.  `plain` is the row's softmax
  attention with the weights normalised before the weighted sum, over scores multiplied by a scale `c` after the sum.
-/
import proofs.«142881_j27659589386344_2_alg».proof.Proof.LibOnlineSoftmax

noncomputable section

open scoped BigOperators

namespace Cert.AttnSpec

open Idealize.ShloMosaic

/-- A linear layer on every row: `Σ_k x b s k · w k d + β d`. -/
def lin {n : ℕ} (x : Fin 4 → Fin 4096 → Fin n → EReal) (w : Fin n → Fin 512 → EReal) (β : Fin 512 → EReal)
    (b : Fin 4) (s : Fin 4096) (d : Fin 512) : EReal :=
  (∑ k, x b s k * w k d) + β d

/-- The score of query row `s` against key row `t` of batch `b`. -/
def score (q k : Fin 4 → Fin 4096 → Fin 512 → EReal) (b : Fin 4) (s t : Fin 4096) : EReal :=
  ∑ d, q b s d * k b t d

/-- Row `j` of key tile `i`. -/
def keyAt (i : Fin 8) (j : Fin 512) : Fin 4096 := ⟨512 * i.val + j.val, by omega⟩

/-- The carried triple for query row `s` and value column `d` after the first `n` key tiles. -/
def carried (q k v : Fin 4 → Fin 4096 → Fin 512 → EReal) (b : Fin 4) (s : Fin 4096) (d : Fin 512) :
    ℕ → EReal × EReal × EReal
  | 0 => (⊥, 0, 0)
  | n + 1 =>
    if h : n < 8 then
      Cert.Online.step (fun j : Fin 512 => score q k b s (keyAt ⟨n, h⟩ j)) (fun j : Fin 512 => v b (keyAt ⟨n, h⟩ j) d)
        (carried q k v b s d n)
    else carried q k v b s d n

theorem carried_zero (q k v : Fin 4 → Fin 4096 → Fin 512 → EReal) (b : Fin 4) (s : Fin 4096) (d : Fin 512) :
    carried q k v b s d 0 = (⊥, 0, 0) := rfl

theorem carried_succ (q k v : Fin 4 → Fin 4096 → Fin 512 → EReal) (b : Fin 4) (s : Fin 4096) (d : Fin 512)
    (i : Fin 8) :
    carried q k v b s d (i.val + 1)
      = Cert.Online.step (fun j : Fin 512 => score q k b s (keyAt i j)) (fun j : Fin 512 => v b (keyAt i j) d)
          (carried q k v b s d i.val) := by
  obtain ⟨n, h⟩ := i
  show (if h' : n < 8 then _ else _) = _
  rw [dif_pos h]

/-- Attention computed tile by tile: the carried quotient after all 8 tiles. -/
def tiled (q k v : Fin 4 → Fin 4096 → Fin 512 → EReal) (b : Fin 4) (s : Fin 4096) (d : Fin 512) : EReal :=
  Ideal.div (carried q k v b s d 8).2.2 (carried q k v b s d 8).2.1

/-- Softmax attention of the whole row, the weights normalised first, the scores scaled by `c` after their sum. -/
def plain (c : EReal) (q k v : Fin 4 → Fin 4096 → Fin 512 → EReal) (b : Fin 4) (s : Fin 4096) (d : Fin 512) : EReal :=
  Cert.Attn.attnR (fun t : Fin 4096 => score q k b s t * c) (fun t : Fin 4096 => v b t d)

end Cert.AttnSpec

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.AttnPayload.lean ====
/-
  The arithmetic of the attention kernel's body, read entry by entry on the extended reals.

  The first time a query block is visited the body forms the query projection `x · W + β` (a plain matrix product plus a
  bias row) and resets the carried triple to `(−∞, 0, 0)`.  At every key tile it forms the tile's scores of each query
  row `r`, `S r j = Σ_d q (r, d) · k (j, d)`, and updates the carried (largest score, sum of weights, weighted sum of
  values) by one step of the online softmax, `Cert.Online.step`.  After the last tile it divides the weighted sum by the
  sum of weights.  Over the extended reals a change of float format is the identity, so each payload of the body is, at
  an entry given by its coordinates, exactly the corresponding component of that step.
-/
import proofs.«142881_j27659589386344_2_alg».proof.Proof.Gen.KernelIdeal.Skeleton
import proofs.«142881_j27659589386344_2_alg».proof.Proof.AttnSpec
import proofs.«142881_j27659589386344_2_alg».proof.Proof.LibPlainDotFormats
import proofs.«142881_j27659589386344_2_alg».proof.Proof.LibRowsDot
import proofs.«142881_j27659589386344_2_alg».proof.Proof.LibRowMax
import proofs.«142881_j27659589386344_2_alg».proof.Proof.LibKeepdims
import proofs.«142881_j27659589386344_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.ValueIdx

/-- The scores of query row `r` of a query block against the 512 key rows of one key tile. -/
def S (q : Vec Ideal S1024x512 .bf16) (kb : Vec Ideal S1x512x512 .bf16) (r : Fin 1024) : Fin 512 → EReal :=
  fun j => ∑ d' : Fin 512, q (ix2 r d') * kb (ix3 (0 : Fin 1) j d')

/-- The exponential of a vector, read at an entry. -/
theorem exp_apply {s : Shape} {φ : FTy} (a : FVec Ideal s φ) (i : s.Idx) : exp a i = Ideal.exp (a i) := rfl

/-- The tile's scores: row `r` of the query block against row `j` of the key tile. -/
theorem pay9_apply (q : Vec Ideal S1024x512 .bf16) (kb : Vec Ideal S1x512x512 .bf16) (r : Fin 1024) (j : Fin 512) :
    k1_pay9 (F := Ideal) q kb (ix2 r j) = S q kb r j := by
  unfold k1_pay9
  refine (Cert.LibRowsDot.Rows.matmul_zero_apply ⟨rfl, rfl, rfl, rfl, rfl, rfl⟩ none _ _ r j).trans ?_
  refine Finset.sum_congr rfl fun k _ => ?_
  exact congrArg (q (ix2 r k) * ·) (shapeCast_1ab_ab_apply kb _ j k)

/-- The new largest score of row `r`: the larger of the old one and the tile's largest score. -/
theorem pay10_apply (q : Vec Ideal S1024x512 .bf16) (kb : Vec Ideal S1x512x512 .bf16) (mOld : Vec Ideal S1024x1 .f32)
    (r : Fin 1024) :
    k1_pay10 (F := Ideal) q kb mOld (ix2 r (0 : Fin 1)) = max (mOld (ix2 r (0 : Fin 1))) (Finset.univ.sup (S q kb r)) := by
  unfold k1_pay10
  refine (maximumf_apply _ _ _).trans ?_
  refine congrArg (max (mOld (ix2 r (0 : Fin 1)))) ?_
  refine (Cert.LibKeepdims.shapeCast_a_a1_apply _ _ r (0 : Fin 1)).trans ?_
  refine (Cert.LibRowMax.multiReduction_max_rows_apply _ _ _ _ r).trans ?_
  exact congrArg (Finset.univ.sup) (funext fun j => pay9_apply q kb r j)

/-- The factor that rescales what was carried: `exp (m − m')`. -/
theorem pay11_apply (q : Vec Ideal S1024x512 .bf16) (kb : Vec Ideal S1x512x512 .bf16) (mOld m : Vec Ideal S1024x1 .f32)
    (r : Fin 1024) :
    k1_pay11 (F := Ideal) q kb mOld m (ix2 r (0 : Fin 1))
      = Ideal.exp (m (ix2 r (0 : Fin 1)) - max (mOld (ix2 r (0 : Fin 1))) (Finset.univ.sup (S q kb r))) := by
  unfold k1_pay11
  refine (exp_apply _ _).trans (congrArg Ideal.exp ?_)
  refine (subf_apply _ _ _).trans ?_
  exact congrArg (m (ix2 r (0 : Fin 1)) - ·) (pay10_apply q kb mOld r)

/-- The tile's weights: `exp (s j − m')`. -/
theorem pay12_apply (q : Vec Ideal S1024x512 .bf16) (kb : Vec Ideal S1x512x512 .bf16) (mOld : Vec Ideal S1024x1 .f32)
    (r : Fin 1024) (j : Fin 512) :
    k1_pay12 (F := Ideal) q kb mOld (ix2 r j)
      = Ideal.exp (S q kb r j - max (mOld (ix2 r (0 : Fin 1))) (Finset.univ.sup (S q kb r))) := by
  unfold k1_pay12
  refine (exp_apply _ _).trans (congrArg Ideal.exp ?_)
  refine (subf_apply _ _ _).trans ?_
  refine congrArg₂ (· - ·) (pay9_apply q kb r j) ?_
  exact (Cert.LibKeepdims.broadcastTo_a1_ab_apply _ _ r j).trans (pay10_apply q kb mOld r)

/-- The largest score so far starts at `−∞`. -/
theorem pay5_apply (r : Fin 1024) : k1_pay5 (F := Ideal) (ix2 r (0 : Fin 1)) = (⊥ : EReal) := by
  unfold k1_pay5
  simp only [shapeCast_self]
  exact Cert.LibRowMax.ofBits_neg_inf_f32

/-- The sum of weights starts at `0`. -/
theorem pay6_apply (r : Fin 1024) : k1_pay6 (F := Ideal) (ix2 r (0 : Fin 1)) = (0 : EReal) := by
  unfold k1_pay6
  simp only [shapeCast_self]
  exact Ideal.ofBits_zero_f32

/-- The weighted sum of values starts at `0`. -/
theorem pay7_apply (r : Fin 1024) (d : Fin 512) : k1_pay7 (F := Ideal) (ix2 r d) = (0 : EReal) := by
  unfold k1_pay7
  simp only [shapeCast_self]
  exact Ideal.ofBits_zero_f32

/-- The output is the weighted sum divided by the sum of weights. -/
theorem out_apply (acc : Vec Ideal S1024x512 .f32) (lv : Vec Ideal S1024x1 .f32) (r : Fin 1024) (d : Fin 512) :
    k1_pay3 (F := Ideal) acc lv (ix3 (0 : Fin 1) r d) = Ideal.div (acc (ix2 r d)) (lv (ix2 r (0 : Fin 1))) := by
  unfold k1_pay3
  refine (shapeCast_ab_1ab_apply _ _ (0 : Fin 1) r d).trans ?_
  refine (divf_apply _ _ _).trans ?_
  exact congrArg (Ideal.div (acc (ix2 r d))) (Cert.LibKeepdims.broadcastTo_a1_ab_apply lv _ r d)

/-- The query projection: a plain product with the weight block plus the bias row. -/
theorem pay4_apply (x0 : Vec Ideal S1x1024x1024 .f32) (x1 : Vec Ideal S1024x512 .f32) (x2 : Vec Ideal S512 .f32)
    (r : Fin 1024) (d : Fin 512) :
    k1_pay4 (F := Ideal) x0 x1 x2 (ix2 r d) = (∑ k : Fin 1024, x0 (ix3 (0 : Fin 1) r k) * x1 (ix2 k d)) + x2 (ix1 d) := by
  unfold k1_pay4
  simp only [shapeCast_self]
  refine (truncf_apply (φ := .f32) (ψ := .bf16) _ bitsLt_bf16_f32 _).trans ?_
  refine (addf_apply _ _ _).trans ?_
  refine congrArg₂ (· + ·) ?_ ?_
  · refine (Cert.LibPlainDot.Plain.matmul_zero_apply_formats ⟨rfl, rfl, rfl, rfl, rfl, rfl⟩ none _ _ r d).trans ?_
    refine Finset.sum_congr rfl fun k _ => ?_
    exact congrArg (· * x1 (ix2 k d)) (shapeCast_1ab_ab_apply x0 _ r k)
  · exact (Cert.LibRowLayout.broadcastTo_1b_ab_apply _ _ r d).trans (shapeCast_a_1a_apply x2 _ (0 : Fin 1) d)

/-- The new largest score is the first component of the step. -/
theorem max_apply (q : Vec Ideal S1024x512 .bf16) (kb : Vec Ideal S1x512x512 .bf16) (mOld : Vec Ideal S1024x1 .f32)
    (r : Fin 1024) (v : Fin 512 → EReal) (l a : EReal) :
    k1_pay2 (k1_pay10 (F := Ideal) q kb mOld) (ix2 r (0 : Fin 1))
      = (Cert.Online.step (S q kb r) v (mOld (ix2 r (0 : Fin 1)), l, a)).1 := by
  unfold k1_pay2
  simp only [shapeCast_self]
  exact pay10_apply q kb mOld r

/-- The new sum of weights is the second component of the step. -/
theorem sum_apply (q : Vec Ideal S1024x512 .bf16) (kb : Vec Ideal S1x512x512 .bf16) (mOld lOld : Vec Ideal S1024x1 .f32)
    (r : Fin 1024) (v : Fin 512 → EReal) (a : EReal) :
    k1_pay13 (F := Ideal) q kb mOld mOld lOld (ix2 r (0 : Fin 1))
      = (Cert.Online.step (S q kb r) v (mOld (ix2 r (0 : Fin 1)), lOld (ix2 r (0 : Fin 1)), a)).2.1 := by
  unfold k1_pay13
  simp only [shapeCast_self]
  refine (addf_apply _ _ _).trans ?_
  refine congrArg₂ (· + ·) ?_ ?_
  · refine (mulf_apply _ _ _).trans ?_
    exact congrArg (· * lOld (ix2 r (0 : Fin 1))) (pay11_apply q kb mOld mOld r)
  · refine (Cert.LibKeepdims.shapeCast_a_a1_apply _ _ r (0 : Fin 1)).trans ?_
    refine (Cert.LibKeepdims.multiReduction_add_rows_apply _ _ _ _ r).trans ?_
    exact Finset.sum_congr rfl fun j _ => pay12_apply q kb mOld r j

/-- The new weighted sum of value column `d` is the third component of the step. -/
theorem acc_apply (q : Vec Ideal S1024x512 .bf16) (kb vb : Vec Ideal S1x512x512 .bf16) (mOld : Vec Ideal S1024x1 .f32)
    (accOld : Vec Ideal S1024x512 .f32) (r : Fin 1024) (d : Fin 512) (l : EReal) :
    k1_pay1 (k1_pay8 (F := Ideal) vb) (k1_pay14 q kb mOld mOld accOld) (k1_pay15 q kb mOld)
        (constant (F := Ideal) S1024x512 .f32 0x00000000#32) (ix2 r d)
      = (Cert.Online.step (S q kb r) (fun j : Fin 512 => vb (ix3 (0 : Fin 1) j d))
          (mOld (ix2 r (0 : Fin 1)), l, accOld (ix2 r d))).2.2 := by
  unfold k1_pay1
  simp only [shapeCast_self]
  refine (addf_apply _ _ _).trans ?_
  refine congrArg₂ (· + ·) ?_ ?_
  · unfold k1_pay14
    refine (mulf_apply _ _ _).trans ?_
    refine congrArg (· * accOld (ix2 r d)) ?_
    exact (Cert.LibKeepdims.broadcastTo_a1_ab_apply _ _ r d).trans (pay11_apply q kb mOld mOld r)
  · refine (Cert.LibPlainDot.Plain.matmul_zero_apply_formats ⟨rfl, rfl, rfl, rfl, rfl, rfl⟩ none _ _ r d).trans ?_
    refine Finset.sum_congr rfl fun j _ => ?_
    refine congrArg₂ (· * ·) ?_ ?_
    · unfold k1_pay15
      exact (truncf_apply (φ := .f32) (ψ := .bf16) _ bitsLt_bf16_f32 _).trans (pay12_apply q kb mOld r j)
    · unfold k1_pay8
      exact shapeCast_1ab_ab_apply vb _ j d

end Cert.KernelIdeal.Val

end
-- ==== Proof.AttnStep.lean ====
import proofs.«142881_j27659589386344_2_alg».proof.Proof.AttnPayload
import proofs.«142881_j27659589386344_2_alg».proof.Proof.AttnSpec

/-!
# The attention kernel's carried buffers, one key tile at a time

The second kernel call keeps, across the key-tile axis of its grid, the projected query block, the largest score so
far, the sum of weights and the weighted sum of values of every query row.  This file names what one visit of a key
tile leaves in the last three as closed forms of the body's payloads (any float format), and shows that over the
extended reals, at a query row `r` and a value column `d`, they are exactly one step of the online softmax
(`Cert.Online.step`) on the row's carried triple — so the buffers follow `Cert.AttnSpec.carried`.
-/

set_option maxRecDepth 16384

noncomputable section

open scoped BigOperators

namespace Cert.KernelIdeal.Val

open Cert.KernelIdeal Cert.KernelIdeal.Gen
open Idealize.ShloMosaic Idealize.ShloMosaic.ValueIdx
open Cert.AttnSpec

section AnyFormat
variable {F : FTy → Type} [FloatOps F]

/-- The largest score after a key tile: the old one against the tile's row maxima. -/
def newMax (q : Vec F S1024x512 .bf16) (kb : Vec F S1x512x512 .bf16) (m : Vec F S1024x1 .f32) : Vec F S1024x1 .f32 :=
  k1_pay2 (k1_pay10 q kb m)

/-- The sum of weights after a key tile: the old one rescaled plus the tile's weights. -/
def newSum (q : Vec F S1024x512 .bf16) (kb : Vec F S1x512x512 .bf16) (m l : Vec F S1024x1 .f32) : Vec F S1024x1 .f32 :=
  k1_pay13 q kb m m l

/-- The weighted sum of values after a key tile: the old one rescaled plus the tile's weights times its values. -/
def newAcc (q : Vec F S1024x512 .bf16) (kb vb : Vec F S1x512x512 .bf16) (m : Vec F S1024x1 .f32)
    (a : Vec F S1024x512 .f32) : Vec F S1024x512 .f32 :=
  k1_pay1 (k1_pay8 vb) (k1_pay14 q kb m m a) (k1_pay15 q kb m) (constant (F := F) S1024x512 .f32 0x00000000#32)

end AnyFormat

/-- The projected query block at row `r` is the linear layer's row, when the blocks read the arrays there. -/
theorem proj_entry (X : Fin 4 → Fin 4096 → Fin 1024 → EReal) (W : Fin 1024 → Fin 512 → EReal) (β : Fin 512 → EReal)
    (b : Fin 4) (s : Fin 4096) (r : Fin 1024) (d : Fin 512)
    (x0 : Vec Ideal S1x1024x1024 .f32) (x1 : Vec Ideal S1024x512 .f32) (x2 : Vec Ideal S512 .f32)
    (h0 : ∀ k, x0 (ix3 (0 : Fin 1) r k) = X b s k) (h1 : ∀ k, x1 (ix2 k d) = W k d) (h2 : x2 (ix1 d) = β d) :
    k1_pay4 (F := Ideal) x0 x1 x2 (ix2 r d) = lin X W β b s d := by
  rw [pay4_apply]
  unfold lin
  rw [h2]
  exact congrArg (· + β d) (Finset.sum_congr rfl fun k _ => by rw [h0, h1])

/-- ONE KEY TILE. If, at query row `r` (row `s` of batch `b`) and value column `d`, the query block, the key and
    value blocks of tile `i` and the three carried buffers hold the entries of `Qf`, `Kf`, `Vf` and of the carried
    triple after `i` tiles, then after the visit the carried buffers hold the triple after `i + 1` tiles. -/
theorem tile_step (Qf Kf Vf : Fin 4 → Fin 4096 → Fin 512 → EReal) (b : Fin 4) (s : Fin 4096) (i : Fin 8) (d : Fin 512)
    (r : Fin 1024) (q : Vec Ideal S1024x512 .bf16) (kb vb : Vec Ideal S1x512x512 .bf16)
    (mOld lOld : Vec Ideal S1024x1 .f32) (aOld : Vec Ideal S1024x512 .f32)
    (hq : ∀ d', q (ix2 r d') = Qf b s d')
    (hk : ∀ j d', kb (ix3 (0 : Fin 1) j d') = Kf b (keyAt i j) d')
    (hv : ∀ j, vb (ix3 (0 : Fin 1) j d) = Vf b (keyAt i j) d)
    (hm : mOld (ix2 r (0 : Fin 1)) = (carried Qf Kf Vf b s d i.val).1)
    (hl : lOld (ix2 r (0 : Fin 1)) = (carried Qf Kf Vf b s d i.val).2.1)
    (ha : aOld (ix2 r d) = (carried Qf Kf Vf b s d i.val).2.2) :
    newMax q kb mOld (ix2 r (0 : Fin 1)) = (carried Qf Kf Vf b s d (i.val + 1)).1
    ∧ newSum q kb mOld lOld (ix2 r (0 : Fin 1)) = (carried Qf Kf Vf b s d (i.val + 1)).2.1
    ∧ newAcc q kb vb mOld aOld (ix2 r d) = (carried Qf Kf Vf b s d (i.val + 1)).2.2 := by
  have hS : (fun j : Fin 512 => score Qf Kf b s (keyAt i j)) = S q kb r := by
    funext j
    unfold S score
    exact Finset.sum_congr rfl fun d' _ => by rw [hq, hk]
  have hV : (fun j : Fin 512 => Vf b (keyAt i j) d) = fun j : Fin 512 => vb (ix3 (0 : Fin 1) j d) :=
    funext fun j => (hv j).symm
  have hc : carried Qf Kf Vf b s d i.val = (mOld (ix2 r (0 : Fin 1)), lOld (ix2 r (0 : Fin 1)), aOld (ix2 r d)) := by
    rw [hm, hl, ha]
  rw [carried_succ, hc, hS, hV]
  unfold newMax newSum newAcc
  exact ⟨max_apply q kb mOld r _ _ _, sum_apply q kb mOld lOld r _ _, acc_apply q kb vb mOld aOld r d _⟩

/-- THE FIRST KEY TILE of a query block: the carried buffers are first reset to `(−∞, 0, 0)`, the triple after no tile. -/
theorem tile_first (Qf Kf Vf : Fin 4 → Fin 4096 → Fin 512 → EReal) (b : Fin 4) (s : Fin 4096) (d : Fin 512)
    (r : Fin 1024) (q : Vec Ideal S1024x512 .bf16) (kb vb : Vec Ideal S1x512x512 .bf16)
    (hq : ∀ d', q (ix2 r d') = Qf b s d')
    (hk : ∀ j d', kb (ix3 (0 : Fin 1) j d') = Kf b (keyAt 0 j) d')
    (hv : ∀ j, vb (ix3 (0 : Fin 1) j d) = Vf b (keyAt 0 j) d) :
    newMax q kb (k1_pay5 (F := Ideal)) (ix2 r (0 : Fin 1)) = (carried Qf Kf Vf b s d 1).1
    ∧ newSum q kb (k1_pay5 (F := Ideal)) (k1_pay6 (F := Ideal)) (ix2 r (0 : Fin 1)) = (carried Qf Kf Vf b s d 1).2.1
    ∧ newAcc q kb vb (k1_pay5 (F := Ideal)) (k1_pay7 (F := Ideal)) (ix2 r d) = (carried Qf Kf Vf b s d 1).2.2 :=
  tile_step Qf Kf Vf b s 0 d r q kb vb _ _ _ hq hk hv (pay5_apply r) (pay6_apply r) (pay7_apply r d)

/-- AFTER THE LAST TILE the output block holds the quotient of the carried weighted sum by the carried sum of weights. -/
theorem out_entry (Qf Kf Vf : Fin 4 → Fin 4096 → Fin 512 → EReal) (b : Fin 4) (s : Fin 4096) (d : Fin 512) (r : Fin 1024)
    (acc : Vec Ideal S1024x512 .f32) (lv : Vec Ideal S1024x1 .f32)
    (hl : lv (ix2 r (0 : Fin 1)) = (carried Qf Kf Vf b s d 8).2.1) (ha : acc (ix2 r d) = (carried Qf Kf Vf b s d 8).2.2) :
    k1_pay3 (F := Ideal) acc lv (ix3 (0 : Fin 1) r d) = tiled Qf Kf Vf b s d := by
  rw [out_apply, hl, ha]
  rfl

end Cert.KernelIdeal.Val

end
-- ==== Proof.AttnPieces.lean ====
import proofs.«142881_j27659589386344_2_alg».proof.Proof.AttnBody
import proofs.«142881_j27659589386344_2_alg».proof.Proof.AttnStep
import Idealize.ShloMosaic.Lib.Pipeline.Value
import Idealize.ShloMosaic.Lib.Tactic

/-!
# What one visit of the attention kernel's body leaves in each carried buffer and in the output block

The body's run was found case by case (the first key tile, a middle one, the last one) as lists of stored pieces.  Each
carried buffer, and in the last case the output block, is covered by whole-buffer stores, so what the run leaves there is
the payload of the last store, a closed term of the blocks the body loaded: the projected queries, and one step of the
carried (largest score, sum of weights, weighted sum of values).
-/

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Cert.KernelIdeal.Hand

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first key tile's visit leaves the projected query block in the first carried buffer. -/
theorem piece_A_0 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) :
    sout1_A_0 c i arg3 harg3 arg4 harg4 arg5 harg5 arg6 harg6 arg7 harg7 arg8 harg8 arg9 harg9 arg10 harg10 arg11 harg11 arg12 harg12 hc0 hc1 x0 x1 x2 x3 x4 = k1_pay4 x0 x1 x2 := by
  unfold sout1_A_0
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_unit_zero hz2]
  simp only [View.readAt_eq_ld, harg3.read_unread, harg4.read_unread, harg5.read_unread,
    View.ld_unit_zero (S := S1x1024x1024) hz3, View.ld_unit_zero (S := S1024x512) hz2, View.ld_unit_zero (S := S512) hz1]

/-- The first visit resets the largest score to the initial constant and updates it with the first key tile. -/
theorem piece_A_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) :
    sout1_A_1 c i arg3 harg3 arg4 harg4 arg5 harg5 arg6 harg6 arg7 harg7 arg8 harg8 arg9 harg9 arg10 harg10 arg11 harg11 arg12 harg12 hc0 hc1 x0 x1 x2 x3 x4 = newMax (k1_pay4 x0 x1 x2) x3 k1_pay5 := by
  unfold sout1_A_1
  rw [View.read_writes_eq_canon _ _ _ (scover1_A_1 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero (S := S1024x1) hz2]
  simp only [View.readCov_unit_zero (S := S1024x512) _ hz2, View.readCov_unit_zero (S := S1024x1) _ hz2,
    View.readAt_eq_ld, harg3.read_unread, harg4.read_unread, harg5.read_unread, harg6.read_unread, harg7.read_unread,
    View.ld_unit_zero (S := S1x1024x1024) hz3, View.ld_unit_zero (S := S1x512x512) hz3,
    View.ld_unit_zero (S := S1024x512) hz2, View.ld_unit_zero (S := S512) hz1]
  unfold newMax
  rfl

/-- The first visit resets the sum of weights and updates it with the first key tile. -/
theorem piece_A_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) :
    sout1_A_2 c i arg3 harg3 arg4 harg4 arg5 harg5 arg6 harg6 arg7 harg7 arg8 harg8 arg9 harg9 arg10 harg10 arg11 harg11 arg12 harg12 hc0 hc1 x0 x1 x2 x3 x4 = newSum (k1_pay4 x0 x1 x2) x3 k1_pay5 k1_pay6 := by
  unfold sout1_A_2
  rw [View.read_writes_eq_canon _ _ _ (scover1_A_2 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero (S := S1024x1) hz2]
  simp only [View.readCov_unit_zero (S := S1024x512) _ hz2, View.readCov_unit_zero (S := S1024x1) _ hz2,
    View.readAt_eq_ld, harg3.read_unread, harg4.read_unread, harg5.read_unread, harg6.read_unread, harg7.read_unread,
    View.ld_unit_zero (S := S1x1024x1024) hz3, View.ld_unit_zero (S := S1x512x512) hz3,
    View.ld_unit_zero (S := S1024x512) hz2, View.ld_unit_zero (S := S512) hz1]
  unfold newSum
  rfl

/-- The first visit resets the weighted sum of values and updates it with the first key and value tiles. -/
theorem piece_A_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) :
    sout1_A_3 c i arg3 harg3 arg4 harg4 arg5 harg5 arg6 harg6 arg7 harg7 arg8 harg8 arg9 harg9 arg10 harg10 arg11 harg11 arg12 harg12 hc0 hc1 x0 x1 x2 x3 x4 = newAcc (k1_pay4 x0 x1 x2) x3 x4 k1_pay5 k1_pay7 := by
  unfold sout1_A_3
  rw [View.read_writes_eq_canon _ _ _ (scover1_A_3 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero (S := S1024x512) hz2]
  simp only [View.readCov_unit_zero (S := S1024x512) _ hz2, View.readCov_unit_zero (S := S1024x1) _ hz2,
    View.readAt_eq_ld, harg3.read_unread, harg4.read_unread, harg5.read_unread, harg6.read_unread, harg7.read_unread,
    View.ld_unit_zero (S := S1x1024x1024) hz3, View.ld_unit_zero (S := S1x512x512) hz3,
    View.ld_unit_zero (S := S1024x512) hz2, View.ld_unit_zero (S := S512) hz1]
  unfold newAcc
  rfl

end Cert.KernelIdeal.Val

end
-- ==== Proof.AttnPiecesBC.lean ====
import proofs.«142881_j27659589386344_2_alg».proof.Proof.AttnBody
import proofs.«142881_j27659589386344_2_alg».proof.Proof.AttnStep
import Idealize.ShloMosaic.Lib.Pipeline.Value
import Idealize.ShloMosaic.Lib.Tactic

/-!
# What one visit of a key tile leaves in the carried buffers, as closed forms (`0 < kv`)

At a point that is not the first of its query block the body reads the projected queries, the key and value tiles and
the three carried buffers, and stores the new largest score, the new sum of weights and the new weighted sum whole; at
the last key tile it then divides the new weighted sum by the new sum of weights into the output block. Each buffer's
contents after the body, stated through the pieces its run leaves, is therefore the payload of its one covering
store (of its last one, for the largest score, stored twice), read at the contents the loads found.
-/

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable {F : FTy → Type} [FloatOps F]

/-- The zero offsets of a whole-block rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## Case B (`0 < kv < 7`) -/

/-- The largest score after the visit: the old one against the tile's row maxima. -/
theorem piece_B_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    sout1_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3 = newMax xs0 x3 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_B
  dsimp only
  sl_unfold_words
  rw [View.canon_unit_zero hz2]
  unfold newMax
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

/-- The sum of weights after the visit. -/
theorem piece_B_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    sout1_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3 = newSum xs0 x3 xs1 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_B
  dsimp only
  sl_unfold_words
  rw [View.canon_unit_zero hz2]
  unfold newSum
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

/-- The weighted sum of values after the visit. -/
theorem piece_B_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : ¬cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    sout1_B_3 c i arg3 harg3 arg4 harg4 arg5 harg5 arg6 harg6 arg7 harg7 arg8 harg8 arg9 harg9 arg10 harg10 arg11 harg11 arg12 harg12 hc0 hc1 x0 x1 x2 x3 x4 xs0 xs1 xs2 xs3 = newAcc xs0 x3 x4 xs1 xs3 := by
  unfold sout1_B_3
  rw [View.read_writes_eq_canon _ _ _ (scover1_B_3 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_B
  dsimp only
  sl_unfold_words
  rw [View.canon_unit_zero hz2]
  unfold newAcc
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

/-! ## Case C (`kv = 7`) -/

/-- The largest score after the visit: the old one against the tile's row maxima. -/
theorem piece_C_1 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    sout1_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3 = newMax xs0 x3 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz2]
  unfold newMax
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

/-- The sum of weights after the visit. -/
theorem piece_C_2 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    sout1_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3 = newSum xs0 x3 xs1 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz2]
  unfold newSum
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

/-- The weighted sum of values after the visit. -/
theorem piece_C_3 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    sout1_C_3 c i arg3 harg3 arg4 harg4 arg5 harg5 arg6 harg6 arg7 harg7 arg8 harg8 arg9 harg9 arg10 harg10 arg11 harg11 arg12 harg12 hc0 hc1 x0 x1 x2 x3 x4 xs0 xs1 xs2 xs3 = newAcc xs0 x3 x4 xs1 xs3 := by
  unfold sout1_C_3
  rw [View.read_writes_eq_canon _ _ _ (scover1_C_3 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz2]
  unfold newAcc
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

/-- The output block after the last key tile: the NEW weighted sum divided by the NEW sum of weights. -/
theorem piece_C_5 (c : Dev nD) (i : grid1.Coords) (arg3 : Memref sig .tc .vmem S1x1024x1024 .f32) (harg3 : arg3.IsWhole) (arg4 : Memref sig .tc .vmem S1024x512 .f32) (harg4 : arg4.IsWhole) (arg5 : Memref sig .tc .vmem S512 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x1024x512 .f32) (harg8 : arg8.IsWhole) (arg9 : Memref sig .tc .vmem S1024x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x512 .f32) (harg12 : arg12.IsWhole) (hc0 : ¬cond1_0 i) (hc1 : cond1_1 i)
    (x0 : Vec F S1x1024x1024 .f32) (x1 : Vec F S1024x512 .f32) (x2 : Vec F S512 .f32) (x3 : Vec F S1x512x512 .bf16) (x4 : Vec F S1x512x512 .bf16) (xs0 : Vec F S1024x512 .bf16) (xs1 : Vec F S1024x1 .f32) (xs2 : Vec F S1024x1 .f32) (xs3 : Vec F S1024x512 .f32) :
    out1_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3 = k1_pay3 (newAcc xs0 x3 x4 xs1 xs3) (newSum xs0 x3 xs1 xs2) := by
  unfold out1_C_5
  rw [View.read_writes_eq_canon _ _ _ (cover1_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz3, View.readCov_unit_zero (S := S1024x512) _ hz2, View.readCov_unit_zero (S := S1024x1) _ hz2]
  unfold newAcc newSum
  simp only [View.readAt_eq_ld, harg6.read_unread, harg7.read_unread, harg9.read_unread, harg10.read_unread, harg11.read_unread, harg12.read_unread, View.ld_unit_zero (S := S1024x1) hz2, View.ld_unit_zero (S := S1024x512) hz2, View.ld_unit_zero (S := S1x512x512) hz3]

end Cert.KernelIdeal.Val

end
-- ==== Proof.AttnBlocks.lean ====
import proofs.«142881_j27659589386344_2_alg».proof.Proof.AttnBody
import Idealize.ShloMosaic.Lib.Pipeline.Value
import Idealize.ShloMosaic.Lib.ValueIdx

/-!
# Region 1 (the attention kernel): its blocks as parts of the arrays

The second pallas_call runs on the grid (batch, query block, key tile) = 4 × 4 × 8, point `t` being
`(t / 32, t / 8 % 4, t % 8)`. Each input window's block at a point is read here off its array at explicit
coordinates: the hidden-state block is rows `1024 · qi …` of batch `b`, the key and the value blocks are rows
`512 · kv …` of batch `b`, the weight matrix and the bias are whole. The output array is written back only after
the last key tile of a (batch, query block) pair; those 16 blocks tile it, so if each of them holds a function `G` of
the coordinates, the array ends holding `G`.
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Region1
-- the TensorCore's buffer contents when the region is entered
variable (V : (c : Dev nD) → (b : Ref sig .tc) → Buf (Elt Ideal) ((c : Thread nD τ).loc b))

/-- The second grid has 128 points. -/
theorem lt_N1 (t : Fin cfg1.N) : t.val < 128 := lt_of_lt_of_eq t.isLt N_1

/-! ## The printed index maps, decided once over the grid -/

/-- The hidden-state window's block index at point `t` is (batch, query block, 0). -/
theorem idx1_0 : ∀ t : Fin cfg1.N, win1_0.index t (0 : Fin 3) = t.val / 32 ∧ win1_0.index t (1 : Fin 3) = t.val / 8 % 4
    ∧ win1_0.index t (2 : Fin 3) = 0 :=
  (by decide +kernel : ∀ t : Fin grid1.N, _)

/-- The weight window's block index is (0, 0). -/
theorem idx1_1 : ∀ t : Fin cfg1.N, win1_1.index t (0 : Fin 2) = 0 ∧ win1_1.index t (1 : Fin 2) = 0 :=
  (by decide +kernel : ∀ t : Fin grid1.N, _)

/-- The bias window's block index is 0. -/
theorem idx1_2 : ∀ t : Fin cfg1.N, win1_2.index t (0 : Fin 1) = 0 :=
  (by decide +kernel : ∀ t : Fin grid1.N, _)

/-- The key window's block index at point `t` is (batch, key tile, 0). -/
theorem idx1_3 : ∀ t : Fin cfg1.N, win1_3.index t (0 : Fin 3) = t.val / 32 ∧ win1_3.index t (1 : Fin 3) = t.val % 8
    ∧ win1_3.index t (2 : Fin 3) = 0 :=
  (by decide +kernel : ∀ t : Fin grid1.N, _)

/-- The value window's block index at point `t` is (batch, key tile, 0). -/
theorem idx1_4 : ∀ t : Fin cfg1.N, win1_4.index t (0 : Fin 3) = t.val / 32 ∧ win1_4.index t (1 : Fin 3) = t.val % 8
    ∧ win1_4.index t (2 : Fin 3) = 0 :=
  (by decide +kernel : ∀ t : Fin grid1.N, _)

/-- The output window's block index at point `t` is (batch, query block, 0). -/
theorem idx1_5 : ∀ t : Fin cfg1.N, win1_5.index t (0 : Fin 3) = t.val / 32 ∧ win1_5.index t (1 : Fin 3) = t.val / 8 % 4
    ∧ win1_5.index t (2 : Fin 3) = 0 :=
  (by decide +kernel : ∀ t : Fin grid1.N, _)

/-! ## The input blocks at coordinates -/

/-- The hidden-state block at point `t`: rows `1024 · qi + r` of batch `b`. -/
theorem blk1_0 (c : Dev nD) (t : Fin cfg1.N) (r : Fin 1024) (k : Fin 1024) :
    iblk1 V c 0 t (ix3 (0 : Fin 1) r k)
      = (V c main_arg0 : S4x4096x1024.Idx → EReal)
          (ix3 (⟨t.val / 32, by have := lt_N1 t; omega⟩ : Fin 4)
            (⟨1024 * (t.val / 8 % 4) + r.val, by have := r.isLt; omega⟩ : Fin 4096) k) := by
  obtain ⟨e0, e1, e2⟩ := idx1_0 t
  unfold iblk1
  rw [View.read_apply]
  show (V c main_arg0 : S4x4096x1024.Idx → EReal) _ = (V c main_arg0 : S4x4096x1024.Idx → EReal) _
  refine congrArg (V c main_arg0 : S4x4096x1024.Idx → EReal) (funext fun a => Fin.ext ?_)
  match a with
  | ⟨0, _⟩ => show win1_0.index t (0 : Fin 3) * 1 + 1 * ((0 : Fin 1) : ℕ) = t.val / 32; rw [e0]; simp
  | ⟨1, _⟩ => show win1_0.index t (1 : Fin 3) * 1024 + 1 * r.val = 1024 * (t.val / 8 % 4) + r.val; rw [e1]; omega
  | ⟨2, _⟩ => show win1_0.index t (2 : Fin 3) * 1024 + 1 * k.val = k.val; rw [e2]; omega

/-- The scaled query weight matrix, whole at every point. -/
theorem blk1_1 (c : Dev nD) (t : Fin cfg1.N) (k : Fin 1024) (d : Fin 512) :
    iblk1 V c 1 t (ix2 k d) = (V c main_v1 : S1024x512.Idx → EReal) (ix2 k d) := by
  obtain ⟨e0, e1⟩ := idx1_1 t
  unfold iblk1
  rw [View.read_apply]
  show (V c main_v1 : S1024x512.Idx → EReal) _ = (V c main_v1 : S1024x512.Idx → EReal) _
  refine congrArg (V c main_v1 : S1024x512.Idx → EReal) (funext fun a => Fin.ext ?_)
  match a with
  | ⟨0, _⟩ => show win1_1.index t (0 : Fin 2) * 1024 + 1 * k.val = k.val; rw [e0]; omega
  | ⟨1, _⟩ => show win1_1.index t (1 : Fin 2) * 512 + 1 * d.val = d.val; rw [e1]; omega

/-- The scaled query bias, whole at every point. -/
theorem blk1_2 (c : Dev nD) (t : Fin cfg1.N) (d : Fin 512) :
    iblk1 V c 2 t (ix1 d) = (V c main_v3 : S512.Idx → EReal) (ix1 d) := by
  have e0 := idx1_2 t
  unfold iblk1
  rw [View.read_apply]
  show (V c main_v3 : S512.Idx → EReal) _ = (V c main_v3 : S512.Idx → EReal) _
  refine congrArg (V c main_v3 : S512.Idx → EReal) (funext fun a => Fin.ext ?_)
  match a with
  | ⟨0, _⟩ => show win1_2.index t (0 : Fin 1) * 512 + 1 * d.val = d.val; rw [e0]; omega

/-- The key tile at point `t`: rows `512 · kv + j` of batch `b`. -/
theorem blk1_3 (c : Dev nD) (t : Fin cfg1.N) (j : Fin 512) (d : Fin 512) :
    iblk1 V c 3 t (ix3 (0 : Fin 1) j d)
      = (V c main_v7 : S4x4096x512.Idx → EReal)
          (ix3 (⟨t.val / 32, by have := lt_N1 t; omega⟩ : Fin 4)
            (⟨512 * (t.val % 8) + j.val, by have := j.isLt; omega⟩ : Fin 4096) d) := by
  obtain ⟨e0, e1, e2⟩ := idx1_3 t
  unfold iblk1
  rw [View.read_apply]
  show (V c main_v7 : S4x4096x512.Idx → EReal) _ = (V c main_v7 : S4x4096x512.Idx → EReal) _
  refine congrArg (V c main_v7 : S4x4096x512.Idx → EReal) (funext fun a => Fin.ext ?_)
  match a with
  | ⟨0, _⟩ => show win1_3.index t (0 : Fin 3) * 1 + 1 * ((0 : Fin 1) : ℕ) = t.val / 32; rw [e0]; simp
  | ⟨1, _⟩ => show win1_3.index t (1 : Fin 3) * 512 + 1 * j.val = 512 * (t.val % 8) + j.val; rw [e1]; omega
  | ⟨2, _⟩ => show win1_3.index t (2 : Fin 3) * 512 + 1 * d.val = d.val; rw [e2]; omega

/-- The value tile at point `t`: rows `512 · kv + j` of batch `b`. -/
theorem blk1_4 (c : Dev nD) (t : Fin cfg1.N) (j : Fin 512) (d : Fin 512) :
    iblk1 V c 4 t (ix3 (0 : Fin 1) j d)
      = (V c main_v8 : S4x4096x512.Idx → EReal)
          (ix3 (⟨t.val / 32, by have := lt_N1 t; omega⟩ : Fin 4)
            (⟨512 * (t.val % 8) + j.val, by have := j.isLt; omega⟩ : Fin 4096) d) := by
  obtain ⟨e0, e1, e2⟩ := idx1_4 t
  unfold iblk1
  rw [View.read_apply]
  show (V c main_v8 : S4x4096x512.Idx → EReal) _ = (V c main_v8 : S4x4096x512.Idx → EReal) _
  refine congrArg (V c main_v8 : S4x4096x512.Idx → EReal) (funext fun a => Fin.ext ?_)
  match a with
  | ⟨0, _⟩ => show win1_4.index t (0 : Fin 3) * 1 + 1 * ((0 : Fin 1) : ℕ) = t.val / 32; rw [e0]; simp
  | ⟨1, _⟩ => show win1_4.index t (1 : Fin 3) * 512 + 1 * j.val = 512 * (t.val % 8) + j.val; rw [e1]; omega
  | ⟨2, _⟩ => show win1_4.index t (2 : Fin 3) * 512 + 1 * d.val = d.val; rw [e2]; omega

/-! ## From the output's blocks to its array -/

/-- Every entry of the output array is in the block written back after the last key tile of its batch and query block. -/
theorem cover1_5 (i : S4x4096x512.Idx) :
    ∃ t : Fin cfg1.N, (cfg1.win 5).flush t = true ∧ i ∈ ((cfg1.win 5).blk t).view.set := by
  have h0 : (i 0).val < 4 := (i 0).isLt
  have h1 : (i 1).val < 4096 := (i 1).isLt
  have h2 : (i 2).val < 512 := (i 2).isLt
  obtain ⟨t, ht⟩ : ∃ t : Fin cfg1.N, t.val = 32 * (i 0).val + 8 * ((i 1).val / 1024) + 7 :=
    ⟨⟨32 * (i 0).val + 8 * ((i 1).val / 1024) + 7, lt_of_lt_of_eq (by omega) N_1.symm⟩, rfl⟩
  obtain ⟨e0, e1, e2⟩ := idx1_5 t
  refine ⟨t, (flush1_5 t).mpr (by omega), ?_⟩
  show i ∈ ((View.whole main_v9).slice (win1_5.rect t)).set
  rw [View.set_slice_whole, Rect.mem_set_unit]
  intro a
  match a with
  | ⟨0, _⟩ =>
    show win1_5.index t (0 : Fin 3) * 1 ≤ (i 0).val ∧ (i 0).val < win1_5.index t (0 : Fin 3) * 1 + 1
    rw [e0]; omega
  | ⟨1, _⟩ =>
    show win1_5.index t (1 : Fin 3) * 1024 ≤ (i 1).val ∧ (i 1).val < win1_5.index t (1 : Fin 3) * 1024 + 1024
    rw [e1]; omega
  | ⟨2, _⟩ =>
    show win1_5.index t (2 : Fin 3) * 512 ≤ (i 2).val ∧ (i 2).val < win1_5.index t (2 : Fin 3) * 512 + 512
    rw [e2]; omega

/-- What a point after the last key tile writes back is its block of `G`. -/
theorem flushed1_5 (c : Dev nD) (G : Fin 4 → Fin 4096 → Fin 512 → EReal)
    (hpt : ∀ (t : Fin cfg1.N), t.val % 8 = 7 → ∀ (r : Fin 1024) (d : Fin 512),
      (outsAt1 (F := Ideal) V c t.val t.isLt).1 (ix3 (0 : Fin 1) r d)
        = G (⟨t.val / 32, by have := lt_N1 t; omega⟩ : Fin 4)
            (⟨1024 * (t.val / 8 % 4) + r.val, by have := r.isLt; omega⟩ : Fin 4096) d)
    (t : Fin cfg1.N) (hf : (cfg1.win 5).flush t = true) :
    (dat1 (F := Ideal) V c).flushed 5 t
      = ((cfg1.win 5).blk t).view.read (Elt Ideal) (fun i : S4x4096x512.Idx => G (i 0) (i 1) (i 2)) := by
  have h7 : t.val % 8 = 7 := (flush1_5 t).mp hf
  obtain ⟨e0, e1, e2⟩ := idx1_5 t
  show (cfg1.win 5).cut (grid1.coords t) ((dat1 (F := Ideal) V c).after 5 t) = _
  rw [after1_5]
  funext y
  have hy0 : (y 0).val = 0 := by have : (y 0).val < 1 := (y 0).isLt; omega
  have hy1 : (y 1).val < 1024 := (y 1).isLt
  have hy2 : (y 2).val < 512 := (y 2).isLt
  have hL : (cfg1.win 5).xinj (grid1.coords t) y = ix3 (0 : Fin 1) (⟨(y 1).val, hy1⟩ : Fin 1024) (⟨(y 2).val, hy2⟩ : Fin 512) :=
    funext fun a => Fin.ext (by
      match a with
      | ⟨0, _⟩ => exact hy0
      | ⟨1, _⟩ => rfl
      | ⟨2, _⟩ => rfl)
  rw [View.read_apply]
  show (outsAt1 (F := Ideal) V c t.val t.isLt).1 ((cfg1.win 5).xinj (grid1.coords t) y)
    = G (((cfg1.win 5).blk t).view.emb y 0) (((cfg1.win 5).blk t).view.emb y 1) (((cfg1.win 5).blk t).view.emb y 2)
  rw [hL, hpt t h7]
  refine congr (congr (congrArg G (Fin.ext ?_)) (Fin.ext ?_)) (Fin.ext ?_)
  · show t.val / 32 = win1_5.index t (0 : Fin 3) * 1 + 1 * (y 0).val
    rw [e0, hy0]; omega
  · show 1024 * (t.val / 8 % 4) + (y 1).val = win1_5.index t (1 : Fin 3) * 1024 + 1 * (y 1).val
    rw [e1]; omega
  · show (y 2).val = win1_5.index t (2 : Fin 3) * 512 + 1 * (y 2).val
    rw [e2]; omega

/-- The output array after the region: if the block left after the last key tile of every (batch, query block) pair
    holds `G` at its rows, the array holds `G`. -/
theorem attn_array (c : Dev nD) (G : Fin 4 → Fin 4096 → Fin 512 → EReal)
    (hpt : ∀ (t : Fin cfg1.N), t.val % 8 = 7 → ∀ (r : Fin 1024) (d : Fin 512),
      (outsAt1 (F := Ideal) V c t.val t.isLt).1 (ix3 (0 : Fin 1) r d)
        = G (⟨t.val / 32, by have := lt_N1 t; omega⟩ : Fin 4)
            (⟨1024 * (t.val / 8 % 4) + r.val, by have := r.isLt; omega⟩ : Fin 4096) d)
    (b : Fin 4) (s : Fin 4096) (d : Fin 512) :
    (dat1 (F := Ideal) V c).arrAt 5 cfg1.N (ix3 b s d) = G b s d := by
  exact congrFun ((dat1 (F := Ideal) V c).arrAt_eq_of_cover 5 (fun i : S4x4096x512.Idx => G (i 0) (i 1) (i 2))
    (flushed1_5 V c G hpt) cover1_5) (ix3 b s d)

end Region1

end Cert.KernelIdeal.Val

end
-- ==== Proof.AttnValue.lean ====
import proofs.«142881_j27659589386344_2_alg».proof.Proof.AttnBody
import proofs.«142881_j27659589386344_2_alg».proof.Proof.AttnStep
import proofs.«142881_j27659589386344_2_alg».proof.Proof.AttnPieces
import proofs.«142881_j27659589386344_2_alg».proof.Proof.AttnPiecesBC
import proofs.«142881_j27659589386344_2_alg».proof.Proof.AttnBlocks
import Idealize.ShloMosaic.Lib.Pipeline.Value
import Idealize.ShloMosaic.Lib.ValueIdx
import Idealize.ShloMosaic.Lib.Tactic

/-!
# Region 1 (the attention kernel): the value of its output array, at the ideal values

The grid is `[4, 4, 8]`: batch `b`, query block `qi` (1024 rows), key tile `kv` (512 rows); point number
`32·b + 8·qi + kv`.  At `kv = 0` the body projects the query block and resets the carried triple; at every point it
visits one key tile; at `kv = 7` it divides and stores the output block, which is written back there only.  So after
point `(b, qi, kv)` the carried buffers hold, at row `r`, the projected query row `1024·qi + r` of batch `b` and that
row's carried triple after `kv + 1` tiles, and the output array ends holding the tiled attention of every row.
-/

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.AttnSpec

section Region1
-- the TensorCore's buffer contents when the region is entered
variable (V : (c : Dev nD) → (b : Ref sig .tc) → Buf (Elt Ideal) ((c : Thread nD τ).loc b))

/-! ## The arrays the region reads, by coordinates -/

/-- The hidden states. -/
abbrev hidden (c : Dev nD) : Fin 4 → Fin 4096 → Fin 1024 → EReal := fun b s k => (V c main_arg0 : S4x4096x1024.Idx → EReal) (ix3 b s k)
/-- The scaled query weights. -/
abbrev wq (c : Dev nD) : Fin 1024 → Fin 512 → EReal := fun k d => (V c main_v1 : S1024x512.Idx → EReal) (ix2 k d)
/-- The scaled query bias. -/
abbrev bq (c : Dev nD) : Fin 512 → EReal := fun d => (V c main_v3 : S512.Idx → EReal) (ix1 d)
/-- The keys. -/
abbrev keys (c : Dev nD) : Fin 4 → Fin 4096 → Fin 512 → EReal := fun b t d => (V c main_v7 : S4x4096x512.Idx → EReal) (ix3 b t d)
/-- The values. -/
abbrev vals (c : Dev nD) : Fin 4 → Fin 4096 → Fin 512 → EReal := fun b t d => (V c main_v8 : S4x4096x512.Idx → EReal) (ix3 b t d)
/-- The projected queries. -/
abbrev queries (c : Dev nD) : Fin 4 → Fin 4096 → Fin 512 → EReal := lin (hidden V c) (wq V c) (bq V c)

/-! ## The coordinates of a point -/

/-- The batch of point `t`. -/
abbrev batchOf (t : Fin cfg1.N) : Fin 4 := ⟨t.val / 32, by have := lt_N1 t; omega⟩
/-- The array row of row `r` of point `t`'s query block. -/
abbrev rowOf (t : Fin cfg1.N) (r : Fin 1024) : Fin 4096 := ⟨1024 * (t.val / 8 % 4) + r.val, by have := r.isLt; omega⟩
/-- The key tile of point `t`. -/
abbrev tileOf (t : Fin cfg1.N) : Fin 8 := ⟨t.val % 8, by omega⟩

/-- The key and value blocks at point `t` are tile `tileOf t` of batch `batchOf t`. -/
theorem key_block (c : Dev nD) (t : Fin cfg1.N) (j : Fin 512) (d : Fin 512) :
    iblk1 V c 3 t (ix3 (0 : Fin 1) j d) = keys V c (batchOf t) (keyAt (tileOf t) j) d := blk1_3 V c t j d
theorem val_block (c : Dev nD) (t : Fin cfg1.N) (j : Fin 512) (d : Fin 512) :
    iblk1 V c 4 t (ix3 (0 : Fin 1) j d) = vals V c (batchOf t) (keyAt (tileOf t) j) d := blk1_4 V c t j d

/-! ## The invariant of the carried buffers -/

/-- What the output block and the four carried buffers hold, as one tuple. -/
abbrev Carried : Type := Vec Ideal S1x1024x512 .f32 × Vec Ideal S1024x512 .bf16 × Vec Ideal S1024x1 .f32 × Vec Ideal S1024x1 .f32 × Vec Ideal S1024x512 .f32

/-- The carried buffers `P` hold, at every row `r`, the projected query row `s r` of batch `b` and that row's carried
    triple after `n` key tiles. -/
def Holds (c : Dev nD) (P : Carried) (b : Fin 4) (s : Fin 1024 → Fin 4096) (n : ℕ) : Prop :=
  ∀ (r : Fin 1024) (d : Fin 512),
    P.2.1 (ix2 r d) = queries V c b (s r) d
    ∧ P.2.2.1 (ix2 r (0 : Fin 1)) = (carried (queries V c) (keys V c) (vals V c) b (s r) d n).1
    ∧ P.2.2.2.1 (ix2 r (0 : Fin 1)) = (carried (queries V c) (keys V c) (vals V c) b (s r) d n).2.1
    ∧ P.2.2.2.2 (ix2 r d) = (carried (queries V c) (keys V c) (vals V c) b (s r) d n).2.2

/-- The projected query block, stored at the first key tile, is the linear layer of the hidden-state block. -/
theorem proj_block (c : Dev nD) (t : Fin cfg1.N) (r : Fin 1024) (d : Fin 512) :
    k1_pay4 (F := Ideal) (iblk1 V c 0 t) (iblk1 V c 1 t) (iblk1 V c 2 t) (ix2 r d) = queries V c (batchOf t) (rowOf t r) d :=
  proj_entry (hidden V c) (wq V c) (bq V c) (batchOf t) (rowOf t r) r d (iblk1 V c 0 t) (iblk1 V c 1 t) (iblk1 V c 2 t)
    (fun k => blk1_0 V c t r k) (fun k => blk1_1 V c t k d) (blk1_2 V c t d)

set_option maxHeartbeats 1000000 in
/-- AT THE FIRST KEY TILE of a query block the buffers hold the projected queries and the triple after one tile. -/
theorem holds_A (c : Dev nD) (t : Fin cfg1.N) (h0 : t.val % 8 = 0) (h1 : ¬t.val % 8 = 7) :
    Holds V c (outsAt1 (F := Ideal) V c t.val t.isLt) (batchOf t) (rowOf t) (t.val % 8 + 1) := by
  intro r d
  have hi : tileOf t = (0 : Fin 8) := Fin.ext h0
  have step := tile_first (queries V c) (keys V c) (vals V c) (batchOf t) (rowOf t r) d r
    (k1_pay4 (F := Ideal) (iblk1 V c 0 t) (iblk1 V c 1 t) (iblk1 V c 2 t)) (iblk1 V c 3 t) (iblk1 V c 4 t)
    (fun d' => proj_block V c t r d') (fun j d' => by rw [← hi]; exact key_block V c t j d') (fun j => by rw [← hi]; exact val_block V c t j d)
  rw [show t.val % 8 + 1 = 1 from by omega, outsAt1_A V c t h0 h1]
  dsimp only
  exact ⟨(congrFun (piece_A_0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) _).trans (proj_block V c t r d),
    (congrFun (piece_A_1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) _).trans step.1,
    (congrFun (piece_A_2 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) _).trans step.2.1,
    (congrFun (piece_A_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) _).trans step.2.2⟩

set_option maxHeartbeats 1000000 in
/-- AT A MIDDLE KEY TILE the projected queries stay and the triple advances by one tile. -/
theorem holds_B (c : Dev nD) (t : Fin cfg1.N) (h0 : ¬t.val % 8 = 0) (h1 : ¬t.val % 8 = 7)
    (hP : Holds V c (outsAt1 (F := Ideal) V c (t.val - 1) (Nat.lt_of_le_of_lt (Nat.sub_le _ _) t.isLt)) (batchOf t) (rowOf t) (t.val % 8)) :
    Holds V c (outsAt1 (F := Ideal) V c t.val t.isLt) (batchOf t) (rowOf t) (t.val % 8 + 1) := by
  intro r d
  rw [outsAt1_B V c t h0 h1]
  generalize outsAt1 (F := Ideal) V c (t.val - 1) (Nat.lt_of_le_of_lt (Nat.sub_le _ _) t.isLt) = P at hP ⊢
  have step := tile_step (queries V c) (keys V c) (vals V c) (batchOf t) (rowOf t r) (tileOf t) d r
    P.2.1 (iblk1 V c 3 t) (iblk1 V c 4 t) P.2.2.1 P.2.2.2.1 P.2.2.2.2
    (fun d' => (hP r d').1) (fun j d' => key_block V c t j d') (fun j => val_block V c t j d)
    (hP r d).2.1 (hP r d).2.2.1 (hP r d).2.2.2
  dsimp only
  exact ⟨(hP r d).1,
    (congrFun (piece_B_1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) P.2.1 P.2.2.1 P.2.2.2.1 P.2.2.2.2) _).trans step.1,
    (congrFun (piece_B_2 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) P.2.1 P.2.2.1 P.2.2.2.1 P.2.2.2.2) _).trans step.2.1,
    (congrFun (piece_B_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) P.2.1 P.2.2.1 P.2.2.2.1 P.2.2.2.2) _).trans step.2.2⟩

set_option maxHeartbeats 1000000 in
/-- AT THE LAST KEY TILE likewise: the projected queries stay and the triple advances to all eight tiles. -/
theorem holds_C (c : Dev nD) (t : Fin cfg1.N) (h0 : ¬t.val % 8 = 0) (h1 : t.val % 8 = 7)
    (hP : Holds V c (outsAt1 (F := Ideal) V c (t.val - 1) (Nat.lt_of_le_of_lt (Nat.sub_le _ _) t.isLt)) (batchOf t) (rowOf t) (t.val % 8)) :
    Holds V c (outsAt1 (F := Ideal) V c t.val t.isLt) (batchOf t) (rowOf t) (t.val % 8 + 1) := by
  intro r d
  rw [outsAt1_C V c t h0 h1]
  generalize outsAt1 (F := Ideal) V c (t.val - 1) (Nat.lt_of_le_of_lt (Nat.sub_le _ _) t.isLt) = P at hP ⊢
  have step := tile_step (queries V c) (keys V c) (vals V c) (batchOf t) (rowOf t r) (tileOf t) d r
    P.2.1 (iblk1 V c 3 t) (iblk1 V c 4 t) P.2.2.1 P.2.2.2.1 P.2.2.2.2
    (fun d' => (hP r d').1) (fun j d' => key_block V c t j d') (fun j => val_block V c t j d)
    (hP r d).2.1 (hP r d).2.2.1 (hP r d).2.2.2
  dsimp only
  exact ⟨(hP r d).1,
    (congrFun (piece_C_1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) P.2.1 P.2.2.1 P.2.2.2.1 P.2.2.2.2) _).trans step.1,
    (congrFun (piece_C_2 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) P.2.1 P.2.2.1 P.2.2.2.1 P.2.2.2.2) _).trans step.2.1,
    (congrFun (piece_C_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) P.2.1 P.2.2.1 P.2.2.2.1 P.2.2.2.2) _).trans step.2.2⟩

set_option maxHeartbeats 1000000 in
/-- AT THE LAST KEY TILE the output block is the quotient of the new weighted sum by the new sum of weights: the tiled
    attention of the block's rows. -/
theorem out_C (c : Dev nD) (t : Fin cfg1.N) (h0 : ¬t.val % 8 = 0) (h1 : t.val % 8 = 7)
    (hP : Holds V c (outsAt1 (F := Ideal) V c (t.val - 1) (Nat.lt_of_le_of_lt (Nat.sub_le _ _) t.isLt)) (batchOf t) (rowOf t) (t.val % 8))
    (r : Fin 1024) (d : Fin 512) :
    (outsAt1 (F := Ideal) V c t.val t.isLt).1 (ix3 (0 : Fin 1) r d)
      = tiled (queries V c) (keys V c) (vals V c) (batchOf t) (rowOf t r) d := by
  rw [outsAt1_C V c t h0 h1]
  generalize outsAt1 (F := Ideal) V c (t.val - 1) (Nat.lt_of_le_of_lt (Nat.sub_le _ _) t.isLt) = P at hP ⊢
  have step := tile_step (queries V c) (keys V c) (vals V c) (batchOf t) (rowOf t r) (tileOf t) d r
    P.2.1 (iblk1 V c 3 t) (iblk1 V c 4 t) P.2.2.1 P.2.2.2.1 P.2.2.2.2
    (fun d' => (hP r d').1) (fun j d' => key_block V c t j d') (fun j => val_block V c t j d)
    (hP r d).2.1 (hP r d).2.2.1 (hP r d).2.2.2
  have e8 : (tileOf t).val + 1 = 8 := by show t.val % 8 + 1 = 8; omega
  rw [e8] at step
  dsimp only
  refine (congrFun (piece_C_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) P.2.1 P.2.2.1 P.2.2.2.1 P.2.2.2.2) _).trans ?_
  exact out_entry (queries V c) (keys V c) (vals V c) (batchOf t) (rowOf t r) d r
    (newAcc P.2.1 (iblk1 V c 3 t) (iblk1 V c 4 t) P.2.2.1 P.2.2.2.2) (newSum P.2.1 (iblk1 V c 3 t) P.2.2.1 P.2.2.2.1)
    step.2.1 step.2.2

/-! ## Every point, by induction -/

/-- After every point the carried buffers hold the projected queries of the point's query block and its rows' carried
    triples after the point's key tile. -/
theorem holds_all (c : Dev nD) : ∀ (n : ℕ) (hn : n < cfg1.N),
    Holds V c (outsAt1 (F := Ideal) V c n hn) (batchOf ⟨n, hn⟩) (rowOf ⟨n, hn⟩) (n % 8 + 1)
  | 0, hn => holds_A V c ⟨0, hn⟩ (Nat.zero_mod _) (by show ¬(0 % 8 = 7); omega)
  | n + 1, hn => by
    have hN : cfg1.N = 128 := N_1
    by_cases h0 : (n + 1) % 8 = 0
    · exact holds_A V c ⟨n + 1, hn⟩ h0 (by show ¬(n + 1) % 8 = 7; omega)
    · have ih := holds_all c n (Nat.lt_of_succ_lt hn)
      have hb : batchOf ⟨n, Nat.lt_of_succ_lt hn⟩ = batchOf ⟨n + 1, hn⟩ := Fin.ext (by show n / 32 = (n + 1) / 32; omega)
      have hs : rowOf ⟨n, Nat.lt_of_succ_lt hn⟩ = rowOf ⟨n + 1, hn⟩ := funext fun r => Fin.ext (by show 1024 * (n / 8 % 4) + r.val = 1024 * ((n + 1) / 8 % 4) + r.val; omega)
      have hk : n % 8 + 1 = (n + 1) % 8 := by omega
      rw [hb, hs, hk] at ih
      by_cases h1 : (n + 1) % 8 = 7
      · exact holds_C V c ⟨n + 1, hn⟩ h0 h1 ih
      · exact holds_B V c ⟨n + 1, hn⟩ h0 h1 ih

/-- After the last key tile of a query block the output block holds the tiled attention of its rows. -/
theorem out_block (c : Dev nD) (t : Fin cfg1.N) (h7 : t.val % 8 = 7) (r : Fin 1024) (d : Fin 512) :
    (outsAt1 (F := Ideal) V c t.val t.isLt).1 (ix3 (0 : Fin 1) r d)
      = tiled (queries V c) (keys V c) (vals V c) (batchOf t) (rowOf t r) d := by
  have hN : cfg1.N = 128 := N_1
  have hpos : t.val ≠ 0 := by omega
  have h0 : ¬t.val % 8 = 0 := by omega
  have ih := holds_all V c (t.val - 1) (Nat.lt_of_le_of_lt (Nat.sub_le _ _) t.isLt)
  have hb : batchOf ⟨t.val - 1, Nat.lt_of_le_of_lt (Nat.sub_le _ _) t.isLt⟩ = batchOf t := Fin.ext (by show (t.val - 1) / 32 = t.val / 32; omega)
  have hs : rowOf ⟨t.val - 1, Nat.lt_of_le_of_lt (Nat.sub_le _ _) t.isLt⟩ = rowOf t := funext fun r => Fin.ext (by show 1024 * ((t.val - 1) / 8 % 4) + r.val = 1024 * (t.val / 8 % 4) + r.val; omega)
  have hk : (t.val - 1) % 8 + 1 = t.val % 8 := by omega
  rw [hb, hs, hk] at ih
  exact out_C V c t h0 h7 ih r d

/-- THE OUTPUT ARRAY after region 1: entry `(b, s, d)` is the tiled attention of query row `s` of batch `b`, the
    queries the linear layer of the first operand, the keys and values the fourth and fifth operands. -/
theorem attn_value (c : Dev nD) (b : Fin 4) (s : Fin 4096) (d : Fin 512) :
    (dat1 (F := Ideal) V c).arrAt 5 cfg1.N (ix3 b s d)
      = tiled (lin (fun b s k => (V c main_arg0 : S4x4096x1024.Idx → EReal) (ix3 b s k))
                  (fun k d => (V c main_v1 : S1024x512.Idx → EReal) (ix2 k d))
                  (fun d => (V c main_v3 : S512.Idx → EReal) (ix1 d)))
          (fun b t d => (V c main_v7 : S4x4096x512.Idx → EReal) (ix3 b t d))
          (fun b t d => (V c main_v8 : S4x4096x512.Idx → EReal) (ix3 b t d)) b s d :=
  attn_array V c (tiled (queries V c) (keys V c) (vals V c)) (fun t h7 r d => out_block V c t h7 r d) b s d

end Region1

end Cert.KernelIdeal.Val

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.HostGlue.lean ====
/-
  The host operations of the kernel program, read entry by entry on the extended reals.

  Before the first kernel the host multiplies the query weight and the query bias entrywise by the scale word
  (spread to their shapes) and flattens the key and value inputs [4, 4096, 512] to [16384, 512]: row 4096·b + t of the
  flat array is row (b, t).  Between the two kernels it folds the first kernel's two outputs [16384, 512] back to
  [4, 4096, 512].  Every other array is left as it was.  These hold from any contents of the device's arrays.
-/
import proofs.«142881_j27659589386344_2_alg».proof.Proof.Gen.KernelIdeal.Regions
import proofs.«142881_j27659589386344_2_alg».proof.Proof.LibFlatten3
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.ShloMosaic.StableHlo

/-- The scale the host multiplies the query weight and bias by: the extended real the program's scale word denotes. -/
abbrev cW : EReal := Ideal.ofBits .f32 0x3D3504F3#32

/-- Row 4096·b + t of a flattened [4, 4096, ·] array. -/
abbrev flatRow (b : Fin 4) (t : Fin 4096) : Fin 16384 := ⟨4096 * b.val + t.val, by omega⟩

/-- The scaled query weight. -/
theorem glue_v1 (W : Valuation τ sig (Elt Ideal)) (k : Fin 1024) (d : Fin 512) :
    (StableHlo.after (hostOps0 (F := Ideal)) W (Proc.devRef .tc main_v1) : S1024x512.Idx → EReal) (ix2 k d)
      = HMul.hMul (α := EReal) (β := EReal) (γ := EReal) ((W (Proc.devRef .tc main_arg3) : S1024x512.Idx → EReal) (ix2 k d)) cW := by
  have e : (StableHlo.after (hostOps0 (F := Ideal)) W (Proc.devRef .tc main_v1) : S1024x512.Idx → EReal)
      = mulf (W (Proc.devRef .tc main_arg3) : FVec Ideal S1024x512 .f32)
          (broadcastInDim S1024x512 ![] bcast_S_S1024x512 (constant (F := Ideal) S_ .f32 0x3D3504F3#32)) := by
    after_results <;> rfl
  rw [e]
  refine (mulf_apply _ _ _).trans ?_
  refine congrArg (HMul.hMul (α := EReal) (β := EReal) (γ := EReal) _) ?_
  exact (broadcastInDim_apply _ bcast_S_S1024x512 _ (ix2 k d) ix0 (fun a => a.elim0)).trans rfl

/-- The scaled query bias. -/
theorem glue_v3 (W : Valuation τ sig (Elt Ideal)) (d : Fin 512) :
    (StableHlo.after (hostOps0 (F := Ideal)) W (Proc.devRef .tc main_v3) : S512.Idx → EReal) (ix1 d)
      = HMul.hMul (α := EReal) (β := EReal) (γ := EReal) ((W (Proc.devRef .tc main_arg4) : S512.Idx → EReal) (ix1 d)) cW := by
  have e : (StableHlo.after (hostOps0 (F := Ideal)) W (Proc.devRef .tc main_v3) : S512.Idx → EReal)
      = mulf (W (Proc.devRef .tc main_arg4) : FVec Ideal S512 .f32)
          (broadcastInDim S512 ![] bcast_S_S512 (constant (F := Ideal) S_ .f32 0x3D3504F3#32)) := by
    after_results <;> rfl
  rw [e]
  refine (mulf_apply _ _ _).trans ?_
  refine congrArg (HMul.hMul (α := EReal) (β := EReal) (γ := EReal) _) ?_
  exact (broadcastInDim_apply _ bcast_S_S512 _ (ix1 d) ix0 (fun a => a.elim0)).trans rfl

/-- The flattened key input. -/
theorem glue_v4 (W : Valuation τ sig (Elt Ideal)) (b : Fin 4) (t : Fin 4096) (f : Fin 512) :
    (StableHlo.after (hostOps0 (F := Ideal)) W (Proc.devRef .tc main_v4) : S16384x512.Idx → EReal) (ix2 (flatRow b t) f)
      = (W (Proc.devRef .tc main_arg1) : S4x4096x512.Idx → EReal) (ix3 b t f) := by
  have e : (StableHlo.after (hostOps0 (F := Ideal)) W (Proc.devRef .tc main_v4) : S16384x512.Idx → EReal)
      = shapeCast S16384x512 (W (Proc.devRef .tc main_arg1) : S4x4096x512.Idx → EReal) shapeCasts_S4x4096x512_S16384x512 := by
    after_results <;> rfl
  rw [e]
  exact Cert.LibFlatten3.shapeCast_abc_mc_apply _ _ b t f (flatRow b t)
    (by show 4096 * b.val + t.val = b.val * 4096 + t.val; omega)

/-- The flattened value input. -/
theorem glue_v5 (W : Valuation τ sig (Elt Ideal)) (b : Fin 4) (t : Fin 4096) (f : Fin 512) :
    (StableHlo.after (hostOps0 (F := Ideal)) W (Proc.devRef .tc main_v5) : S16384x512.Idx → EReal) (ix2 (flatRow b t) f)
      = (W (Proc.devRef .tc main_arg2) : S4x4096x512.Idx → EReal) (ix3 b t f) := by
  have e : (StableHlo.after (hostOps0 (F := Ideal)) W (Proc.devRef .tc main_v5) : S16384x512.Idx → EReal)
      = shapeCast S16384x512 (W (Proc.devRef .tc main_arg2) : S4x4096x512.Idx → EReal) shapeCasts_S4x4096x512_S16384x512 := by
    after_results <;> rfl
  rw [e]
  exact Cert.LibFlatten3.shapeCast_abc_mc_apply _ _ b t f (flatRow b t)
    (by show 4096 * b.val + t.val = b.val * 4096 + t.val; omega)

/-- An array the first host stretch does not write is left as it was. -/
theorem glue_arg0 (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 W hostOps0_writes h

/-- An array the second host stretch does not write is left as it was. -/
theorem glue_arg1 (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 W hostOps1_writes h

/-- The first kernel's key output folded back to [4, 4096, 512]. -/
theorem glue_v7 (W : Valuation τ sig (Elt Ideal)) (b : Fin 4) (t : Fin 4096) (d : Fin 512) :
    (StableHlo.after (hostOps1 (F := Ideal)) W (Proc.devRef .tc main_v7) : S4x4096x512.Idx → EReal) (ix3 b t d)
      = (W (Proc.devRef .tc main_v6_0) : S16384x512.Idx → EReal) (ix2 (flatRow b t) d) := by
  have e : (StableHlo.after (hostOps1 (F := Ideal)) W (Proc.devRef .tc main_v7) : S4x4096x512.Idx → EReal)
      = shapeCast S4x4096x512 (W (Proc.devRef .tc main_v6_0) : S16384x512.Idx → EReal) shapeCasts_S16384x512_S4x4096x512 := by
    after_results <;> rfl
  rw [e]
  exact Cert.LibFlatten3.shapeCast_mc_abc_apply _ _ b t d (flatRow b t)
    (by show 4096 * b.val + t.val = b.val * 4096 + t.val; omega)

/-- The first kernel's value output folded back to [4, 4096, 512]. -/
theorem glue_v8 (W : Valuation τ sig (Elt Ideal)) (b : Fin 4) (t : Fin 4096) (d : Fin 512) :
    (StableHlo.after (hostOps1 (F := Ideal)) W (Proc.devRef .tc main_v8) : S4x4096x512.Idx → EReal) (ix3 b t d)
      = (W (Proc.devRef .tc main_v6_1) : S16384x512.Idx → EReal) (ix2 (flatRow b t) d) := by
  have e : (StableHlo.after (hostOps1 (F := Ideal)) W (Proc.devRef .tc main_v8) : S4x4096x512.Idx → EReal)
      = shapeCast S4x4096x512 (W (Proc.devRef .tc main_v6_1) : S16384x512.Idx → EReal) shapeCasts_S16384x512_S4x4096x512 := by
    after_results <;> rfl
  rw [e]
  exact Cert.LibFlatten3.shapeCast_mc_abc_apply _ _ b t d (flatRow b t)
    (by show 4096 * b.val + t.val = b.val * 4096 + t.val; omega)

end Cert.KernelIdeal.Val

end
-- ==== Proof.LibOnlineTiles.lean ====
/-
  Softmax attention accumulated over any number of consecutive key tiles.

  For a row of scores `s 0, s 1, …` and values `v 0, v 1, …` the first `k` entries determine the triple
  `pre s v k = (M_k, Σ_{i<k} exp (s i − M_k), Σ_{i<k} exp (s i − M_k) · v i)` with `M_k` their largest score.  One tile
  update (`Cert.Online.step`) started from `(−∞, 0, 0)` on the first `T` entries gives `pre s v T` (the initial values are
  multiplied by zero), and on entries `k … k+T−1` it sends `pre s v k` to `pre s v (k+T)` when the scores met so far are
  real numbers: the rescaling factor `exp (M_k − M_{k+T})` is a nonnegative real, so it passes through the finite sums,
  and `exp (M_k − M) · exp (s − M_k) = exp (s − M)`.  Hence a recurrence that applies the update tile after tile holds
  `pre s v (T·j)` after `j` tiles, and the quotient of the last two components of `pre s v n` is the attention output of
  the row of length `n` normalised after the weighted sum.  The values may be any extended reals.
-/
import proofs.«142881_j27659589386344_2_alg».proof.Proof.LibOnlineSoftmax

noncomputable section

open scoped BigOperators

namespace Cert.OnlineTiles

open Idealize.ShloMosaic Cert.LibRealEntries Cert.LibSumMulNonneg Cert.Attn Cert.Online

/-- The triple the first `k` entries of a row determine. -/
def pre (s v : ℕ → EReal) (k : ℕ) : EReal × EReal × EReal :=
  (rowMax (fun i : Fin k => s i.val), den (fun i : Fin k => s i.val),
   ∑ i : Fin k, wt (fun i : Fin k => s i.val) i * v i.val)

/-- The first tile: the update from `(−∞, 0, 0)`. -/
theorem first_tile (s v : ℕ → EReal) (T : ℕ) :
    step (fun j : Fin T => s j.val) (fun j : Fin T => v j.val) (⊥, 0, 0) = pre s v T := by
  unfold step pre rowMax den wt
  simp only [max_eq_right bot_le, mul_zero, zero_add]
  rfl

/-- A further tile. -/
theorem next_tile (s v : ℕ → EReal) (k T : ℕ) (hk : 0 < k) (hT : 0 < T) (hs : ∀ i < k + T, IsReal (s i)) :
    step (fun j : Fin T => s (k + j.val)) (fun j : Fin T => v (k + j.val)) (pre s v k) = pre s v (k + T) := by
  haveI : Nonempty (Fin k) := ⟨⟨0, hk⟩⟩
  haveI : Nonempty (Fin T) := ⟨⟨0, hT⟩⟩
  obtain ⟨μ0, hμ0⟩ := isReal_sup (fun i : Fin k => s i.val) (fun i => hs _ (by omega))
  obtain ⟨μ1, hμ1⟩ := isReal_sup (fun j : Fin T => s (k + j.val)) (fun j => hs _ (by omega))
  obtain ⟨μ, hμ⟩ : IsReal (max (μ0 : EReal) μ1) := IsReal.max ⟨μ0, rfl⟩ ⟨μ1, rfl⟩
  have hsup : Finset.univ.sup (fun i : Fin (k + T) => s i.val) = (μ : EReal) := by
    rw [sup_fin_add]
    show max (Finset.univ.sup fun i : Fin k => s i.val) (Finset.univ.sup fun j : Fin T => s (k + j.val)) = _
    rw [hμ0, hμ1, hμ]
  have key0 : ∀ i : Fin k, Ideal.exp ((μ0 : EReal) - μ) * Ideal.exp (s i.val - μ0) = Ideal.exp (s i.val - μ) :=
    fun i => by
      obtain ⟨x, hx⟩ := hs i.val (by omega); rw [hx]; exact exp_sub_mul_exp_sub x μ0 μ
  have key1 : ∀ i : Fin k, Ideal.exp ((μ0 : EReal) - μ) * (Ideal.exp (s i.val - μ0) * v i.val)
      = Ideal.exp (s i.val - μ) * v i.val := fun i => by rw [← mul_assoc, key0]
  have hα0 : 0 ≤ Ideal.exp ((μ0 : EReal) - μ) := exp_nonneg _
  have hα1 : Ideal.exp ((μ0 : EReal) - μ) ≠ ⊤ := by rw [← EReal.coe_sub]; exact EReal.coe_ne_top _
  unfold step pre den wt rowMax
  dsimp only
  rw [hsup, hμ0, hμ1, hμ, ← univ_mul_sum_of_nonneg_of_ne_top hα0 hα1, ← univ_mul_sum_of_nonneg_of_ne_top hα0 hα1,
    Fin.sum_univ_add, Fin.sum_univ_add]
  simp only [key0, key1, Fin.val_castAdd, Fin.val_natAdd]

/-- The quotient of a row's triple is its attention output, normalised after the weighted sum. -/
theorem div_pre (s v : ℕ → EReal) (n : ℕ) :
    Ideal.div (pre s v n).2.2 (pre s v n).2.1 = attnK (fun i : Fin n => s i.val) (fun i : Fin n => v i.val) := rfl

/-- A recurrence that applies the update tile after tile holds the prefix triple after each tile. -/
theorem tiles (s v : ℕ → EReal) (T : ℕ) (hT : 0 < T) (st : ℕ → EReal × EReal × EReal) (J : ℕ)
    (h0 : st 0 = (⊥, 0, 0))
    (hstep : ∀ j < J, st (j + 1)
      = step (fun i : Fin T => s (T * j + i.val)) (fun i : Fin T => v (T * j + i.val)) (st j))
    (hs : ∀ i < T * J, IsReal (s i)) : ∀ j, j < J → st (j + 1) = pre s v (T * (j + 1)) := by
  intro j
  induction j with
  | zero =>
    intro hj
    rw [hstep 0 hj, h0]
    simp only [Nat.mul_zero, Nat.zero_add, Nat.mul_one]
    exact first_tile s v T
  | succ j ih =>
    intro hj
    rw [hstep (j + 1) hj, ih (by omega), Nat.mul_succ T (j + 1)]
    refine next_tile s v (T * (j + 1)) T (Nat.mul_pos hT (Nat.succ_pos j)) hT fun i hi => hs i ?_
    calc i < T * (j + 1) + T := hi
      _ = T * (j + 2) := (Nat.mul_succ T (j + 1)).symm
      _ ≤ T * J := Nat.mul_le_mul_left T (by omega)

end Cert.OnlineTiles

end
-- ==== Proof.AttnMath.lean ====
/-
  Tiled attention with the scale folded into the query projection against plain attention with the scale on the scores.

  With real inputs every projected entry is a real number, so every score is real.  The scale `c` multiplies each
  weight and each bias of the query layer; a real factor passes through the finite sums, so the score of the scaled
  query against a key is `c` times the score of the unscaled query (`score_scaled`).  A row of real scores visited in 8
  tiles of 512 keys from `(−∞, 0, 0)` leaves the triple of the whole row (`Cert.OnlineTiles.tiles`), whose quotient
  is the row's attention output normalised after the weighted sum, and that equals the output with the weights
  normalised first (`Cert.Attn.attnK_eq_attnR`).
-/
import proofs.«142881_j27659589386344_2_alg».proof.Proof.AttnSpec
import proofs.«142881_j27659589386344_2_alg».proof.Proof.LibOnlineTiles

noncomputable section

open scoped BigOperators

namespace Cert.AttnSpec

open Idealize.ShloMosaic Cert.LibRealEntries Cert.Attn Cert.Online Cert.OnlineTiles

/-- A finite sum of real numbers, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A linear layer of real inputs has real entries. -/
theorem isReal_lin {n : ℕ} (x : Fin 4 → Fin 4096 → Fin n → EReal) (w : Fin n → Fin 512 → EReal) (β : Fin 512 → EReal)
    (hx : ∀ b s k, IsReal (x b s k)) (hw : ∀ k d, IsReal (w k d)) (hβ : ∀ d, IsReal (β d)) (b : Fin 4) (s : Fin 4096)
    (d : Fin 512) : IsReal (lin x w β b s d) :=
  (IsReal.sum _ _ fun k _ => (hx b s k).mul (hw k d)).add (hβ d)

/-- A score of real queries and keys is real. -/
theorem isReal_score (q k : Fin 4 → Fin 4096 → Fin 512 → EReal) (hq : ∀ b s d, IsReal (q b s d))
    (hk : ∀ b t d, IsReal (k b t d)) (b : Fin 4) (s t : Fin 4096) : IsReal (score q k b s t) :=
  IsReal.sum _ _ fun d _ => (hq b s d).mul (hk b t d)

/-- Scaling the query layer's weights and bias by a real `c` scales every score by `c`. -/
theorem score_scaled {n : ℕ} (x : Fin 4 → Fin 4096 → Fin n → EReal) (w : Fin n → Fin 512 → EReal) (β : Fin 512 → EReal)
    (k : Fin 4 → Fin 4096 → Fin 512 → EReal) (c : EReal)
    (hx : ∀ b s j, IsReal (x b s j)) (hw : ∀ j d, IsReal (w j d)) (hβ : ∀ d, IsReal (β d))
    (hk : ∀ b t d, IsReal (k b t d)) (hc : IsReal c) (b : Fin 4) (s t : Fin 4096) :
    score (lin x (fun j d => w j d * c) (fun d => β d * c)) k b s t = score (lin x w β) k b s t * c := by
  choose xr hxr using hx
  choose wr hwr using hw
  choose βr hβr using hβ
  choose kr hkr using hk
  obtain ⟨cr, rfl⟩ := hc
  unfold score lin
  simp only [hxr, hwr, hβr, hkr, ← EReal.coe_mul, ← coe_sum, ← EReal.coe_add]
  rw [EReal.coe_eq_coe_iff, Finset.sum_mul]
  refine Finset.sum_congr rfl fun d _ => ?_
  have e : ∑ j, xr b s j * (wr j d * cr) = (∑ j, xr b s j * wr j d) * cr := by
    rw [Finset.sum_mul]; exact Finset.sum_congr rfl fun j _ => by ring
  rw [e]; ring

/-- The row of scores and the value column as sequences. -/
def seqS (q k : Fin 4 → Fin 4096 → Fin 512 → EReal) (b : Fin 4) (s : Fin 4096) (t : ℕ) : EReal :=
  if h : t < 4096 then score q k b s ⟨t, h⟩ else 0
def seqV (v : Fin 4 → Fin 4096 → Fin 512 → EReal) (b : Fin 4) (d : Fin 512) (t : ℕ) : EReal :=
  if h : t < 4096 then v b ⟨t, h⟩ d else 0

/-- Eight tiles of 512 keys over a row of real scores: the carried quotient is the row's attention output. -/
theorem tiled_eq_attnK (q k v : Fin 4 → Fin 4096 → Fin 512 → EReal) (b : Fin 4) (s : Fin 4096) (d : Fin 512)
    (hs : ∀ t, IsReal (score q k b s t)) :
    tiled q k v b s d = attnK (fun t : Fin 4096 => score q k b s t) (fun t : Fin 4096 => v b t d) := by
  have hstep : ∀ j < 8, carried q k v b s d (j + 1)
      = step (fun i : Fin 512 => seqS q k b s (512 * j + i.val)) (fun i : Fin 512 => seqV v b d (512 * j + i.val))
          (carried q k v b s d j) := by
    intro j hj
    rw [carried_succ q k v b s d ⟨j, hj⟩]
    congr 1
    · funext i
      have hi : 512 * j + i.val < 4096 := by have := i.isLt; omega
      unfold seqS; rw [dif_pos hi]; rfl
    · funext i
      have hi : 512 * j + i.val < 4096 := by have := i.isLt; omega
      unfold seqV; rw [dif_pos hi]; rfl
  have hreal : ∀ t < 512 * 8, IsReal (seqS q k b s t) := by
    intro t ht
    unfold seqS; rw [dif_pos (by omega)]; exact hs _
  have h8 := tiles (seqS q k b s) (seqV v b d) 512 (by omega) (carried q k v b s d) 8 (carried_zero q k v b s d)
    hstep hreal 7 (by omega)
  unfold tiled
  rw [h8]
  show Ideal.div (pre (seqS q k b s) (seqV v b d) 4096).2.2 (pre (seqS q k b s) (seqV v b d) 4096).2.1 = _
  rw [div_pre]
  congr 1
  · funext t; unfold seqS; rw [dif_pos t.isLt]
  · funext t; unfold seqV; rw [dif_pos t.isLt]

/-- THE BRIDGE: tiled attention with the scale folded into the query layer is plain attention with the scale on the
    scores, for real inputs and a real scale. -/
theorem tiled_eq_plain (x : Fin 4 → Fin 4096 → Fin 1024 → EReal) (wq : Fin 1024 → Fin 512 → EReal) (bq : Fin 512 → EReal)
    (fk fv : Fin 4 → Fin 4096 → Fin 512 → EReal) (wk wv : Fin 512 → Fin 512 → EReal) (bk bv : Fin 512 → EReal) (c : EReal)
    (hx : ∀ b s j, IsReal (x b s j)) (hwq : ∀ j d, IsReal (wq j d)) (hbq : ∀ d, IsReal (bq d))
    (hfk : ∀ b t j, IsReal (fk b t j)) (hwk : ∀ j d, IsReal (wk j d)) (hbk : ∀ d, IsReal (bk d))
    (hc : IsReal c) (b : Fin 4) (s : Fin 4096) (d : Fin 512) :
    tiled (lin x (fun j d => wq j d * c) (fun d => bq d * c)) (lin fk wk bk) (lin fv wv bv) b s d
      = plain c (lin x wq bq) (lin fk wk bk) (lin fv wv bv) b s d := by
  have hK : ∀ b t d, IsReal (lin fk wk bk b t d) := isReal_lin fk wk bk hfk hwk hbk
  have hsc : ∀ t, score (lin x (fun j d => wq j d * c) (fun d => bq d * c)) (lin fk wk bk) b s t
      = score (lin x wq bq) (lin fk wk bk) b s t * c :=
    fun t => score_scaled x wq bq (lin fk wk bk) c hx hwq hbq hK hc b s t
  have hQ : ∀ b s d, IsReal (lin x wq bq b s d) := isReal_lin x wq bq hx hwq hbq
  have hreal : ∀ t, IsReal (score (lin x (fun j d => wq j d * c) (fun d => bq d * c)) (lin fk wk bk) b s t) :=
    fun t => by rw [hsc t]; exact (isReal_score _ _ hQ hK b s t).mul hc
  rw [tiled_eq_attnK _ _ _ b s d hreal]
  haveI : Nonempty (Fin 4096) := ⟨⟨0, by omega⟩⟩
  rw [attnK_eq_attnR _ _ hreal]
  unfold plain
  congr 1
  funext t; exact hsc t

end Cert.AttnSpec

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«142881_j27659589386344_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.PreReal.lean ====
/-
  Under the precondition every entry of every argument array is a real number.

  The precondition is the conjunction, argument by argument, of "every entry has absolute value below +∞", each an
  all-reduction of comparison words; the conjunction being true makes each reduction true, and a true reduction makes
  every entry of its array a real number.
-/
import proofs.«142881_j27659589386344_2_alg».proof.Pre_finite_inputs
import proofs.«142881_j27659589386344_2_alg».proof.Proof.LibAllFinite

noncomputable section

namespace Cert.PreReal

open Idealize.ShloMosaic Idealize.ShloMosaic.ValueIdx Cert.LibRealEntries Cert.LibAllFinite Cert.Pre_finite_inputs

/-- The nine argument arrays have real entries when the precondition's word is one. -/
theorem real_args [Cert.Pre_finite_inputs.Facts] (a0 : FVec Ideal S4x4096x1024 .f32) (a1 a2 : FVec Ideal S4x4096x512 .f32)
    (a3 : FVec Ideal S1024x512 .f32) (a4 : FVec Ideal S512 .f32) (a5 : FVec Ideal S512x512 .f32) (a6 : FVec Ideal S512 .f32)
    (a7 : FVec Ideal S512x512 .f32) (a8 : FVec Ideal S512 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [fn, fn_part1, fn_part2] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6, real_of_all a7 _ _ _ _ h7,
    real_of_all a8 _ _ _ _ h8⟩

end Cert.PreReal

end
-- ==== Proof.Assemble.lean ====
/-
  The kernel program's result array against the reference's formula.

  Region 1 enters with the arrays the host and region 0 left: its first operand is the query input as launched; its
  second and third are the query weight and bias multiplied entrywise by the scale; its fourth and fifth are region 0's two
  outputs folded back to [4, 4096, 512], and region 0 computed them as the key and value linear layers of the inputs
  flattened to [16384, 512].  So the tiled attention region 1 leaves is the tiled attention of the scaled query layer
  against the key and value layers of the launch arrays, and under the precondition (every argument entry a real
  number) that is the plain attention with the scale on the scores (`Cert.AttnSpec.tiled_eq_plain`).
-/
import proofs.«142881_j27659589386344_2_alg».proof.Proof.KernelRun
import proofs.«142881_j27659589386344_2_alg».proof.Proof.KvValue
import proofs.«142881_j27659589386344_2_alg».proof.Proof.AttnValue
import proofs.«142881_j27659589386344_2_alg».proof.Proof.HostGlue
import proofs.«142881_j27659589386344_2_alg».proof.Proof.AttnMath
import proofs.«142881_j27659589386344_2_alg».proof.Proof.PreReal

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Cert.AttnSpec Cert.LibRealEntries

variable (m : (ℓ : Loc nD τ sig) → Buf (Elt Ideal) ℓ) (ρ : Dev nD → PrngReg) (c : Dev nD)

/-! ## The launch arrays as functions of coordinates -/

/-- The query input. -/
abbrev ax : Fin 4 → Fin 4096 → Fin 1024 → EReal :=
  fun b s k => (m ((c : Thread nD τ).loc main_arg0) : S4x4096x1024.Idx → EReal) (ix3 b s k)
/-- The key and value inputs. -/
abbrev afk : Fin 4 → Fin 4096 → Fin 512 → EReal :=
  fun b t f => (m ((c : Thread nD τ).loc main_arg1) : S4x4096x512.Idx → EReal) (ix3 b t f)
abbrev afv : Fin 4 → Fin 4096 → Fin 512 → EReal :=
  fun b t f => (m ((c : Thread nD τ).loc main_arg2) : S4x4096x512.Idx → EReal) (ix3 b t f)
/-- The three weight matrices and bias vectors. -/
abbrev awq : Fin 1024 → Fin 512 → EReal :=
  fun k d => (m ((c : Thread nD τ).loc main_arg3) : S1024x512.Idx → EReal) (ix2 k d)
abbrev abq : Fin 512 → EReal := fun d => (m ((c : Thread nD τ).loc main_arg4) : S512.Idx → EReal) (ix1 d)
abbrev awk : Fin 512 → Fin 512 → EReal :=
  fun f d => (m ((c : Thread nD τ).loc main_arg5) : S512x512.Idx → EReal) (ix2 f d)
abbrev abk : Fin 512 → EReal := fun d => (m ((c : Thread nD τ).loc main_arg6) : S512.Idx → EReal) (ix1 d)
abbrev awv : Fin 512 → Fin 512 → EReal :=
  fun f d => (m ((c : Thread nD τ).loc main_arg7) : S512x512.Idx → EReal) (ix2 f d)
abbrev abv : Fin 512 → EReal := fun d => (m ((c : Thread nD τ).loc main_arg8) : S512.Idx → EReal) (ix1 d)

/-- The scale word denotes a real number (its exponent field is neither all ones nor zero). -/
theorem isReal_cW : IsReal cW := by
  show IsReal (Ideal.ieee 8 23 (0x3D3504F3#32 : BitVec 32))
  unfold Ideal.ieee
  dsimp only
  rw [if_neg (by decide), if_neg (by decide)]
  exact ⟨_, rfl⟩

/-! ## What region 1 finds in its operands -/

/-- Its first operand is the query input as launched. -/
theorem in_q : V3 m ρ c main_arg0 = m ((c : Thread nD τ).loc main_arg0) :=
  (W3_of m ρ c main_arg0 (by decide)).trans <| (W2_of_ne m ρ c main_arg0 (by decide)).trans <|
    (W1_of m ρ c main_arg0 (by decide)).trans rfl

/-- Its second operand is what the first host stretch left in the scaled-weight buffer. -/
theorem in_wq : V3 m ρ c main_v1 = StableHlo.after (hostOps0 (F := Ideal)) (W0 m ρ c) (Proc.devRef .tc main_v1) :=
  (W3_of m ρ c main_v1 (by decide)).trans (W2_of_ne m ρ c main_v1 (by decide))

/-- Its third operand likewise, the scaled bias. -/
theorem in_bq : V3 m ρ c main_v3 = StableHlo.after (hostOps0 (F := Ideal)) (W0 m ρ c) (Proc.devRef .tc main_v3) :=
  (W3_of m ρ c main_v3 (by decide)).trans (W2_of_ne m ρ c main_v3 (by decide))

/-- The arrays region 0 reads: the flattened inputs the first host stretch wrote, and four arguments as launched. -/
theorem in_wk : V1 m ρ c main_arg5 = m ((c : Thread nD τ).loc main_arg5) := (W1_of m ρ c main_arg5 (by decide)).trans rfl
theorem in_bk : V1 m ρ c main_arg6 = m ((c : Thread nD τ).loc main_arg6) := (W1_of m ρ c main_arg6 (by decide)).trans rfl
theorem in_wv : V1 m ρ c main_arg7 = m ((c : Thread nD τ).loc main_arg7) := (W1_of m ρ c main_arg7 (by decide)).trans rfl
theorem in_bv : V1 m ρ c main_arg8 = m ((c : Thread nD τ).loc main_arg8) := (W1_of m ρ c main_arg8 (by decide)).trans rfl

/-- The scaled query weight, entry by entry. -/
theorem wq_fun : (fun k d => (V3 m ρ c main_v1 : S1024x512.Idx → EReal) (ix2 k d)) = fun k d => awq m c k d * cW := by
  funext k d
  rw [in_wq m ρ c]
  exact glue_v1 (W0 m ρ c) k d

/-- The scaled query bias. -/
theorem bq_fun : (fun d => (V3 m ρ c main_v3 : S512.Idx → EReal) (ix1 d)) = fun d => abq m c d * cW := by
  funext d
  rw [in_bq m ρ c]
  exact glue_v3 (W0 m ρ c) d

/-- The query input. -/
theorem q_fun : (fun b s k => (V3 m ρ c main_arg0 : S4x4096x1024.Idx → EReal) (ix3 b s k)) = ax m c := by
  funext b s k
  rw [in_q m ρ c]

/-- Region 1's fourth operand is the key layer of the launch arrays. -/
theorem k_fun : (fun b t d => (V3 m ρ c main_v7 : S4x4096x512.Idx → EReal) (ix3 b t d))
    = lin (afk m c) (awk m c) (abk m c) := by
  funext b t d
  have e1 : (V3 m ρ c main_v7 : S4x4096x512.Idx → EReal) (ix3 b t d)
      = (W2 m ρ c (Proc.devRef .tc main_v6_0) : S16384x512.Idx → EReal) (ix2 (flatRow b t) d) :=
    glue_v7 (W2 m ρ c) b t d
  have e2 : W2 m ρ c (Proc.devRef .tc main_v6_0) = (dat0 (V1 m ρ) c).arrAt 6 cfg0.N := W2_arr m ρ c 6
  rw [e1, e2, kv_value6 (V1 m ρ) c (flatRow b t) d]
  unfold lin
  congr 1
  · refine Finset.sum_congr rfl fun f _ => ?_
    have e3 : inK (V1 m ρ) c (ix2 (flatRow b t) f) = afk m c b t f := glue_v4 (W0 m ρ c) b t f
    have e4 : wK (V1 m ρ) c = m ((c : Thread nD τ).loc main_arg5) := in_wk m ρ c
    rw [e3, e4]

/-- Region 1's fifth operand is the value layer of the launch arrays. -/
theorem v_fun : (fun b t d => (V3 m ρ c main_v8 : S4x4096x512.Idx → EReal) (ix3 b t d))
    = lin (afv m c) (awv m c) (abv m c) := by
  funext b t d
  have e1 : (V3 m ρ c main_v8 : S4x4096x512.Idx → EReal) (ix3 b t d)
      = (W2 m ρ c (Proc.devRef .tc main_v6_1) : S16384x512.Idx → EReal) (ix2 (flatRow b t) d) :=
    glue_v8 (W2 m ρ c) b t d
  have e2 : W2 m ρ c (Proc.devRef .tc main_v6_1) = (dat0 (V1 m ρ) c).arrAt 7 cfg0.N := W2_arr m ρ c 7
  rw [e1, e2, kv_value7 (V1 m ρ) c (flatRow b t) d]
  unfold lin
  congr 1
  · refine Finset.sum_congr rfl fun f _ => ?_
    have e3 : inV (V1 m ρ) c (ix2 (flatRow b t) f) = afv m c b t f := glue_v5 (W0 m ρ c) b t f
    have e4 : wV (V1 m ρ) c = m ((c : Thread nD τ).loc main_arg7) := in_wv m ρ c
    rw [e3, e4]

/-! ## The result -/

/-- THE KERNEL PROGRAM'S RESULT: under the precondition, entry `(b, s, d)` of the array region 1 leaves is the plain
    softmax attention of the launch arrays with the scale on the scores. -/
theorem kernel_value [Cert.Pre_finite_inputs.Facts]
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1)
    (b : Fin 4) (s : Fin 4096) (d : Fin 512) :
    ((dat1 (F := Ideal) (V3 m ρ) c).arrAt 5 cfg1.N : S4x4096x512.Idx → EReal) (ix3 b s d)
      = plain cW (lin (ax m c) (awq m c) (abq m c)) (lin (afk m c) (awk m c) (abk m c))
          (lin (afv m c) (awv m c) (abv m c)) b s d := by
  obtain ⟨h0, h1, h2, h3, h4, h5, h6, h7, h8⟩ := Cert.PreReal.real_args _ _ _ _ _ _ _ _ _ hpre
  rw [attn_value (V3 m ρ) c b s d, q_fun m ρ c, wq_fun m ρ c, bq_fun m ρ c, k_fun m ρ c, v_fun m ρ c]
  exact tiled_eq_plain (ax m c) (awq m c) (abq m c) (afk m c) (afv m c) (awk m c) (awv m c) (abk m c) (abv m c) cW
    (fun b s j => h0 _) (fun j d => h3 _) (fun d => h4 _) (fun b t j => h1 _) (fun j d => h5 _) (fun d => h6 _)
    isReal_cW b s d

end Cert.KernelIdeal.Val

end
-- ==== Proof.RefValue.lean ====
/-
  The reference program's result, read entry by entry on the extended reals.

  The reference forms Q = x·W_q + b_q, K = f_k·W_k + b_k, V = f_v·W_v + b_v row by row, the scores Σ_d Q[b,s,d]·K[b,t,d]
  multiplied by a scale word, the row's largest score (a maximum fold started from −∞, then a maximum against −∞ again),
  the weights exp (score − largest), their sum (started from the zero word), the quotients weight / sum and finally
  Σ_t quotient[b,s,t]·V[b,t,d].  Entry (b, s, d) of that result is the softmax attention of row (b, s) with the weights
  normalised before the weighted sum: the function the specification module calls plain.  Each stage is read at an
  entry given by its coordinates, in the program's order.
-/
import proofs.«142881_j27659589386344_2_alg».proof.Proof.Gen.ReferenceIdeal.Read
import proofs.«142881_j27659589386344_2_alg».proof.Proof.AttnSpec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The scale the scores are multiplied by: the extended real the program's scale word denotes. -/
abbrev cW : EReal := Ideal.ofBits .f32 0x3D3504F3#32

/-- The query input by coordinates. -/
abbrev xq (a0 : (⟨S4x4096x1024, .f32⟩ : BufTy).Contents (Elt Ideal)) : Fin 4 → Fin 4096 → Fin 1024 → EReal :=
  fun b s k => a0 (ix3 b s k)
/-- A key or value input by coordinates. -/
abbrev xf (a : (⟨S4x4096x512, .f32⟩ : BufTy).Contents (Elt Ideal)) : Fin 4 → Fin 4096 → Fin 512 → EReal :=
  fun b t f => a (ix3 b t f)
/-- The query weight by coordinates. -/
abbrev wQ (a3 : (⟨S1024x512, .f32⟩ : BufTy).Contents (Elt Ideal)) : Fin 1024 → Fin 512 → EReal := fun k d => a3 (ix2 k d)
/-- A key or value weight by coordinates. -/
abbrev wF (a : (⟨S512x512, .f32⟩ : BufTy).Contents (Elt Ideal)) : Fin 512 → Fin 512 → EReal := fun f d => a (ix2 f d)
/-- A bias by its coordinate. -/
abbrev bV (a : (⟨S512, .f32⟩ : BufTy).Contents (Elt Ideal)) : Fin 512 → EReal := fun d => a (ix1 d)

/-! ## The stages' index maps at coordinates -/

theorem lidx_v0 (b : Fin 4) (s : Fin 4096) (d : Fin 512) (k : Fin 1024) : lidx_main_v0 (ix3 b s d) k = ix3 b s k :=
  funext fun a => Fin.ext (by match a with | ⟨0, _⟩ => rfl | ⟨1, _⟩ => rfl | ⟨2, _⟩ => rfl)
theorem ridx_v0 (b : Fin 4) (s : Fin 4096) (d : Fin 512) (k : Fin 1024) : ridx_main_v0 (ix3 b s d) k = ix2 k d :=
  funext fun a => Fin.ext (by match a with | ⟨0, _⟩ => rfl | ⟨1, _⟩ => rfl)
theorem lidx_v4 (b : Fin 4) (s : Fin 4096) (d : Fin 512) (k : Fin 512) : lidx_main_v4 (ix3 b s d) k = ix3 b s k :=
  funext fun a => Fin.ext (by match a with | ⟨0, _⟩ => rfl | ⟨1, _⟩ => rfl | ⟨2, _⟩ => rfl)
theorem ridx_v4 (b : Fin 4) (s : Fin 4096) (d : Fin 512) (k : Fin 512) : ridx_main_v4 (ix3 b s d) k = ix2 k d :=
  funext fun a => Fin.ext (by match a with | ⟨0, _⟩ => rfl | ⟨1, _⟩ => rfl)
theorem lidx_v8 (b : Fin 4) (s : Fin 4096) (d : Fin 512) (k : Fin 512) : lidx_main_v8 (ix3 b s d) k = ix3 b s k :=
  funext fun a => Fin.ext (by match a with | ⟨0, _⟩ => rfl | ⟨1, _⟩ => rfl | ⟨2, _⟩ => rfl)
theorem ridx_v8 (b : Fin 4) (s : Fin 4096) (d : Fin 512) (k : Fin 512) : ridx_main_v8 (ix3 b s d) k = ix2 k d :=
  funext fun a => Fin.ext (by match a with | ⟨0, _⟩ => rfl | ⟨1, _⟩ => rfl)
theorem bias_idx_v2 (b : Fin 4) (s : Fin 4096) (d : Fin 512) : idx_main_v1 (idx_main_v2 (ix3 b s d)) = ix1 d :=
  funext fun a => Fin.ext (by match a with | ⟨0, _⟩ => rfl)
theorem bias_idx_v6 (b : Fin 4) (s : Fin 4096) (d : Fin 512) : idx_main_v5 (idx_main_v6 (ix3 b s d)) = ix1 d :=
  funext fun a => Fin.ext (by match a with | ⟨0, _⟩ => rfl)
theorem bias_idx_v10 (b : Fin 4) (s : Fin 4096) (d : Fin 512) : idx_main_v9 (idx_main_v10 (ix3 b s d)) = ix1 d :=
  funext fun a => Fin.ext (by match a with | ⟨0, _⟩ => rfl)
theorem lidx_v12 (b : Fin 4) (s t : Fin 4096) (k : Fin 512) : lidx_main_v12 (ix3 b s t) k = ix3 b s k :=
  funext fun a => Fin.ext (by match a with | ⟨0, _⟩ => rfl | ⟨1, _⟩ => rfl | ⟨2, _⟩ => rfl)
theorem ridx_v12 (b : Fin 4) (s t : Fin 4096) (k : Fin 512) : ridx_main_v12 (ix3 b s t) k = ix3 b t k :=
  funext fun a => Fin.ext (by match a with | ⟨0, _⟩ => rfl | ⟨1, _⟩ => rfl | ⟨2, _⟩ => rfl)
theorem keep_idx_v19 (b : Fin 4) (s t : Fin 4096) : idx_main_v18 (idx_main_v19 (ix3 b s t)) = ix2 b s :=
  funext fun a => Fin.ext (by match a with | ⟨0, _⟩ => rfl | ⟨1, _⟩ => rfl)
theorem idx_v22 (b : Fin 4) (s : Fin 4096) (k : Fin 4096) : idx_main_v22 (ix2 b s) k = ix3 b s k :=
  funext fun a => Fin.ext (by match a with | ⟨0, _⟩ => rfl | ⟨1, _⟩ => rfl | ⟨2, _⟩ => rfl)
theorem keep_idx_v24 (b : Fin 4) (s t : Fin 4096) : idx_main_v23 (idx_main_v24 (ix3 b s t)) = ix2 b s :=
  funext fun a => Fin.ext (by match a with | ⟨0, _⟩ => rfl | ⟨1, _⟩ => rfl)
theorem lidx_v26 (b : Fin 4) (s : Fin 4096) (d : Fin 512) (k : Fin 4096) : lidx_main_v26 (ix3 b s d) k = ix3 b s k :=
  funext fun a => Fin.ext (by match a with | ⟨0, _⟩ => rfl | ⟨1, _⟩ => rfl | ⟨2, _⟩ => rfl)
theorem ridx_v26 (b : Fin 4) (s : Fin 4096) (d : Fin 512) (k : Fin 4096) : ridx_main_v26 (ix3 b s d) k = ix3 b k d :=
  funext fun a => Fin.ext (by match a with | ⟨0, _⟩ => rfl | ⟨1, _⟩ => rfl | ⟨2, _⟩ => rfl)

/-! ## A maximum fold from −∞ is the supremum -/

/-- The −∞ word denotes the least extended real. -/
theorem ofBits_neg_inf : Ideal.ofBits .f32 0xFF800000#32 = (⊥ : EReal) := by simp [Ideal.ofBits, Ideal.ieee]

/-- Folding the maximum from the least element over a finite set is the supremum. -/
theorem fold_max_bot {ι : Type} [DecidableEq ι] (S : Finset ι) (g : ι → EReal) :
    S.fold (max : EReal → EReal → EReal) ⊥ g = S.sup g := by
  induction S using Finset.induction_on with
  | empty => rfl
  | insert a S ha ih => rw [Finset.fold_insert ha, Finset.sup_insert, ih]

/-- The reduced index (b, s) with coordinate k put back on the last axis is (b, s, k). -/
theorem lift_ix3 (h : S4x4096x4096.Reduces [2] S4x4096) (b : Fin 4) (s : Fin 4096) (k : Fin (S4x4096x4096.size 2)) :
    h.lift (ix2 b s) k = ix3 b s (⟨k.val, k.isLt⟩ : Fin 4096) := by
  funext c; apply Fin.ext
  fin_cases c <;> rfl

/-- The host's maximum reduce over the last axis from the −∞ word, at (b, s), is the supremum of row (b, s). -/
theorem hostMax_row (y : S4x4096x4096.Idx → EReal) (b : Fin 4) (s : Fin 4096) :
    (Host.reduce (FloatOps.maximumf (F := Ideal) (φ := .f32)) y (val_main_cst_0 (F := Ideal)) reducesTo_S4x4096x4096_S4x4096_d2 h_S_
        : S4x4096.Idx → EReal) (ix2 b s)
      = Finset.univ.sup (fun t : Fin 4096 => y (ix3 b s t)) := by
  have h : S4x4096x4096.Reduces [2] S4x4096 := by decide
  rw [Host.reduce_eq_fold_single (FloatOps.maximumf (F := Ideal) (φ := .f32)) y _ reducesTo_S4x4096x4096_S4x4096_d2 h h_S_]
  refine Eq.trans ?_ (fold_max_bot (Finset.univ : Finset (Fin 4096)) (fun t => y (ix3 b s t)))
  have hb : (val_main_cst_0 (F := Ideal)) (Shape.Idx.first h_S_) = (⊥ : EReal) := ofBits_neg_inf
  have hf : (y ∘ h.lift (ix2 b s)) = fun t : Fin 4096 => y (ix3 b s t) := funext fun k => congrArg y (lift_ix3 h b s k)
  rw [hb, hf]
  rfl

section Stages

variable (a0 : (⟨S4x4096x1024, .f32⟩ : BufTy).Contents (Elt Ideal)) (a1 a2 : (⟨S4x4096x512, .f32⟩ : BufTy).Contents (Elt Ideal))
  (a3 : (⟨S1024x512, .f32⟩ : BufTy).Contents (Elt Ideal)) (a4 : (⟨S512, .f32⟩ : BufTy).Contents (Elt Ideal))
  (a5 : (⟨S512x512, .f32⟩ : BufTy).Contents (Elt Ideal)) (a6 : (⟨S512, .f32⟩ : BufTy).Contents (Elt Ideal))
  (a7 : (⟨S512x512, .f32⟩ : BufTy).Contents (Elt Ideal)) (a8 : (⟨S512, .f32⟩ : BufTy).Contents (Elt Ideal))

/-! ## The three linear layers -/

theorem v3_at (b : Fin 4) (s : Fin 4096) (d : Fin 512) :
    val_main_v3 (F := Ideal) a0 a3 a4 (ix3 b s d) = Cert.AttnSpec.lin (xq a0) (wQ a3) (bV a4) b s d := by
  rw [val_main_v3_apply, val_main_v0_apply, val_main_v2_apply, val_main_v1_apply]
  simp only [lidx_v0, ridx_v0, bias_idx_v2, Ideal.addf_def]
  rfl

theorem v7_at (b : Fin 4) (t : Fin 4096) (d : Fin 512) :
    val_main_v7 (F := Ideal) a1 a5 a6 (ix3 b t d) = Cert.AttnSpec.lin (xf a1) (wF a5) (bV a6) b t d := by
  rw [val_main_v7_apply, val_main_v4_apply, val_main_v6_apply, val_main_v5_apply]
  simp only [lidx_v4, ridx_v4, bias_idx_v6, Ideal.addf_def]
  rfl

theorem v11_at (b : Fin 4) (t : Fin 4096) (d : Fin 512) :
    val_main_v11 (F := Ideal) a2 a7 a8 (ix3 b t d) = Cert.AttnSpec.lin (xf a2) (wF a7) (bV a8) b t d := by
  rw [val_main_v11_apply, val_main_v8_apply, val_main_v10_apply, val_main_v9_apply]
  simp only [lidx_v8, ridx_v8, bias_idx_v10, Ideal.addf_def]
  rfl

/-! ## The scaled scores, their maximum, the weights and their sum -/

/-- The scaled scores of query row (b, s). -/
abbrev sc (b : Fin 4) (s : Fin 4096) : Fin 4096 → EReal := fun t =>
  Cert.AttnSpec.score (Cert.AttnSpec.lin (xq a0) (wQ a3) (bV a4)) (Cert.AttnSpec.lin (xf a1) (wF a5) (bV a6)) b s t * cW

theorem v14_at (b : Fin 4) (s t : Fin 4096) :
    val_main_v14 (F := Ideal) a0 a1 a3 a4 a5 a6 (ix3 b s t) = sc a0 a1 a3 a4 a5 a6 b s t := by
  rw [val_main_v14_apply, val_main_v12_apply, val_main_v13_apply, val_main_cst_apply]
  simp only [lidx_v12, ridx_v12, v3_at, v7_at, Ideal.mulf_def, Ideal.ofBits_def]
  rfl

theorem v17_at (b : Fin 4) (s : Fin 4096) :
    val_main_v17 (F := Ideal) a0 a1 a3 a4 a5 a6 (ix2 b s) = Finset.univ.sup (sc a0 a1 a3 a4 a5 a6 b s) := by
  rw [val_main_v17_apply, val_main_v16_apply, val_main_cst_1_apply]
  unfold val_main_v15
  rw [hostMax_row]
  simp only [v14_at, Ideal.maximumf_def, Ideal.ofBits_def]
  rw [ofBits_neg_inf, max_eq_right bot_le]

theorem v19_at (b : Fin 4) (s t : Fin 4096) :
    val_main_v19 (F := Ideal) a0 a1 a3 a4 a5 a6 (ix3 b s t) = Finset.univ.sup (sc a0 a1 a3 a4 a5 a6 b s) := by
  rw [val_main_v19_apply, val_main_v18_apply, keep_idx_v19, v17_at]

theorem v21_at (b : Fin 4) (s t : Fin 4096) :
    val_main_v21 (F := Ideal) a0 a1 a3 a4 a5 a6 (ix3 b s t) = Cert.Attn.wt (sc a0 a1 a3 a4 a5 a6 b s) t := by
  rw [val_main_v21_apply, val_main_v20_apply, v14_at, v19_at]
  simp only [Ideal.hostUnary_exp_def, Ideal.subf_def]
  rfl

theorem v22_at (b : Fin 4) (s : Fin 4096) :
    val_main_v22 (F := Ideal) a0 a1 a3 a4 a5 a6 (ix2 b s) = Cert.Attn.den (sc a0 a1 a3 a4 a5 a6 b s) := by
  rw [val_main_v22_apply, val_main_cst_2_apply]
  simp only [idx_v22, v21_at, Ideal.ofBits_def, Ideal.ofBits_zero_f32, zero_add]
  rfl

theorem v24_at (b : Fin 4) (s t : Fin 4096) :
    val_main_v24 (F := Ideal) a0 a1 a3 a4 a5 a6 (ix3 b s t) = Cert.Attn.den (sc a0 a1 a3 a4 a5 a6 b s) := by
  rw [val_main_v24_apply, val_main_v23_apply, keep_idx_v24, v22_at]

theorem v25_at (b : Fin 4) (s t : Fin 4096) :
    val_main_v25 (F := Ideal) a0 a1 a3 a4 a5 a6 (ix3 b s t)
      = Ideal.div (Cert.Attn.wt (sc a0 a1 a3 a4 a5 a6 b s) t) (Cert.Attn.den (sc a0 a1 a3 a4 a5 a6 b s)) := by
  rw [val_main_v25_apply, v21_at, v24_at]
  rfl

/-! ## The result -/

/-- Entry (b, s, d) of the reference's result is the row's softmax attention over the three linear layers' outputs. -/
theorem ref_value (b : Fin 4) (s : Fin 4096) (d : Fin 512) :
    val_main_v26 (F := Ideal) a0 a1 a2 a3 a4 a5 a6 a7 a8 (ix3 b s d)
      = Cert.AttnSpec.plain cW (Cert.AttnSpec.lin (xq a0) (wQ a3) (bV a4)) (Cert.AttnSpec.lin (xf a1) (wF a5) (bV a6))
          (Cert.AttnSpec.lin (xf a2) (wF a7) (bV a8)) b s d := by
  rw [val_main_v26_apply]
  simp only [lidx_v26, ridx_v26, v25_at, v11_at]
  rfl

end Stages

end Cert.ReferenceIdeal.RefValue

end
-- ==== Proof.lean ====
/-
  The five claims for the attention layer: query, key and value linear projections followed by scaled dot-product
  attention over 4 batches of 4096 rows.

  The kernel program scales the query weight and bias by the scale word on the host, projects keys and values in a first
  kernel over 16 row blocks, and in a second kernel over the grid (batch, query block, key tile) projects a query block at
  the first key tile, carries the running maximum, the sum of weights and the weighted sum of values across the 8 key
  tiles of a query block, and divides at the last tile.  The reference projects, scales the scores after their sum, and
  normalises the softmax weights before the weighted sum.

  Frames: each kernel program runs as two host stretches and two kernel regions; the first region's body stores two whole
  blocks, the second region's invariant carries its four scratch arrays at named contents from point to point.  The
  reference is a host program; its run gives its frame.  The idealization rewrote nothing.

  Values on the extended reals: the second region leaves the tiled attention of the scaled query layer against the key and
  value layers; under the precondition every argument entry is a real number, so every projected entry and every score
  is real, the scale passes through the finite sums of a score, eight tile updates from (−∞, 0, 0) leave the whole row's
  triple, and its quotient is the row's attention output with the weights normalised first, which is what the reference
  computes entry by entry.
-/
import proofs.«142881_j27659589386344_2_alg».proof.Defs
import proofs.«142881_j27659589386344_2_alg».proof.Proof.Gen.Kernel
import proofs.«142881_j27659589386344_2_alg».proof.Proof.Gen.KernelIdeal
import proofs.«142881_j27659589386344_2_alg».proof.Proof.Gen.ReferenceIdeal
import proofs.«142881_j27659589386344_2_alg».proof.Proof.Gen.ReferenceIdeal.Run
import proofs.«142881_j27659589386344_2_alg».proof.Proof.Gen.ReferenceIdeal.Read
import proofs.«142881_j27659589386344_2_alg».proof.Proof.Gen.Pre_finite_inputs
import proofs.«142881_j27659589386344_2_alg».proof.Proof.KernelRunK
import proofs.«142881_j27659589386344_2_alg».proof.Proof.Assemble
import proofs.«142881_j27659589386344_2_alg».proof.Proof.RefValue

set_option maxRecDepth 16384

noncomputable section

namespace Cert.Proof

open Idealize.ShloMosaic Idealize.ShloMosaic.ValueIdx Idealize.SL.Sem

/-- The kernel program at the word level runs to the end and leaves its nine argument arrays as launched. -/
theorem frame_p : Cert.frame_Kernel := fun m ρ _ => Cert.Kernel.Hand.frame m ρ

/-- So does the kernel program read on the extended reals. -/
theorem frame_pi : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: entry `(b, s, d)` of each is
    the plain softmax attention of the launch arrays with the scale on the scores. -/
theorem algebraic : Cert.algebraic_KernelIdeal_ReferenceIdeal := by
  intro m ρ m' ρ' hpre hagree
  refine ⟨fun c => (Cert.KernelIdeal.Hand.dat1 (F := Ideal) (Cert.KernelIdeal.Hand.V3 m ρ) c).arrAt 5 Cert.KernelIdeal.cfg1.N,
    Cert.KernelIdeal.Hand.result_v9 m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  funext i
  obtain ⟨b, s, d, rfl⟩ : ∃ (b : Fin 4) (s : Fin 4096) (d : Fin 512), i = ix3 b s d := ⟨i 0, i 1, i 2, eq_ix3 i⟩
  exact (Cert.ReferenceIdeal.RefValue.ref_value _ _ _ _ _ _ _ _ _ b s d).trans
    (Cert.KernelIdeal.Val.kernel_value m ρ c (hpre c) b s d).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
